-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2050x2048 : Shape := ⟨2, ![2050, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2050x2048 : S_.BroadcastsInDim S2050x2048 (![] : Fin 0 → Fin S2050x2048.rank)
  reducesTo_S2050x2048_S_d0_1 : S2050x2048.ReducesTo [0, 1] S_

variable [Facts]

def fn {F : FTy → Type} [FloatOps F] (main_arg0 : FVec F S4096x2048 .f32) (main_arg1 : FVec F S2050x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2050x2048 .f32 := Host.absf main_arg1
  let main_cst_0 : FVec F S_ .f32 := constant S_ .f32 0x7F800000#32
  let main_v5 : FVec F S2050x2048 .f32 := broadcastInDim S2050x2048 ![] bcast_S_S2050x2048 main_cst_0
  let main_v6 : IVec S2050x2048 1 := cmpf .olt main_v4 main_v5
  let main_c_1 : IVec S_ 1 := constantI S_ 1 1#1
  let main_v7 : IVec S_ 1 := (fun x v => Host.reduce IntOp.andi x v reducesTo_S2050x2048_S_d0_1 h_S_) main_v6 main_c_1
  let main_v8 : IVec S_ 1 := andi main_v3 main_v7
  let main_v9 : FVec F S2050x2048 .f32 := Host.absf main_arg1
  let main_cst_2 : FVec F S_ .f32 := constant S_ .f32 0x00000000#32
  let main_v10 : FVec F S2050x2048 .f32 := broadcastInDim S2050x2048 ![] bcast_S_S2050x2048 main_cst_2
  let main_v11 : IVec S2050x2048 1 := cmpf .ogt main_v9 main_v10
  let main_c_3 : IVec S_ 1 := constantI S_ 1 1#1
  let main_v12 : IVec S_ 1 := (fun x v => Host.reduce IntOp.andi x v reducesTo_S2050x2048_S_d0_1 h_S_) main_v11 main_c_3
  let main_v13 : IVec S_ 1 := andi main_v8 main_v12
  main_v13
-- ==== Kernel.lean ====
abbrev S4096x2048 : Shape := ⟨2, ![4096, 2048]⟩
abbrev S2050x2048 : Shape := ⟨2, ![2050, 2048]⟩
abbrev S_ : Shape := ⟨0, ![]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩
abbrev S2048x512 : Shape := ⟨2, ![2048, 512]⟩
abbrev S1x512 : Shape := ⟨2, ![1, 512]⟩
abbrev S256x512 : Shape := ⟨2, ![256, 512]⟩
abbrev S512 : Shape := ⟨1, ![512]⟩
abbrev S2048x1 : Shape := ⟨2, ![2048, 1]⟩

abbrev nBuf : Space → Nat
  | .hbm => 120
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2050x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2050x2048, .f32⟩
  | .hbm, ⟨6, _⟩ => ⟨S2050x2048, .f32⟩
  | .hbm, ⟨7, _⟩ => ⟨S_, .f32⟩
  | .hbm, ⟨8, _⟩ => ⟨S2050x2048, .f32⟩
  | .hbm, ⟨9, _⟩ => ⟨S2050x2048, .f32⟩
  | .hbm, ⟨10, _⟩ => ⟨S2050x2048, .f32⟩
  | .hbm, ⟨11, _⟩ => ⟨S_, .f32⟩
  | .hbm, ⟨12, _⟩ => ⟨S2050x2048, .f32⟩
  | .hbm, ⟨13, _⟩ => ⟨S2050x2048, .i1⟩
  | .hbm, ⟨14, _⟩ => ⟨S_, .f32⟩
  | .hbm, ⟨15, _⟩ => ⟨S_, .f32⟩
  | .hbm, ⟨16, _⟩ => ⟨S2050x2048, .f32⟩
  | .hbm, ⟨17, _⟩ => ⟨S2050x2048, .f32⟩
  | .hbm, ⟨18, _⟩ => ⟨S2050x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .i1⟩
  | .hbm, ⟨25, _⟩ => ⟨S_, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .i1⟩
  | .hbm, ⟨32, _⟩ => ⟨S2050x2048, .f32⟩
  | .hbm, ⟨33, _⟩ => ⟨S2050x2048, .f32⟩
  | .hbm, ⟨34, _⟩ => ⟨S_, .f32⟩
  | .hbm, ⟨35, _⟩ => ⟨S_, .f32⟩
  | .hbm, ⟨36, _⟩ => ⟨S2050x2048, .i1⟩
  | .hbm, ⟨37, _⟩ => ⟨S2050x2048, .f32⟩
  | .hbm, ⟨38, _⟩ => ⟨S2050x2048, .f32⟩
  | .hbm, ⟨39, _⟩ => ⟨S_, .f32⟩
  | .hbm, ⟨40, _⟩ => ⟨S2050x2048, .f32⟩
  | .hbm, ⟨41, _⟩ => ⟨S2050x2048, .i1⟩
  | .hbm, ⟨42, _⟩ => ⟨S_, .f32⟩
  | .hbm, ⟨43, _⟩ => ⟨S_, .f32⟩
  | .hbm, ⟨44, _⟩ => ⟨S2050x2048, .f32⟩
  | .hbm, ⟨45, _⟩ => ⟨S2050x2048, .f32⟩
  | .hbm, ⟨46, _⟩ => ⟨S2050x2048, .f32⟩
  | .hbm, ⟨47, _⟩ => ⟨S2050x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S1x2048, .f32⟩
  | .hbm, ⟨53, _⟩ => ⟨S1x2048, .f32⟩
  | .hbm, ⟨54, _⟩ => ⟨S2050x2048, .f32⟩
  | .hbm, ⟨55, _⟩ => ⟨S2050x2048, .f32⟩
  | .hbm, ⟨56, _⟩ => ⟨S2048x2048, .f32⟩
  | .hbm, ⟨57, _⟩ => ⟨S2048x2048, .bf16⟩
  | .hbm, ⟨58, _⟩ => ⟨S1x2048, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S1x2048, .f32⟩
  | .hbm, ⟨63, _⟩ => ⟨S2048, .f32⟩
  | .hbm, ⟨64, _⟩ => ⟨S2048x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S4096x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S_, .f32⟩
  | .hbm, ⟨85, _⟩ => ⟨S_, .f32⟩
  | .hbm, ⟨86, _⟩ => ⟨S1x2048, .f32⟩
  | .hbm, ⟨87, _⟩ => ⟨S2048x2048, .f32⟩
  | .hbm, ⟨88, _⟩ => ⟨S2048x2048, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S2048, .f32⟩
  | .hbm, ⟨102, _⟩ => ⟨S2048, .f32⟩
  | .hbm, ⟨103, _⟩ => ⟨S2048, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S2048, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S2048, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x512, .bf16⟩
  | .local _ .vmem, ⟨3, _⟩ => ⟨S1x512, .f32⟩
  | .local _ .vmem, ⟨4, _⟩ => ⟨S2048x512, .f32⟩
  | .local _ .vmem, ⟨5, _⟩ => ⟨S256x512, .f32⟩
  | .local _ .vmem, ⟨6, _⟩ => ⟨S256x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_v10 : Ref sig .tc := ⟨.hbm, 28, rfl⟩
abbrev main_cst_6 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_7 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_v15 : Ref sig .tc := ⟨.hbm, 38, rfl⟩
abbrev main_cst_8 : Ref sig .tc := ⟨.hbm, 39, rfl⟩
abbrev main_v16 : Ref sig .tc := ⟨.hbm, 40, rfl⟩
abbrev main_v17 : Ref sig .tc := ⟨.hbm, 41, rfl⟩
abbrev main_cst_9 : Ref sig .tc := ⟨.hbm, 42, rfl⟩
abbrev main_cst_10 : Ref sig .tc := ⟨.hbm, 43, rfl⟩
abbrev main_call4_v0 : Ref sig .tc := ⟨.hbm, 44, rfl⟩
abbrev main_call4_v1 : Ref sig .tc := ⟨.hbm, 45, rfl⟩
abbrev main_v18 : Ref sig .tc := ⟨.hbm, 46, rfl⟩
abbrev main_v19 : Ref sig .tc := ⟨.hbm, 47, rfl⟩
abbrev main_cst_11 : Ref sig .tc := ⟨.hbm, 48, rfl⟩
abbrev main_v20 : Ref sig .tc := ⟨.hbm, 49, rfl⟩
abbrev main_v21 : Ref sig .tc := ⟨.hbm, 50, rfl⟩
abbrev main_cst_12 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41_0 : Ref sig .tc := ⟨.hbm, 71, rfl⟩
abbrev main_v41_1 : Ref sig .tc := ⟨.hbm, 72, rfl⟩
abbrev main_v41_2 : Ref sig .tc := ⟨.hbm, 73, rfl⟩
abbrev main_v41_3 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_13 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_cst_16 : Ref sig .tc := ⟨.hbm, 91, rfl⟩
abbrev main_v55 : Ref sig .tc := ⟨.hbm, 92, rfl⟩
abbrev main_cst_17 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_18 : Ref sig .tc := ⟨.hbm, 97, rfl⟩
abbrev main_v59 : Ref sig .tc := ⟨.hbm, 98, rfl⟩
abbrev main_cst_19 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_20 : Ref sig .tc := ⟨.hbm, 104, rfl⟩
abbrev main_v64 : Ref sig .tc := ⟨.hbm, 105, rfl⟩
abbrev main_cst_21 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_22 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_23 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_24 : Ref sig .tc := ⟨.hbm, 118, rfl⟩
abbrev main_v74 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_23 : BitVec 32 := 0#32
  let v36 : BitVec 1 := Scalar.cmpi .ne v35 c0_i32_23
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S2050x2048 : S_.BroadcastsInDim S2050x2048 (![] : Fin 0 → Fin S2050x2048.rank)
  reducesTo_S2050x2048_S2048_d0 : S2050x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2050x2048_0_1 : S1x2048.BroadcastsInDim S2050x2048 (![0, 1] : Fin 2 → Fin S2050x2048.rank)
  slices_S2050x2048_S2048x2048_0_0 : S2050x2048.Slices ![0, 0] S2048x2048
  bitsLt_bf16_f32 : FTy.bits .bf16 < FTy.bits .f32
  slices_S2050x2048_S1x2048_2048_0 : S2050x2048.Slices ![2048, 0] S1x2048
  shapeCasts_S1x2048_S2048 : S1x2048.ShapeCasts S2048
  slices_S2050x2048_S1x2048_2049_0 : S2050x2048.Slices ![2049, 0] S1x2048
  inb_S1x512_S1x512_0_0 : ∀ a, (![0, 0] : Fin 2 → Nat) a + S1x512.size a ≤ S1x512.size a
  h_S1x512 : 0 < S1x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x2048_S256x2048_0_0 : ∀ a, (![0, 0] : Fin 2 → Nat) a + S256x2048.size a ≤ S256x2048.size a
  h_S256x2048 : 0 < S256x2048.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  reduces_S256x512_S512 : S256x512.Reduces [0] S512
  shapeCasts_S512_S1x512 : S512.ShapeCasts S1x512
  reduces_S2048x512_S512 : S2048x512.Reduces [0] S512
  reducesTo_S4096x2048_S2048_d0 : S4096x2048.ReducesTo [0] S2048
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  reducesTo_S2048x2048_S_d0_1 : S2048x2048.ReducesTo [0, 1] S_
  bcast_S1x2048_S2048x2048_0_1 : S1x2048.BroadcastsInDim S2048x2048 (![0, 1] : Fin 2 → Fin S2048x2048.rank)
  reducesTo_S2048_S_d0 : S2048.ReducesTo [0] S_
  dot_S256x2048_S2048x512_S256x512_1_0_0_1_n_n_wf : DotDims.WF S256x2048 S2048x512 S256x512 [1] [0] [0] [1] [] []
  dot_S256x2048_S256x512_S2048x512_0_0_1_1_n_n_wf : DotDims.WF S256x2048 S256x512 S2048x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .bf16 = 32 ∨ (Rect.block (s := S2048x2048) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x2048.size a
  hwx0_3 : ∀ i : grid0.Coords, EltTy.bits .f32 = 32 ∨ (Rect.block (s := S2048x2048) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x2048.size a
  hwx0_4 : ∀ i : grid0.Coords, EltTy.bits .f32 = 32 ∨ (Rect.block (s := S4096x2048) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x2048_S256x512_S2048x512_0_0_1_1_n_n : DotDims S256x2048 S256x512 S2048x512 where
  lhsContracting := [0]
  rhsContracting := [0]
  lhsNonContracting := [1]
  rhsNonContracting := [1]
  lhsBatch := []
  rhsBatch := []
  wf := dot_S256x2048_S256x512_S2048x512_0_0_1_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41_0) S256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41_1) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_2) S1x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v41_3) S1x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2050x2048 : Shape := ⟨2, ![2050, 2048]⟩
abbrev S_ : Shape := ⟨0, ![]⟩
abbrev S2048 : Shape := ⟨1, ![2048]⟩
abbrev S1x2048 : Shape := ⟨2, ![1, 2048]⟩
abbrev S4096x1 : Shape := ⟨2, ![4096, 1]⟩
abbrev S4096x2050 : Shape := ⟨2, ![4096, 2050]⟩
abbrev S1 : Shape := ⟨1, ![1]⟩
abbrev S4096 : Shape := ⟨1, ![4096]⟩
abbrev S2050 : Shape := ⟨1, ![2050]⟩
abbrev S2050x1 : Shape := ⟨2, ![2050, 1]⟩
abbrev S2050x4096 : Shape := ⟨2, ![2050, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2050x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2050x2048, .f32⟩
  | .hbm, ⟨6, _⟩ => ⟨S2050x2048, .f32⟩
  | .hbm, ⟨7, _⟩ => ⟨S_, .f32⟩
  | .hbm, ⟨8, _⟩ => ⟨S2050x2048, .f32⟩
  | .hbm, ⟨9, _⟩ => ⟨S2050x2048, .f32⟩
  | .hbm, ⟨10, _⟩ => ⟨S2050x2048, .f32⟩
  | .hbm, ⟨11, _⟩ => ⟨S_, .f32⟩
  | .hbm, ⟨12, _⟩ => ⟨S2050x2048, .f32⟩
  | .hbm, ⟨13, _⟩ => ⟨S2050x2048, .i1⟩
  | .hbm, ⟨14, _⟩ => ⟨S_, .f32⟩
  | .hbm, ⟨15, _⟩ => ⟨S_, .f32⟩
  | .hbm, ⟨16, _⟩ => ⟨S2050x2048, .f32⟩
  | .hbm, ⟨17, _⟩ => ⟨S2050x2048, .f32⟩
  | .hbm, ⟨18, _⟩ => ⟨S2050x2048, .f32⟩
  | .hbm, ⟨19, _⟩ => ⟨S2050x2048, .f32⟩
  | .hbm, ⟨20, _⟩ => ⟨S_, .f32⟩
  | .hbm, ⟨21, _⟩ => ⟨S2050x2048, .f32⟩
  | .hbm, ⟨22, _⟩ => ⟨S2050x2048, .i1⟩
  | .hbm, ⟨23, _⟩ => ⟨S2050x2048, .f32⟩
  | .hbm, ⟨24, _⟩ => ⟨S_, .f32⟩
  | .hbm, ⟨25, _⟩ => ⟨S2050x2048, .f32⟩
  | .hbm, ⟨26, _⟩ => ⟨S2050x2048, .f32⟩
  | .hbm, ⟨27, _⟩ => ⟨S2050x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .i1⟩
  | .hbm, ⟨34, _⟩ => ⟨S_, .f32⟩
  | .hbm, ⟨35, _⟩ => ⟨S1x2048, .f32⟩
  | .hbm, ⟨36, _⟩ => ⟨S1x2048, .i1⟩
  | .hbm, ⟨37, _⟩ => ⟨S_, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S2050x2048, .f32⟩
  | .hbm, ⟨42, _⟩ => ⟨S2050x2048, .f32⟩
  | .hbm, ⟨43, _⟩ => ⟨S_, .f32⟩
  | .hbm, ⟨44, _⟩ => ⟨S_, .f32⟩
  | .hbm, ⟨45, _⟩ => ⟨S2050x2048, .i1⟩
  | .hbm, ⟨46, _⟩ => ⟨S2050x2048, .f32⟩
  | .hbm, ⟨47, _⟩ => ⟨S2050x2048, .f32⟩
  | .hbm, ⟨48, _⟩ => ⟨S_, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x2050, .f32⟩
  | .hbm, ⟨53, _⟩ => ⟨S4096x2050, .f32⟩
  | .hbm, ⟨54, _⟩ => ⟨S_, .i32⟩
  | .hbm, ⟨55, _⟩ => ⟨S1, .i32⟩
  | .hbm, ⟨56, _⟩ => ⟨S_, .f32⟩
  | .hbm, ⟨57, _⟩ => ⟨S4096, .f32⟩
  | .hbm, ⟨58, _⟩ => ⟨S4096x2050, .f32⟩
  | .hbm, ⟨59, _⟩ => ⟨S2050x2048, .f32⟩
  | .hbm, ⟨60, _⟩ => ⟨S4096x2048, .f32⟩
  | .hbm, ⟨61, _⟩ => ⟨S2050x2048, .f32⟩
  | .hbm, ⟨62, _⟩ => ⟨S4096x2048, .f32⟩
  | .hbm, ⟨63, _⟩ => ⟨S4096x2048, .f32⟩
  | .hbm, ⟨64, _⟩ => ⟨S2050x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S2050x2048, .f32⟩
  | .hbm, ⟨72, _⟩ => ⟨S2050x2048, .f32⟩
  | .hbm, ⟨73, _⟩ => ⟨S_, .f32⟩
  | .hbm, ⟨74, _⟩ => ⟨S2050x2048, .f32⟩
  | .hbm, ⟨75, _⟩ => ⟨S2050x2048, .f32⟩
  | .hbm, ⟨76, _⟩ => ⟨S4096x2050, .f32⟩
  | .hbm, ⟨77, _⟩ => ⟨S_, .f32⟩
  | .hbm, ⟨78, _⟩ => ⟨S2050, .f32⟩
  | .hbm, ⟨79, _⟩ => ⟨S4096x2050, .f32⟩
  | .hbm, ⟨80, _⟩ => ⟨S_, .f32⟩
  | .hbm, ⟨81, _⟩ => ⟨S2050, .f32⟩
  | .hbm, ⟨82, _⟩ => ⟨S2050x1, .f32⟩
  | .hbm, ⟨83, _⟩ => ⟨S2050x2048, .f32⟩
  | .hbm, ⟨84, _⟩ => ⟨S2050x2048, .f32⟩
  | .hbm, ⟨85, _⟩ => ⟨S2050x1, .f32⟩
  | .hbm, ⟨86, _⟩ => ⟨S2050x2048, .f32⟩
  | .hbm, ⟨87, _⟩ => ⟨S2050x2048, .f32⟩
  | .hbm, ⟨88, _⟩ => ⟨S2050x2048, .f32⟩
  | .hbm, ⟨89, _⟩ => ⟨S2050x4096, .f32⟩
  | .hbm, ⟨90, _⟩ => ⟨S2050x2048, .f32⟩
  | .hbm, ⟨91, _⟩ => ⟨S2050x4096, .f32⟩
  | .hbm, ⟨92, _⟩ => ⟨S2050x2048, .f32⟩
  | .hbm, ⟨93, _⟩ => ⟨S2050x2048, .f32⟩
  | .hbm, ⟨94, _⟩ => ⟨S2050x2048, .f32⟩
  | .hbm, ⟨95, _⟩ => ⟨S2050x2048, .f32⟩
  | .hbm, ⟨96, _⟩ => ⟨S4096x2048, .f32⟩
  | .hbm, ⟨97, _⟩ => ⟨S_, .f32⟩
  | .hbm, ⟨98, _⟩ => ⟨S2048, .f32⟩
  | .hbm, ⟨99, _⟩ => ⟨S_, .f32⟩
  | .hbm, ⟨100, _⟩ => ⟨S2050x2048, .f32⟩
  | .hbm, ⟨101, _⟩ => ⟨S2050x2048, .f32⟩
  | .hbm, ⟨102, _⟩ => ⟨S2050x2048, .f32⟩
  | .hbm, ⟨103, _⟩ => ⟨S1x2048, .f32⟩
  | .hbm, ⟨104, _⟩ => ⟨S2050x2048, .f32⟩
  | .hbm, ⟨105, _⟩ => ⟨S2050x2048, .f32⟩
  | .hbm, ⟨106, _⟩ => ⟨S2050x2048, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_9 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v22 : Ref sig .tc := ⟨.hbm, 47, rfl⟩
abbrev main_cst_10 : Ref sig .tc := ⟨.hbm, 48, rfl⟩
abbrev main_v23 : Ref sig .tc := ⟨.hbm, 49, rfl⟩
abbrev main_cst_11 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_v27 : Ref sig .tc := ⟨.hbm, 55, rfl⟩
abbrev main_cst_12 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_v37 : Ref sig .tc := ⟨.hbm, 67, rfl⟩
abbrev main_cst_14 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_15 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_16 : Ref sig .tc := ⟨.hbm, 77, rfl⟩
abbrev main_v45 : Ref sig .tc := ⟨.hbm, 78, rfl⟩
abbrev main_v46 : Ref sig .tc := ⟨.hbm, 79, rfl⟩
abbrev main_cst_17 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_cst_19 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_20 : Ref sig .tc := ⟨.hbm, 107, rfl⟩
abbrev main_v71 : Ref sig .tc := ⟨.hbm, 108, rfl⟩
abbrev main_cst_21 : Ref sig .tc := ⟨.hbm, 109, rfl⟩
abbrev main_v72 : Ref sig .tc := ⟨.hbm, 110, rfl⟩

abbrev nD : Nat := 1
abbrev τ : Topo := Topo.v7x

variable {F : FTy → Type} [FloatOps F]

class Facts₀ : Prop where
  bcast_S_S2050x2048 : S_.BroadcastsInDim S2050x2048 (![] : Fin 0 → Fin S2050x2048.rank)
  reducesTo_S2050x2048_S2048_d0 : S2050x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2050x2048_0_1 : S1x2048.BroadcastsInDim S2050x2048 (![0, 1] : Fin 2 → Fin S2050x2048.rank)
  bcast_S_S4096x1 : S_.BroadcastsInDim S4096x1 (![] : Fin 0 → Fin S4096x1.rank)
  concatenates_S4096x2048_S4096x1_S4096x1_S4096x2050_d1 : Shape.Concatenates [S4096x2048, S4096x1, S4096x1] S4096x2050 1
  bcast_S_S1 : S_.BroadcastsInDim S1 (![] : Fin 0 → Fin S1.rank)
  bcast_S_S4096 : S_.BroadcastsInDim S4096 (![] : Fin 0 → Fin S4096.rank)
  reducesTo_S4096x2050_S2050_d0 : S4096x2050.ReducesTo [0] S2050
  bcast_S2050_S2050x1_0 : S2050.BroadcastsInDim S2050x1 (![0] : Fin 1 → Fin S2050x1.rank)
  bcast_S2050x1_S2050x2048_0_1 : S2050x1.BroadcastsInDim S2050x2048 (![0, 1] : Fin 2 → Fin S2050x2048.rank)
  transposes_S4096x2050_S2050x4096_1_0 : S4096x2050.Transposes [1, 0] S2050x4096
  reducesTo_S4096x2048_S2048_d0 : S4096x2048.ReducesTo [0] S2048
  reducesTo_S2050x2048_S_d0_1 : S2050x2048.ReducesTo [0, 1] S_
  scatter_S4096x2050_S1_S4096_0_1_1_0_wf : ScatterDims.WF S4096x2050 S1 S4096 [0] [1] [1] 0
  dot_S4096x2050_S2050x2048_S4096x2048_1_0_0_1_n_n_wf : DotDims.WF S4096x2050 S2050x2048 S4096x2048 [1] [0] [0] [1] [] []
  dot_S2050x4096_S4096x2048_S2050x2048_1_0_0_1_n_n_wf : DotDims.WF S2050x4096 S4096x2048 S2050x2048 [1] [0] [0] [1] [] []

variable [Facts₀]

def scatter_S4096x2050_S1_S4096_0_1_1_0 : ScatterDims S4096x2050 S1 S4096 where
  updateWindowDims := [0]
  insertedWindowDims := [1]
  scatterDimsToOperandDims := [1]
  indexVectorDim := 0
  wf := scatter_S4096x2050_S1_S4096_0_1_1_0_wf
def dot_S4096x2050_S2050x2048_S4096x2048_1_0_0_1_n_n : DotDims S4096x2050 S2050x2048 S4096x2048 where
  lhsContracting := [1]
  rhsContracting := [0]
  lhsNonContracting := [0]
  rhsNonContracting := [1]
  lhsBatch := []
  rhsBatch := []
  wf := dot_S4096x2050_S2050x2048_S4096x2048_1_0_0_1_n_n_wf
def dot_S2050x4096_S4096x2048_S2050x2048_1_0_0_1_n_n : DotDims S2050x4096 S4096x2048 S2050x2048 where
  lhsContracting := [1]
  rhsContracting := [0]
  lhsNonContracting := [0]
  rhsNonContracting := [1]
  lhsBatch := []
  rhsBatch := []
  wf := dot_S2050x4096_S4096x2048_S2050x2048_1_0_0_1_n_n_wf

class Facts : Prop extends Facts₀ where

variable [Facts]
-- ==== Proof.Spec.lean ====
/-
  The two programs as index-by-index formulas on the extended reals.

  Inputs: `a : Fin 4096 → Fin 2048 → EReal` (activations, one row per sample) and
  `θ : Fin 2050 → Fin 2048 → EReal` (conductances: 2048 input rows, one row for the constant-one input, one row
  for the constant-zero input; one column per output). Both programs clamp θ to [-0.1, 0.1], zero the entries
  of magnitude below 0.01, normalise each column by the sum of its magnitudes (columns of sum zero become
  zero), and form

      z e n = Σ_k x e k · (signed normalised weight k n),      x = [a | 1 | 0],

  and a scalar cost  (1/4096) Σ_{k,n} g k n · Σ_e (u e k n − z e n)²  with  g k n = |θ k n| · (1e-4 / min_k |θ k n|)
  and u = ± x by the sign of the clamped weight. The reference spells z with two masked products (x against the
  non-negative part, −x against the negative part) and expands the square entry by entry; the kernel computes z
  with one product plus a bias row, accumulates Σ_e z, Σ_e z² and Σ_e a e k · z e n tile by tile, and assembles the
  cost from three partial sums (input rows, the one row, the zero row).

  Every definition below is the pointwise reading of the programs' operations, on extended reals, with no
  assumption of finiteness; the float words are kept as words.
-/
import Idealize.ShloMosaic.PureOps.Ideal
import Idealize.ShloMosaic.Lib.ValueIdx

noncomputable section

namespace Cert.Spec

open Idealize.ShloMosaic

/-- An f32 value at the ideal instance: an extended real. -/
abbrev X : Type := Ideal FTy.f32

/-! ## The float words the programs spell -/

def z0 : X := Ideal.ofBits .f32 0x00000000#32
def one : X := Ideal.ofBits .f32 0x3F800000#32
def mone : X := Ideal.ofBits .f32 0xBF800000#32
def two : X := Ideal.ofBits .f32 0x40000000#32
/-- f32(-0.1) and f32(0.1): the clamp's bounds. -/
def cLo : X := Ideal.ofBits .f32 0xBDCCCCCD#32
def cHi : X := Ideal.ofBits .f32 0x3DCCCCCD#32
/-- f32(0.01): magnitudes below it are zeroed. -/
def cMin : X := Ideal.ofBits .f32 0x3C23D70A#32
/-- f32(1e-4): the cost weight's numerator. -/
def cP : X := Ideal.ofBits .f32 0x38D1B717#32
/-- 4096.0: the number of samples. -/
def cE : X := Ideal.ofBits .f32 0x45800000#32

/-! ## Scalar operations, as the programs' pointwise operations unfold -/

def lt (x y : X) : BitVec 1 := FloatOps.cmpf (F := Ideal) .olt x y
def gt (x y : X) : BitVec 1 := FloatOps.cmpf (F := Ideal) .ogt x y
def ge (x y : X) : BitVec 1 := FloatOps.cmpf (F := Ideal) .oge x y
def sel (c : BitVec 1) (x y : X) : X := Scalar.select c x y
def ab (x : X) : X := FloatOps.absf (F := Ideal) x
def ofBit (c : BitVec 1) : X := FloatOps.uitofp (F := Ideal) .f32 c

/-- Rows of θ: an input row, the constant-one row, the constant-zero row. -/
def up (k : Fin 2048) : Fin 2050 := ⟨k.val, by omega⟩
def r2048 : Fin 2050 := ⟨2048, by norm_num⟩
def r2049 : Fin 2050 := ⟨2049, by norm_num⟩

/-! ## What both programs do to one entry of θ -/

/-- Clamp to [-0.1, 0.1]. -/
def clipS (x : X) : X := min cHi (max cLo x)
/-- Then zero a magnitude below 0.01. -/
def thS (x : X) : X := sel (lt (ab (clipS x)) cMin) z0 (clipS x)

section
variable (θ : Fin 2050 → Fin 2048 → X) (a : Fin 4096 → Fin 2048 → X)

/-- The column minimum of |θ| (a minimum taken from +∞) and the cost weight |θ| · (1e-4 / min). -/
def gmin (n : Fin 2048) : X := Finset.univ.inf fun k : Fin 2050 => ab (θ k n)
def gT (k : Fin 2050) (n : Fin 2048) : X := ab (θ k n) * Ideal.div cP (gmin θ n)

/-! ## The kernel program -/

/-- Column sums of the clamped magnitudes, the guarded divisor, the signed normalised weight, the sign. -/
def csK (n : Fin 2048) : X := ∑ k : Fin 2050, ab (thS (θ k n))
def safeK (n : Fin 2048) : X := sel (gt (csK θ n) z0) (csK θ n) one
def wS (k : Fin 2050) (n : Fin 2048) : X := sel (gt (csK θ n) z0) (Ideal.div (thS (θ k n)) (safeK θ n)) z0
def sg (k : Fin 2050) (n : Fin 2048) : X := sel (ge (thS (θ k n)) z0) one mone
end

section region
/- The region's four results as functions of the arrays its input windows read: activations `A0`, weights
   `A1`, a bias row `A2`, signed cost weights `A3`. -/
variable (A0 : Fin 4096 → Fin 2048 → X) (A1 : Fin 2048 → Fin 2048 → X) (A2 : Fin 2048 → X)
  (A3 : Fin 2048 → Fin 2048 → X)

def zK (e : Fin 4096) (n : Fin 2048) : X := (∑ k : Fin 2048, A0 e k * A1 k n) + A2 n
def colK (n : Fin 2048) : X := ∑ e : Fin 4096, zK A0 A1 A2 e n
def y2K (n : Fin 2048) : X := ∑ e : Fin 4096, zK A0 A1 A2 e n * zK A0 A1 A2 e n
def pwK (n : Fin 2048) : X := ∑ k : Fin 2048, A3 k n * ∑ e : Fin 4096, A0 e k * zK A0 A1 A2 e n
end region

section tail
variable (θ : Fin 2050 → Fin 2048 → X) (a : Fin 4096 → Fin 2048 → X) (Z5 Z6 Z7 : Fin 2048 → X)

/-- Column sums of a². -/
def sa2 (k : Fin 2048) : X := ∑ e : Fin 4096, a e k * a e k
/-- The input rows' part: Σ g·sa2 − 2 Σ pw + Σ g·y2. -/
def pMain : X :=
  ((∑ k : Fin 2048, ∑ n : Fin 2048, gT θ (up k) n * sa2 a k) - two * ∑ n : Fin 2048, Z7 n)
    + ∑ k : Fin 2048, ∑ n : Fin 2048, gT θ (up k) n * Z6 n
/-- The constant-one row's part: 4096 Σ g − 2 Σ g·sign·colsum + Σ g·y2. -/
def pOnes : X :=
  (cE * (∑ n : Fin 2048, gT θ r2048 n) - two * ∑ n : Fin 2048, (gT θ r2048 n * sg θ r2048 n) * Z5 n)
    + ∑ n : Fin 2048, gT θ r2048 n * Z6 n
/-- The constant-zero row's part. -/
def pZero : X := ∑ n : Fin 2048, gT θ r2049 n * Z6 n
/-- The kernel program's scalar result from the region's three row results. -/
def powerK : X := Ideal.div ((pMain θ a Z6 Z7 + pOnes θ Z5 Z6) + pZero θ Z6) cE
end tail

section kernel
variable (a : Fin 4096 → Fin 2048 → X) (θ : Fin 2050 → Fin 2048 → X)
/-- The arrays the region's windows 1, 2, 3 read, from θ: weights, -/
def wMain (k : Fin 2048) (n : Fin 2048) : X := wS θ (up k) n
def bias (n : Fin 2048) : X := wS θ r2048 n
def gsMain (k : Fin 2048) (n : Fin 2048) : X := gT θ (up k) n * sg θ (up k) n
/-- The kernel program's two results. -/
def zKer (e : Fin 4096) (n : Fin 2048) : X := zK a (wMain θ) (bias θ) e n
def powerKer : X :=
  powerK θ a (colK a (wMain θ) (bias θ)) (y2K a (wMain θ) (bias θ)) (pwK a (wMain θ) (bias θ) (gsMain θ))
end kernel

/-! ## The reference program -/

section reference
variable (a : Fin 4096 → Fin 2048 → X) (θ : Fin 2050 → Fin 2048 → X)

/-- The reference adds and subtracts the raw entry around the clamped one. -/
def thR (x : X) : X := (thS x - x) + x
def posR (x : X) : X := ofBit (ge (thR x) z0)
def negR (x : X) : X := one - posR x
def csR (n : Fin 2048) : X := ∑ k : Fin 2050, ab (thR (θ k n))
def safeR (n : Fin 2048) : X := sel (gt (csR θ n) z0) (csR θ n) one
def WR (k : Fin 2050) (n : Fin 2048) : X := sel (gt (csR θ n) z0) (Ideal.div (ab (thR (θ k n))) (safeR θ n)) z0
/-- The extended input [a | 1 | 0] and its negation with the last column zeroed. -/
def xe (e : Fin 4096) (k : Fin 2050) : X :=
  if h : k.val < 2048 then a e ⟨k.val, h⟩ else if k.val = 2048 then one else z0
def xn (e : Fin 4096) (k : Fin 2050) : X := if k.val = 2049 then z0 else -(xe a e k)
def zR (e : Fin 4096) (n : Fin 2048) : X :=
  (∑ k : Fin 2050, xe a e k * (WR θ k n * posR (θ k n))) + ∑ k : Fin 2050, xn a e k * (WR θ k n * negR (θ k n))
def sx2 (k : Fin 2050) : X := ∑ e : Fin 4096, xe a e k * xe a e k
def sn2 (k : Fin 2050) : X := ∑ e : Fin 4096, xn a e k * xn a e k
def S2 (k : Fin 2050) (n : Fin 2048) : X := posR (θ k n) * sx2 a k + negR (θ k n) * sn2 a k
def Cx (k : Fin 2050) (n : Fin 2048) : X := ∑ e : Fin 4096, xe a e k * zR a θ e n
def Cn (k : Fin 2050) (n : Fin 2048) : X := ∑ e : Fin 4096, xn a e k * zR a θ e n
def CC (k : Fin 2050) (n : Fin 2048) : X := posR (θ k n) * Cx a θ k n + negR (θ k n) * Cn a θ k n
def Y2 (n : Fin 2048) : X := ∑ e : Fin 4096, zR a θ e n * zR a θ e n
def inner (k : Fin 2050) (n : Fin 2048) : X := (S2 a θ k n - two * CC a θ k n) + Y2 a θ n
def powerR : X := Ideal.div (∑ k : Fin 2050, ∑ n : Fin 2048, gT θ k n * inner a θ k n) cE
end reference

end Cert.Spec

end
-- ==== Proof.BridgeOps.lean ====
/-
  The extended-real operations of the specification on real arguments: every float word the programs spell is a
  real number, a comparison of two reals is the comparison, a selection is an if-then-else, |x| = max x (−x), a
  quotient by a nonzero real is the real quotient, and finite sums and minima of reals are real.
-/
import proofs.«149382_j39599598469767_2_alg».proof.Proof.Spec
import Idealize.ShloMosaic.PureOps.Ideal.Laws

noncomputable section

namespace Cert.Bridge

open Idealize.ShloMosaic Cert.Spec

/-! ## The float words -/

theorem z0_eq : z0 = ((0 : ℝ) : EReal) := by
  unfold z0; rw [Ideal.ofBits_zero_f32]; rfl

theorem one_eq : one = ((1 : ℝ) : EReal) := by
  unfold one; simp [Ideal.ofBits, Ideal.ieee, -EReal.coe_mul]; norm_num

theorem mone_eq : mone = ((-1 : ℝ) : EReal) := by
  unfold mone; simp [Ideal.ofBits, Ideal.ieee, -EReal.coe_mul]; norm_num

theorem two_eq : two = ((2 : ℝ) : EReal) := by
  unfold two; simp [Ideal.ofBits, Ideal.ieee, -EReal.coe_mul]; norm_num

theorem cE_eq : cE = ((4096 : ℝ) : EReal) := by
  unfold cE; simp [Ideal.ofBits, Ideal.ieee, -EReal.coe_mul]; norm_num

/-- The clamp's bounds, the threshold and the cost numerator as reals (their exact dyadic values). -/
def hi : ℝ := 13421773 / 134217728
def lo : ℝ := -(13421773 / 134217728)
def mn : ℝ := 10737418 / 1073741824
def pc : ℝ := 13743895 / 137438953472

theorem cHi_eq : cHi = ((hi : ℝ) : EReal) := by
  unfold cHi hi; simp [Ideal.ofBits, Ideal.ieee, -EReal.coe_mul]; norm_num

theorem cLo_eq : cLo = ((lo : ℝ) : EReal) := by
  unfold cLo lo; simp [Ideal.ofBits, Ideal.ieee, -EReal.coe_mul]; norm_num

theorem cMin_eq : cMin = ((mn : ℝ) : EReal) := by
  unfold cMin mn; simp [Ideal.ofBits, Ideal.ieee, -EReal.coe_mul]; norm_num

theorem cP_eq : cP = ((pc : ℝ) : EReal) := by
  unfold cP pc; simp [Ideal.ofBits, Ideal.ieee, -EReal.coe_mul]; norm_num

/-! ## Scalar operations on reals -/

theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

theorem coe_min (x y : ℝ) : ((min x y : ℝ) : EReal) = min (x : EReal) (y : EReal) := by
  rcases le_total x y with h | h
  · rw [min_eq_left h, min_eq_left (EReal.coe_le_coe_iff.2 h)]
  · rw [min_eq_right h, min_eq_right (EReal.coe_le_coe_iff.2 h)]

theorem lt_coe (x y : ℝ) : lt (x : EReal) (y : EReal) = BitVec.ofBool (decide (x < y)) := by
  unfold lt; show Ideal.cmp .olt _ _ = _; unfold Ideal.cmp; simp only [EReal.coe_lt_coe_iff]

theorem gt_coe (x y : ℝ) : gt (x : EReal) (y : EReal) = BitVec.ofBool (decide (y < x)) := by
  unfold gt; show Ideal.cmp .ogt _ _ = _; unfold Ideal.cmp; simp only [EReal.coe_lt_coe_iff]

theorem ge_coe (x y : ℝ) : ge (x : EReal) (y : EReal) = BitVec.ofBool (decide (y ≤ x)) := by
  unfold ge; show Ideal.cmp .oge _ _ = _; unfold Ideal.cmp; simp only [EReal.coe_le_coe_iff]

theorem sel_ofBool (b : Bool) (u v : X) : sel (BitVec.ofBool b) u v = if b then u else v := by
  unfold sel Scalar.select; cases b <;> simp

theorem ofBit_ofBool (b : Bool) : ofBit (BitVec.ofBool b) = (((if b then 1 else 0 : ℝ)) : EReal) := by
  unfold ofBit; show (((BitVec.ofBool b).toNat : ℝ) : EReal) = _; cases b <;> simp

theorem ab_coe (x : ℝ) : ab (x : EReal) = ((|x| : ℝ) : EReal) := by
  unfold ab; show max (x : EReal) (-(x : EReal)) = _
  rw [← EReal.coe_neg, ← coe_max, abs_eq_max_neg]

theorem div_coe_coe (x y : ℝ) (h : y ≠ 0) : Ideal.div (x : EReal) (y : EReal) = ((x / y : ℝ) : EReal) := by
  rw [Ideal.div_coe h, ← EReal.coe_mul, mul_one_div]

/-- A finite sum of reals, in the extended reals, is the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A minimum of finitely many reals taken from +∞ is their real minimum. -/
theorem coe_inf' {ι : Type*} (s : Finset ι) (hs : s.Nonempty) (f : ι → ℝ) :
    s.inf (fun i => (f i : EReal)) = ((s.inf' hs f : ℝ) : EReal) := by
  classical
  induction hs using Finset.Nonempty.cons_induction with
  | singleton a => simp
  | cons a s ha hs ih => rw [Finset.inf_cons, Finset.inf'_cons hs, ih, coe_min]

/-! ## One entry of θ -/

def clipr (x : ℝ) : ℝ := min hi (max lo x)
def thr (x : ℝ) : ℝ := if |clipr x| < mn then 0 else clipr x

theorem clipS_coe (x : ℝ) : clipS (x : EReal) = ((clipr x : ℝ) : EReal) := by
  unfold clipS clipr; rw [cHi_eq, cLo_eq, ← coe_max, ← coe_min]

theorem thS_coe (x : ℝ) : thS (x : EReal) = ((thr x : ℝ) : EReal) := by
  unfold thS thr
  rw [clipS_coe, ab_coe, cMin_eq, lt_coe, sel_ofBool, z0_eq]
  by_cases h : |clipr x| < mn <;> simp [h]

theorem thR_coe (x : ℝ) : thR (x : EReal) = ((thr x : ℝ) : EReal) := by
  unfold thR; rw [thS_coe, ← EReal.coe_sub, ← EReal.coe_add, sub_add_cancel]

end Cert.Bridge

end
-- ==== Proof.RealZ.lean ====
/-
  The two programs over the real numbers, and why they agree.

  Over ℝ the data are: the activations `A e k`, the clamped-and-thresholded weights `T k n` (2050 rows: 2048 input
  rows, the row of the constant-one input, the row of the constant-zero input) and the cost weights `G k n`.
  With x = [A | 1 | 0], the reference forms  z = x·(W∘pos) + (−x)·(W∘neg)  where W = |T| / colsum, pos = [T ≥ 0],
  neg = 1 − pos; since |t|·([t ≥ 0] − [t < 0]) = t this is  x·(T / colsum), which the kernel computes as
  A·w + (row 2048 of w). The cost Σ_{k,n} G k n · (Σ_e u² − 2 Σ_e u z + Σ_e z²), u = ±x, splits over the three kinds
  of rows: an input row contributes G·(Σ_e A² − 2 s·Σ_e A z + Σ_e z²), the one row G·(4096 − 2 s·Σ_e z + Σ_e z²), the
  zero row G·Σ_e z²; the kernel computes exactly these three groups.
-/
import Mathlib.Tactic
import Mathlib.Algebra.BigOperators.Fin
import Mathlib.Data.Real.Basic

noncomputable section

namespace Cert.RSpec

open Finset

def up (k : Fin 2048) : Fin 2050 := ⟨k.val, by omega⟩
def r2048 : Fin 2050 := ⟨2048, by norm_num⟩
def r2049 : Fin 2050 := ⟨2049, by norm_num⟩

/-- A sum over the 2050 rows: the 2048 input rows, then the one row, then the zero row. -/
theorem sum_rows {M : Type*} [AddCommMonoid M] (f : Fin 2050 → M) :
    ∑ k : Fin 2050, f k = (∑ k : Fin 2048, f (up k)) + f r2048 + f r2049 := by
  rw [Fin.sum_univ_castSucc (n := 2049), Fin.sum_univ_castSucc (n := 2048)]
  rfl

variable (A : Fin 4096 → Fin 2048 → ℝ) (T G : Fin 2050 → Fin 2048 → ℝ)

/-! ## The kernel's formulas -/

def cs (n : Fin 2048) : ℝ := ∑ k : Fin 2050, |T k n|
def safe (n : Fin 2048) : ℝ := if 0 < cs T n then cs T n else 1
def w (k : Fin 2050) (n : Fin 2048) : ℝ := if 0 < cs T n then T k n / safe T n else 0
def s (k : Fin 2050) (n : Fin 2048) : ℝ := if 0 ≤ T k n then 1 else -1
def zk (e : Fin 4096) (n : Fin 2048) : ℝ := (∑ k : Fin 2048, A e k * w T (up k) n) + w T r2048 n
def col (n : Fin 2048) : ℝ := ∑ e : Fin 4096, zk A T e n
def y2 (n : Fin 2048) : ℝ := ∑ e : Fin 4096, zk A T e n * zk A T e n
def cx (k : Fin 2048) (n : Fin 2048) : ℝ := ∑ e : Fin 4096, A e k * zk A T e n
def pw (n : Fin 2048) : ℝ := ∑ k : Fin 2048, (G (up k) n * s T (up k) n) * cx A T k n
def sa2 (k : Fin 2048) : ℝ := ∑ e : Fin 4096, A e k * A e k
def pMain : ℝ :=
  ((∑ k : Fin 2048, ∑ n : Fin 2048, G (up k) n * sa2 A k) - 2 * ∑ n : Fin 2048, pw A T G n)
    + ∑ k : Fin 2048, ∑ n : Fin 2048, G (up k) n * y2 A T n
def pOnes : ℝ :=
  (4096 * (∑ n : Fin 2048, G r2048 n) - 2 * ∑ n : Fin 2048, (G r2048 n * s T r2048 n) * col A T n)
    + ∑ n : Fin 2048, G r2048 n * y2 A T n
def pZero : ℝ := ∑ n : Fin 2048, G r2049 n * y2 A T n
def powerK : ℝ := ((pMain A T G + pOnes A T G) + pZero A T G) / 4096

/-! ## The reference's formulas -/

def pos (k : Fin 2050) (n : Fin 2048) : ℝ := if 0 ≤ T k n then 1 else 0
def neg (k : Fin 2050) (n : Fin 2048) : ℝ := 1 - pos T k n
def W (k : Fin 2050) (n : Fin 2048) : ℝ := if 0 < cs T n then |T k n| / safe T n else 0
def xe (e : Fin 4096) (k : Fin 2050) : ℝ :=
  if h : k.val < 2048 then A e ⟨k.val, h⟩ else if k.val = 2048 then 1 else 0
def xn (e : Fin 4096) (k : Fin 2050) : ℝ := if k.val = 2049 then 0 else -(xe A e k)
def zr (e : Fin 4096) (n : Fin 2048) : ℝ :=
  (∑ k : Fin 2050, xe A e k * (W T k n * pos T k n)) + ∑ k : Fin 2050, xn A e k * (W T k n * neg T k n)
def sx2 (k : Fin 2050) : ℝ := ∑ e : Fin 4096, xe A e k * xe A e k
def sn2 (k : Fin 2050) : ℝ := ∑ e : Fin 4096, xn A e k * xn A e k
def S2 (k : Fin 2050) (n : Fin 2048) : ℝ := pos T k n * sx2 A k + neg T k n * sn2 A k
def Cx (k : Fin 2050) (n : Fin 2048) : ℝ := ∑ e : Fin 4096, xe A e k * zr A T e n
def Cn (k : Fin 2050) (n : Fin 2048) : ℝ := ∑ e : Fin 4096, xn A e k * zr A T e n
def CC (k : Fin 2050) (n : Fin 2048) : ℝ := pos T k n * Cx A T k n + neg T k n * Cn A T k n
def Y2 (n : Fin 2048) : ℝ := ∑ e : Fin 4096, zr A T e n * zr A T e n
def inner (k : Fin 2050) (n : Fin 2048) : ℝ := (S2 A T k n - 2 * CC A T k n) + Y2 A T n
def powerR : ℝ := (∑ k : Fin 2050, ∑ n : Fin 2048, G k n * inner A T k n) / 4096

/-! ## The extended input -/

theorem xe_up (e : Fin 4096) (k : Fin 2048) : xe A e (up k) = A e k := by
  have h : (up k).val < 2048 := k.isLt
  simp only [xe, h, dif_pos]; rfl

theorem xe_2048 (e : Fin 4096) : xe A e r2048 = 1 := by
  simp [xe, r2048]

theorem xe_2049 (e : Fin 4096) : xe A e r2049 = 0 := by
  simp [xe, r2049]

/-- The negated input with its last column zeroed is the negated input: that column is zero already. -/
theorem xn_eq (e : Fin 4096) (k : Fin 2050) : xn A e k = -(xe A e k) := by
  unfold xn
  split_ifs with h
  · have h1 : ¬ k.val < 2048 := by omega
    have h2 : ¬ k.val = 2048 := by omega
    simp [xe, h1, h2]
  · rfl

/-- |t|·[t ≥ 0] − |t|·[t < 0] = t, entry by entry of the normalised weight. -/
theorem W_signed (k : Fin 2050) (n : Fin 2048) : W T k n * pos T k n - W T k n * neg T k n = w T k n := by
  unfold W w neg pos
  by_cases hc : 0 < cs T n
  · by_cases ht : 0 ≤ T k n
    · simp only [hc, ht, if_true, abs_of_nonneg ht]; ring
    · simp only [hc, ht, if_true, if_false, abs_of_neg (not_le.mp ht)]; ring
  · simp [hc]

theorem pos_sub_neg (k : Fin 2050) (n : Fin 2048) : pos T k n - neg T k n = s T k n := by
  unfold neg pos s
  by_cases ht : 0 ≤ T k n <;> simp [ht] <;> ring

theorem pos_add_neg (k : Fin 2050) (n : Fin 2048) : pos T k n + neg T k n = 1 := by
  unfold neg; ring

/-- The two masked products are one product with the signed weight. -/
theorem zr_eq_sum (e : Fin 4096) (n : Fin 2048) : zr A T e n = ∑ k : Fin 2050, xe A e k * w T k n := by
  unfold zr
  rw [← Finset.sum_add_distrib]
  refine Finset.sum_congr rfl fun k _ => ?_
  rw [xn_eq, ← W_signed]; ring

theorem z_eq (e : Fin 4096) (n : Fin 2048) : zr A T e n = zk A T e n := by
  rw [zr_eq_sum, sum_rows]
  unfold zk
  simp only [xe_up, xe_2048, xe_2049]; ring

end Cert.RSpec

end
-- ==== Proof.BridgeKernel.lean ====
/-
  The kernel program's formulas at real inputs are the real formulas.

  With a = ↑A and θ = ↑Θ real arrays and no entry of Θ zero: the clamped weight, the column sums, the guarded
  divisor (positive: a positive column sum or 1), the signed normalised weight and the sign are real; the column
  minimum of |Θ| is a positive real, so the cost weight |Θ|·(1e-4 / min) is real; and sums and products of reals
  are real, so the region's four results and the host's combination of them are the real formulas.
-/
import proofs.«149382_j39599598469767_2_alg».proof.Proof.BridgeOps
import proofs.«149382_j39599598469767_2_alg».proof.Proof.RealZ

noncomputable section

namespace Cert.Bridge

open Idealize.ShloMosaic Cert.Spec

/-- Collect the coercions of a real expression at its root. -/
macro "coe_out" : tactic =>
  `(tactic| simp only [← EReal.coe_mul, ← EReal.coe_add, ← EReal.coe_sub, ← EReal.coe_neg, ← coe_sum])

/-- A real array as an array of extended reals. -/
def cA (A : Fin 4096 → Fin 2048 → ℝ) : Fin 4096 → Fin 2048 → X := fun e k => ((A e k : ℝ) : EReal)
def cT (Θ : Fin 2050 → Fin 2048 → ℝ) : Fin 2050 → Fin 2048 → X := fun k n => ((Θ k n : ℝ) : EReal)

/-- The clamped weights, the column minimum of the magnitudes, the cost weights, over ℝ. -/
def Tr (Θ : Fin 2050 → Fin 2048 → ℝ) (k : Fin 2050) (n : Fin 2048) : ℝ := thr (Θ k n)
def gminr (Θ : Fin 2050 → Fin 2048 → ℝ) (n : Fin 2048) : ℝ :=
  Finset.univ.inf' Finset.univ_nonempty fun k : Fin 2050 => |Θ k n|
def Gr (Θ : Fin 2050 → Fin 2048 → ℝ) (k : Fin 2050) (n : Fin 2048) : ℝ := |Θ k n| * (pc / gminr Θ n)

theorem up_eq (k : Fin 2048) : Spec.up k = RSpec.up k := rfl
theorem r2048_eq : Spec.r2048 = RSpec.r2048 := rfl
theorem r2049_eq : Spec.r2049 = RSpec.r2049 := rfl

variable (A : Fin 4096 → Fin 2048 → ℝ) (Θ : Fin 2050 → Fin 2048 → ℝ)

theorem gmin_coe (n : Fin 2048) : gmin (cT Θ) n = ((gminr Θ n : ℝ) : EReal) := by
  unfold gmin gminr cT
  simp only [ab_coe]
  exact coe_inf' _ _ _

theorem gminr_pos (hΘ : ∀ k n, Θ k n ≠ 0) (n : Fin 2048) : 0 < gminr Θ n := by
  unfold gminr
  exact (Finset.lt_inf'_iff _).2 fun k _ => abs_pos.2 (hΘ k n)

theorem gT_coe (hΘ : ∀ k n, Θ k n ≠ 0) (k : Fin 2050) (n : Fin 2048) :
    gT (cT Θ) k n = ((Gr Θ k n : ℝ) : EReal) := by
  unfold gT Gr
  rw [gmin_coe, cP_eq, div_coe_coe _ _ (ne_of_gt (gminr_pos Θ hΘ n))]
  show ab ((Θ k n : ℝ) : EReal) * _ = _
  rw [ab_coe, ← EReal.coe_mul]

theorem csK_coe (n : Fin 2048) : csK (cT Θ) n = ((RSpec.cs (Tr Θ) n : ℝ) : EReal) := by
  unfold csK RSpec.cs cT Tr
  simp only [thS_coe, ab_coe]
  exact (coe_sum _ _).symm

theorem safe_pos (T : Fin 2050 → Fin 2048 → ℝ) (n : Fin 2048) : 0 < RSpec.safe T n := by
  unfold RSpec.safe; split_ifs with h
  · exact h
  · exact one_pos

theorem safeK_coe (n : Fin 2048) : safeK (cT Θ) n = ((RSpec.safe (Tr Θ) n : ℝ) : EReal) := by
  unfold safeK RSpec.safe
  rw [csK_coe, z0_eq, gt_coe, sel_ofBool, one_eq]
  by_cases h : 0 < RSpec.cs (Tr Θ) n <;> simp [h]

theorem wS_coe (k : Fin 2050) (n : Fin 2048) : wS (cT Θ) k n = ((RSpec.w (Tr Θ) k n : ℝ) : EReal) := by
  unfold wS RSpec.w
  rw [csK_coe, safeK_coe, z0_eq, gt_coe, sel_ofBool]
  show (if _ then Ideal.div (thS ((Θ k n : ℝ) : EReal)) _ else _) = _
  rw [thS_coe, div_coe_coe _ _ (ne_of_gt (safe_pos _ n))]
  by_cases h : 0 < RSpec.cs (Tr Θ) n <;> simp [h, Tr]

theorem sg_coe (k : Fin 2050) (n : Fin 2048) : sg (cT Θ) k n = ((RSpec.s (Tr Θ) k n : ℝ) : EReal) := by
  unfold sg RSpec.s
  show sel (ge (thS ((Θ k n : ℝ) : EReal)) z0) one mone = _
  rw [thS_coe, z0_eq, ge_coe, sel_ofBool, one_eq, mone_eq]
  by_cases h : 0 ≤ thr (Θ k n) <;> simp [h, Tr]

/-- The first result. -/
theorem zKer_coe (e : Fin 4096) (n : Fin 2048) :
    zKer (cA A) (cT Θ) e n = ((RSpec.zk A (Tr Θ) e n : ℝ) : EReal) := by
  unfold zKer zK wMain bias RSpec.zk
  simp only [wS_coe, cA, up_eq, r2048_eq]
  coe_out

theorem colK_coe (n : Fin 2048) :
    colK (cA A) (wMain (cT Θ)) (bias (cT Θ)) n = ((RSpec.col A (Tr Θ) n : ℝ) : EReal) := by
  unfold colK RSpec.col
  have h : ∀ e, zK (cA A) (wMain (cT Θ)) (bias (cT Θ)) e n = ((RSpec.zk A (Tr Θ) e n : ℝ) : EReal) :=
    fun e => zKer_coe A Θ e n
  simp only [h]
  coe_out

theorem y2K_coe (n : Fin 2048) :
    y2K (cA A) (wMain (cT Θ)) (bias (cT Θ)) n = ((RSpec.y2 A (Tr Θ) n : ℝ) : EReal) := by
  unfold y2K RSpec.y2
  have h : ∀ e, zK (cA A) (wMain (cT Θ)) (bias (cT Θ)) e n = ((RSpec.zk A (Tr Θ) e n : ℝ) : EReal) :=
    fun e => zKer_coe A Θ e n
  simp only [h]
  coe_out

theorem pwK_coe (hΘ : ∀ k n, Θ k n ≠ 0) (n : Fin 2048) :
    pwK (cA A) (wMain (cT Θ)) (bias (cT Θ)) (gsMain (cT Θ)) n
      = ((RSpec.pw A (Tr Θ) (Gr Θ) n : ℝ) : EReal) := by
  unfold pwK RSpec.pw RSpec.cx gsMain
  have h : ∀ e, zK (cA A) (wMain (cT Θ)) (bias (cT Θ)) e n = ((RSpec.zk A (Tr Θ) e n : ℝ) : EReal) :=
    fun e => zKer_coe A Θ e n
  simp only [h, gT_coe Θ hΘ, sg_coe, cA, up_eq]
  coe_out

/-- The second result. -/
theorem powerKer_coe (hΘ : ∀ k n, Θ k n ≠ 0) :
    powerKer (cA A) (cT Θ) = ((RSpec.powerK A (Tr Θ) (Gr Θ) : ℝ) : EReal) := by
  unfold powerKer powerK pMain pOnes pZero sa2 RSpec.powerK RSpec.pMain RSpec.pOnes RSpec.pZero RSpec.sa2
  simp only [colK_coe, y2K_coe, pwK_coe A Θ hΘ, gT_coe Θ hΘ, sg_coe, cA, up_eq, r2048_eq, r2049_eq, two_eq, cE_eq]
  coe_out
  rw [div_coe_coe _ _ (by norm_num)]

end Cert.Bridge

end
-- ==== Proof.BridgeRef.lean ====
/-
  The reference program's formulas at real inputs are the real formulas.

  Adding and subtracting a real entry around the clamped weight gives the clamped weight back; the masks are 0 or
  1; the extended input [A | 1 | 0] and its negation are real; so both masked products, the column sums of
  squares and of cross terms, and the weighted total are the real formulas.
-/
import proofs.«149382_j39599598469767_2_alg».proof.Proof.BridgeKernel

noncomputable section

namespace Cert.Bridge

open Idealize.ShloMosaic Cert.Spec

variable (A : Fin 4096 → Fin 2048 → ℝ) (Θ : Fin 2050 → Fin 2048 → ℝ)

theorem posR_coe (k : Fin 2050) (n : Fin 2048) :
    posR (cT Θ k n) = ((RSpec.pos (Tr Θ) k n : ℝ) : EReal) := by
  unfold posR RSpec.pos
  show ofBit (ge (thR ((Θ k n : ℝ) : EReal)) z0) = _
  rw [thR_coe, z0_eq, ge_coe, ofBit_ofBool]
  by_cases h : 0 ≤ thr (Θ k n) <;> simp [h, Tr]

theorem negR_coe (k : Fin 2050) (n : Fin 2048) :
    negR (cT Θ k n) = ((RSpec.neg (Tr Θ) k n : ℝ) : EReal) := by
  unfold negR RSpec.neg
  rw [posR_coe, one_eq, ← EReal.coe_sub]

theorem csR_coe (n : Fin 2048) : csR (cT Θ) n = ((RSpec.cs (Tr Θ) n : ℝ) : EReal) := by
  unfold csR RSpec.cs cT Tr
  simp only [thR_coe, ab_coe]
  exact (coe_sum _ _).symm

theorem safeR_coe (n : Fin 2048) : safeR (cT Θ) n = ((RSpec.safe (Tr Θ) n : ℝ) : EReal) := by
  unfold safeR RSpec.safe
  rw [csR_coe, z0_eq, gt_coe, sel_ofBool, one_eq]
  by_cases h : 0 < RSpec.cs (Tr Θ) n <;> simp [h]

theorem WR_coe (k : Fin 2050) (n : Fin 2048) : WR (cT Θ) k n = ((RSpec.W (Tr Θ) k n : ℝ) : EReal) := by
  unfold WR RSpec.W
  rw [csR_coe, safeR_coe, z0_eq, gt_coe, sel_ofBool]
  show (if _ then Ideal.div (ab (thR ((Θ k n : ℝ) : EReal))) _ else _) = _
  rw [thR_coe, ab_coe, div_coe_coe _ _ (ne_of_gt (safe_pos _ n))]
  by_cases h : 0 < RSpec.cs (Tr Θ) n <;> simp [h, Tr]

theorem xe_coe (e : Fin 4096) (k : Fin 2050) : xe (cA A) e k = ((RSpec.xe A e k : ℝ) : EReal) := by
  unfold xe RSpec.xe
  split_ifs <;> simp [cA, one_eq, z0_eq]

theorem xn_coe (e : Fin 4096) (k : Fin 2050) : xn (cA A) e k = ((RSpec.xn A e k : ℝ) : EReal) := by
  unfold xn RSpec.xn
  rw [xe_coe]
  split_ifs <;> simp [z0_eq]

theorem zR_coe (e : Fin 4096) (n : Fin 2048) :
    zR (cA A) (cT Θ) e n = ((RSpec.zr A (Tr Θ) e n : ℝ) : EReal) := by
  unfold zR RSpec.zr
  simp only [xe_coe, xn_coe, WR_coe, posR_coe, negR_coe]
  coe_out

theorem sx2_coe (k : Fin 2050) : sx2 (cA A) k = ((RSpec.sx2 A k : ℝ) : EReal) := by
  unfold sx2 RSpec.sx2; simp only [xe_coe]; coe_out

theorem sn2_coe (k : Fin 2050) : sn2 (cA A) k = ((RSpec.sn2 A k : ℝ) : EReal) := by
  unfold sn2 RSpec.sn2; simp only [xn_coe]; coe_out

theorem S2_coe (k : Fin 2050) (n : Fin 2048) :
    S2 (cA A) (cT Θ) k n = ((RSpec.S2 A (Tr Θ) k n : ℝ) : EReal) := by
  unfold S2 RSpec.S2; rw [posR_coe, negR_coe, sx2_coe, sn2_coe]; coe_out

theorem Cx_coe (k : Fin 2050) (n : Fin 2048) :
    Cx (cA A) (cT Θ) k n = ((RSpec.Cx A (Tr Θ) k n : ℝ) : EReal) := by
  unfold Cx RSpec.Cx; simp only [xe_coe, zR_coe]; coe_out

theorem Cn_coe (k : Fin 2050) (n : Fin 2048) :
    Cn (cA A) (cT Θ) k n = ((RSpec.Cn A (Tr Θ) k n : ℝ) : EReal) := by
  unfold Cn RSpec.Cn; simp only [xn_coe, zR_coe]; coe_out

theorem CC_coe (k : Fin 2050) (n : Fin 2048) :
    CC (cA A) (cT Θ) k n = ((RSpec.CC A (Tr Θ) k n : ℝ) : EReal) := by
  unfold CC RSpec.CC; rw [posR_coe, negR_coe, Cx_coe, Cn_coe]; coe_out

theorem Y2_coe (n : Fin 2048) : Y2 (cA A) (cT Θ) n = ((RSpec.Y2 A (Tr Θ) n : ℝ) : EReal) := by
  unfold Y2 RSpec.Y2; simp only [zR_coe]; coe_out

theorem inner_coe (k : Fin 2050) (n : Fin 2048) :
    Spec.inner (cA A) (cT Θ) k n = ((RSpec.inner A (Tr Θ) k n : ℝ) : EReal) := by
  unfold Spec.inner RSpec.inner; rw [S2_coe, CC_coe, Y2_coe, two_eq]; coe_out

theorem powerR_coe (hΘ : ∀ k n, Θ k n ≠ 0) :
    powerR (cA A) (cT Θ) = ((RSpec.powerR A (Tr Θ) (Gr Θ) : ℝ) : EReal) := by
  unfold powerR RSpec.powerR
  simp only [gT_coe Θ hΘ, inner_coe, cE_eq]
  coe_out
  rw [div_coe_coe _ _ (by norm_num)]

end Cert.Bridge

end
-- ==== Proof.RealPower.lean ====
/-
  The cost over the real numbers: the reference's sum over all 2050 rows of θ, with the square expanded, is the
  kernel's three partial sums.

  For every row k: the negated input squares to the same column sum (sn2 = sx2), its product with z is the
  negative (Cn = −Cx), so  pos·sx2 + neg·sn2 = sx2  and  pos·Cx + neg·Cn = s·Cx  with s = ±1 the sign. Hence the
  reference's inner term is  sx2 k − 2 s Cx + Y2 n,  and on an input row sx2 = Σ_e A², Cx = Σ_e A z; on the one
  row sx2 = 4096 and Cx = Σ_e z; on the zero row both vanish.
-/
import proofs.«149382_j39599598469767_2_alg».proof.Proof.RealZ

noncomputable section

namespace Cert.RSpec

open Finset

variable (A : Fin 4096 → Fin 2048 → ℝ) (T G : Fin 2050 → Fin 2048 → ℝ)

theorem zr_eq : zr A T = zk A T := funext fun e => funext fun n => z_eq A T e n

theorem sn2_eq (k : Fin 2050) : sn2 A k = sx2 A k := by
  unfold sn2 sx2
  exact Finset.sum_congr rfl fun e _ => by rw [xn_eq]; ring

theorem Cn_eq (k : Fin 2050) (n : Fin 2048) : Cn A T k n = -(Cx A T k n) := by
  unfold Cn Cx
  rw [← Finset.sum_neg_distrib]
  exact Finset.sum_congr rfl fun e _ => by rw [xn_eq]; ring

theorem inner_eq (k : Fin 2050) (n : Fin 2048) :
    inner A T k n = (sx2 A k - 2 * (s T k n * Cx A T k n)) + Y2 A T n := by
  unfold inner S2 CC
  rw [sn2_eq, Cn_eq, ← pos_sub_neg]
  have h := pos_add_neg T k n
  have e1 : pos T k n * sx2 A k + neg T k n * sx2 A k = sx2 A k := by
    rw [← add_mul, h, one_mul]
  rw [e1]; ring

theorem Y2_eq (n : Fin 2048) : Y2 A T n = y2 A T n := by
  unfold Y2 y2; rw [zr_eq]

theorem sx2_up (k : Fin 2048) : sx2 A (up k) = sa2 A k := by
  unfold sx2 sa2; simp only [xe_up]

theorem sx2_2048 : sx2 A r2048 = 4096 := by
  unfold sx2; simp only [xe_2048, mul_one, Finset.sum_const, Finset.card_univ, Fintype.card_fin]; norm_num

theorem sx2_2049 : sx2 A r2049 = 0 := by
  unfold sx2; simp only [xe_2049, mul_zero, Finset.sum_const_zero]

theorem Cx_up (k : Fin 2048) (n : Fin 2048) : Cx A T (up k) n = cx A T k n := by
  unfold Cx cx; rw [zr_eq]; simp only [xe_up]

theorem Cx_2048 (n : Fin 2048) : Cx A T r2048 n = col A T n := by
  unfold Cx col; rw [zr_eq]; simp only [xe_2048, one_mul]

theorem Cx_2049 (n : Fin 2048) : Cx A T r2049 n = 0 := by
  unfold Cx; simp only [xe_2049, zero_mul, Finset.sum_const_zero]

/-- The input rows' share. -/
theorem main_part :
    (∑ k : Fin 2048, ∑ n : Fin 2048, G (up k) n * inner A T (up k) n) = pMain A T G := by
  have hc : (∑ n : Fin 2048, ∑ k : Fin 2048, (G (up k) n * s T (up k) n) * cx A T k n)
      = ∑ k : Fin 2048, ∑ n : Fin 2048, (G (up k) n * s T (up k) n) * cx A T k n := Finset.sum_comm
  unfold pMain pw
  rw [hc]
  simp only [Finset.mul_sum, ← Finset.sum_sub_distrib, ← Finset.sum_add_distrib]
  refine Finset.sum_congr rfl fun k _ => Finset.sum_congr rfl fun n _ => ?_
  rw [inner_eq, sx2_up, Cx_up, Y2_eq]; ring

/-- The constant-one row's share. -/
theorem ones_part : (∑ n : Fin 2048, G r2048 n * inner A T r2048 n) = pOnes A T G := by
  unfold pOnes
  simp only [Finset.mul_sum, ← Finset.sum_sub_distrib, ← Finset.sum_add_distrib]
  refine Finset.sum_congr rfl fun n _ => ?_
  rw [inner_eq, sx2_2048, Cx_2048, Y2_eq]; ring

/-- The constant-zero row's share. -/
theorem zero_part : (∑ n : Fin 2048, G r2049 n * inner A T r2049 n) = pZero A T G := by
  unfold pZero
  refine Finset.sum_congr rfl fun n _ => ?_
  rw [inner_eq, sx2_2049, Cx_2049, Y2_eq]; ring

/-- The two programs compute one cost. -/
theorem power_eq : powerR A T G = powerK A T G := by
  unfold powerR powerK
  rw [sum_rows, main_part, ones_part, zero_part]

end Cert.RSpec

end
-- ==== Proof.Agree.lean ====
/-
  The two programs agree on inputs that are real numbers with no entry of θ zero: both results are then real
  formulas of the real arrays, and over ℝ the formulas are equal.
-/
import proofs.«149382_j39599598469767_2_alg».proof.Proof.BridgeRef
import proofs.«149382_j39599598469767_2_alg».proof.Proof.RealPower

noncomputable section

namespace Cert.Bridge

open Idealize.ShloMosaic Cert.Spec

theorem spec_agree (a : Fin 4096 → Fin 2048 → X) (θ : Fin 2050 → Fin 2048 → X)
    (ha : ∀ e k, ∃ r : ℝ, a e k = (r : EReal)) (hθ : ∀ k n, ∃ r : ℝ, θ k n = (r : EReal) ∧ r ≠ 0) :
    (∀ e n, zKer a θ e n = zR a θ e n) ∧ powerKer a θ = powerR a θ := by
  choose A hA using ha
  choose Θ hΘ using hθ
  have ea : a = cA A := funext fun e => funext fun k => hA e k
  have et : θ = cT Θ := funext fun k => funext fun n => (hΘ k n).1
  have hne : ∀ k n, Θ k n ≠ 0 := fun k n => (hΘ k n).2
  rw [ea, et]
  refine ⟨fun e n => ?_, ?_⟩
  · rw [zKer_coe, zR_coe, RSpec.z_eq]
  · rw [powerKer_coe A Θ hne, powerR_coe A Θ hne, RSpec.power_eq]

end Cert.Bridge

end
-- ==== Proof.Finite.lean ====
/-
  What the precondition says: every entry of both inputs is a real number, and no entry of θ is zero.

  The printed predicate is the conjunction of three `all`s: |a| < +∞ entrywise, |θ| < +∞ entrywise, |θ| > 0
  entrywise. An extended real whose magnitude max x (−x) is below +∞ is neither infinity, so it is a real; and a
  real of positive magnitude is not zero.
-/
import proofs.«149382_j39599598469767_2_alg».proof.Pre_finite_inputs
import proofs.«149382_j39599598469767_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs

instance : Subsingleton S_.Idx := ⟨fun a b => funext fun d => d.elim0⟩

/-- A magnitude below +∞ belongs to a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  unfold Ideal.cmp at h
  induction x using EReal.rec with
  | bot => simp at h
  | coe r => exact ⟨r, rfl⟩
  | top => simp at h

/-- A real of positive magnitude is not zero. -/
theorem ne_zero_of_abs_gt (r : ℝ)
    (h : Ideal.cmp .ogt (max (r : EReal) (-(r : EReal))) (Ideal.ofBits .f32 0x00000000#32) = 1#1) : r ≠ 0 := by
  rw [Ideal.ofBits_zero_f32] at h
  unfold Ideal.cmp at h
  rintro rfl
  simp at h

variable [Facts]

theorem pre_elim (a : FVec Ideal S4096x2048 .f32) (θ : FVec Ideal S2050x2048 .f32)
    (h : fn (F := Ideal) a θ = fun _ => 1#1) :
    (∀ i, ∃ r : ℝ, a i = (r : EReal)) ∧ (∀ i, ∃ r : ℝ, θ i = (r : EReal) ∧ r ≠ 0) := by
  have h0 := congrFun h ValueIdx.ix0
  dsimp only [fn] at h0
  obtain ⟨h12, h3⟩ := IntOp.andi_eq_one.1 h0
  obtain ⟨h1, h2⟩ := IntOp.andi_eq_one.1 h12
  have ha : ∀ i, ∃ r : ℝ, a i = (r : EReal) := fun i =>
    real_of_abs_lt (a i) (Host.reduce_andi_all _ _ _ _ _ h1 i)
  have ht : ∀ i, ∃ r : ℝ, θ i = (r : EReal) := fun i =>
    real_of_abs_lt (θ i) (Host.reduce_andi_all _ _ _ _ _ h2 i)
  refine ⟨ha, fun i => ?_⟩
  obtain ⟨r, hr⟩ := ht i
  refine ⟨r, hr, ne_zero_of_abs_gt r ?_⟩
  have h3i := Host.reduce_andi_all _ _ _ _ _ h3 i
  rw [← hr]
  exact h3i

end Cert.Finite

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.KBodyDotT.lean ====
/-
  A MATRIX PRODUCT THAT CONTRACTS THE ROWS OF BOTH OPERANDS, RE-INDEXED.

  A dot of a matrix [M, K] with a matrix [M, N] that contracts the first axis of both (the transpose of the first
  against the second), with no batch axis, has a result of shape [K, N]. At result index (k, n) the contraction index
  is one coordinate r < M, and the two operand indices there are (r, k) and (r, n). So a sum over the record's
  contraction indices is the sum over r : Fin M of the same summand at those two indices.
-/
import Idealize.ShloMosaic.PureOps.Ideal.Laws
import Idealize.ShloMosaic.Lib.ValueIdx

noncomputable section

open scoped BigOperators

namespace Cert.KBody

open Idealize.ShloMosaic Idealize.ShloMosaic.ValueIdx

variable {M K N : Nat} (d : DotDims ⟨2, ![M, K]⟩ ⟨2, ![M, N]⟩ ⟨2, ![K, N]⟩)

/-- The left operand's column coordinate is the result's row. -/
theorem dotT_lhs_col (hln : d.lhsNonContracting = [1]) (hlb : d.lhsBatch = [])
    (j : (⟨2, ![K, N]⟩ : Shape).Idx) (k : d.contr.Idx) : (d.lhsIdx j k (1 : Fin 2)).val = (j (0 : Fin 2)).val := by
  have hb : (1 : Fin 2) ∉ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem dotT_rhs_col (hln : d.lhsNonContracting = [1]) (hrn : d.rhsNonContracting = [1]) (hlb : d.lhsBatch = [])
    (hrb : d.rhsBatch = []) (j : (⟨2, ![K, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem dotT_contr_rank (hl : d.lhsContracting = [0]) : d.contr.rank = 1 := by rw [d.rank_contr, hl]; rfl

/-- … of extent `M`. -/
theorem dotT_contr_size (hl : d.lhsContracting = [0]) :
    d.contr.size ⟨0, by rw [dotT_contr_rank d hl]; exact Nat.one_pos⟩ = M := by
  have h0 : (0 : Nat) < d.lhsContracting.length := by rw [hl]; exact Nat.one_pos
  refine (d.size_contr 0 h0).trans ?_
  rw [List.getElem_of_eq hl h0]
  rfl

/-- THE SUM over the contraction indices of such a product is the sum over `r : Fin M`, the operands read at (r, k)
    and (r, n). Stated for any summand `f` of the two operand indices. -/
theorem sum_contr_dotT {α : Type*} [AddCommMonoid α] (hl : d.lhsContracting = [0]) (hr : d.rhsContracting = [0])
    (hln : d.lhsNonContracting = [1]) (hrn : d.rhsNonContracting = [1]) (hlb : d.lhsBatch = []) (hrb : d.rhsBatch = [])
    (f : (⟨2, ![M, K]⟩ : Shape).Idx → (⟨2, ![M, N]⟩ : Shape).Idx → α) (k : Fin K) (n : Fin N) :
    ∑ q : d.contr.Idx, f (d.lhsIdx (ix2 k n) q) (d.rhsIdx (ix2 k n) q) = ∑ r : Fin M, f (ix2 r k) (ix2 r n) := by
  have hrk := dotT_contr_rank d hl
  have hs := dotT_contr_size d hl
  rw [← Equiv.sum_comp (contrEquiv1 d M hrk hs).symm]
  refine Finset.sum_congr rfl fun r _ => ?_
  have e1 : d.lhsIdx (ix2 k n) ((contrEquiv1 d M hrk hs).symm r) = ix2 r k := by
    funext a; apply Fin.ext
    match a with
    | ⟨0, _⟩ => exact (d.lhsIdx_val_of_single hl _ _).trans (contrEquiv1_symm_val d M hrk hs r)
    | ⟨1, _⟩ => exact dotT_lhs_col d hln hlb _ _
  have e2 : d.rhsIdx (ix2 k n) ((contrEquiv1 d M hrk hs).symm r) = ix2 r n := by
    funext a; apply Fin.ext
    match a with
    | ⟨0, _⟩ => exact (d.rhsIdx_val_of_single hr _ _).trans (contrEquiv1_symm_val d M hrk hs r)
    | ⟨1, _⟩ => exact dotT_rhs_col d hln hrn hlb hrb _ _
  rw [e1, e2]

end Cert.KBody

end
-- ==== Proof.KBodyPay.lean ====
/-
  THE BODY'S ARITHMETIC, READ AT AN ELEMENT, on the extended reals.

  One grid step takes a 256-row tile `x0` of the activations, a 512-column block `x1` of the weights, the matching
  block `x2` of the bias row, and forms
    the output tile          z(p, q)  = Σ_k x0(p, k) · x1(k, q) + x2(0, q),
    the running column sums  prev(0, q) + Σ_p z(p, q)   and   prev(0, q) + Σ_p z(p, q)²,
    the cross product        cx(k, q) = Σ_p x0(p, k) · z(p, q),   added into a 2048-by-512 accumulator,
  and, at the last step of a column block, the weighted column sums Σ_k g(k, q) · acc(k, q) of the accumulator.
  Each is stated at explicit coordinates; a change of float format is the identity here.
-/
import proofs.«149382_j39599598469767_2_alg».proof.Proof.Gen.KernelIdeal.Skeleton
import proofs.«149382_j39599598469767_2_alg».proof.Proof.LibPlainDot
import proofs.«149382_j39599598469767_2_alg».proof.Proof.LibLaneSums
import proofs.«149382_j39599598469767_2_alg».proof.Proof.KBodyDotT
import Idealize.ShloMosaic.Lib.ValueLayout

noncomputable section

open scoped BigOperators

namespace Cert.KBody

open Idealize.ShloMosaic Idealize.ShloMosaic.ValueIdx Cert.KernelIdeal Cert.KernelIdeal.Gen

/-- The output tile at (p, q): row p of the activation tile against column q of the weight block, plus the bias. -/
theorem pay7_apply (x0 : Vec Ideal S256x2048 .f32) (x1 : Vec Ideal S2048x512 .bf16) (x2 : Vec Ideal S1x512 .f32)
    (p : Fin 256) (q : Fin 512) :
    k0_pay7 (F := Ideal) x0 x1 x2 (ix2 p q)
      = (∑ k : Fin 2048, x0 (ix2 p k) * x1 (ix2 k q)) + x2 (ix2 (0 : Fin 1) q) := by
  unfold k0_pay7 k0_pay6
  simp only [shapeCast_self]
  have h1 : matmul dot_S256x2048_S2048x512_S256x512_1_0_0_1_n_n none
      (truncf .bf16 x0 bitsLt_bf16_f32 : FVec Ideal S256x2048 .bf16) (x1 : FVec Ideal S2048x512 .bf16)
      (constant (F := Ideal) S256x512 .f32 0x00000000#32) (ix2 p q) = ∑ k : Fin 2048, x0 (ix2 p k) * x1 (ix2 k q) :=
    (Ideal.matmul_constant_zero_apply (φ₁ := .bf16) (φ₂ := .bf16) dot_S256x2048_S2048x512_S256x512_1_0_0_1_n_n none
      (truncf .bf16 x0 bitsLt_bf16_f32 : FVec Ideal S256x2048 .bf16) (x1 : FVec Ideal S2048x512 .bf16) (ix2 p q)).trans
      (Cert.Lib.sum_contr_plain dot_S256x2048_S2048x512_S256x512_1_0_0_1_n_n rfl rfl rfl rfl rfl rfl
        (fun i j => (x0 i : EReal) * (x1 j : EReal)) p q)
  have h2 : broadcastTo S256x512 x2 broadcasts_S1x512_S256x512 (ix2 p q) = x2 (ix2 (0 : Fin 1) q) :=
    broadcastTo_1b_ab_apply x2 broadcasts_S1x512_S256x512 p q
  exact (addf_apply _ _ _).trans (congrArg₂ (· + ·) h1 h2)

/-- The running column sum at column q: what was there plus the tile's column sum. -/
theorem pay8_apply (x0 : Vec Ideal S256x2048 .f32) (x1 : Vec Ideal S2048x512 .bf16) (x2 : Vec Ideal S1x512 .f32)
    (prev : Vec Ideal S1x512 .f32) (q : Fin 512) :
    k0_pay8 (F := Ideal) x0 x1 x2 prev (ix2 (0 : Fin 1) q)
      = prev (ix2 (0 : Fin 1) q) + ∑ p : Fin 256, k0_pay7 (F := Ideal) x0 x1 x2 (ix2 p q) := by
  unfold k0_pay8
  simp only [shapeCast_self]
  refine (addf_apply _ _ _).trans ?_
  refine congrArg (prev (ix2 (0 : Fin 1) q) + ·) ?_
  refine (shapeCast_a_1a_apply _ shapeCasts_S512_S1x512 (0 : Fin 1) q).trans ?_
  exact Cert.Lib.colSum_apply (k0_pay7 (F := Ideal) x0 x1 x2) 0x00000000#32 reduces_S256x512_S512 (.inl rfl) rfl q

/-- The running column sum of squares at column q. -/
theorem pay9_apply (x0 : Vec Ideal S256x2048 .f32) (x1 : Vec Ideal S2048x512 .bf16) (x2 : Vec Ideal S1x512 .f32)
    (prev : Vec Ideal S1x512 .f32) (q : Fin 512) :
    k0_pay9 (F := Ideal) x0 x1 x2 prev (ix2 (0 : Fin 1) q)
      = prev (ix2 (0 : Fin 1) q)
        + ∑ p : Fin 256, k0_pay7 (F := Ideal) x0 x1 x2 (ix2 p q) * k0_pay7 (F := Ideal) x0 x1 x2 (ix2 p q) := by
  unfold k0_pay9
  simp only [shapeCast_self]
  refine (addf_apply _ _ _).trans ?_
  refine congrArg (prev (ix2 (0 : Fin 1) q) + ·) ?_
  refine (shapeCast_a_1a_apply _ shapeCasts_S512_S1x512 (0 : Fin 1) q).trans ?_
  exact Cert.Lib.colSum_apply (mulf (k0_pay7 (F := Ideal) x0 x1 x2) (k0_pay7 (F := Ideal) x0 x1 x2)) 0x00000000#32
    reduces_S256x512_S512 (.inl rfl) rfl q

/-- The cross product at (k, q): column k of the activation tile against column q of the output tile. -/
theorem pay10_apply (x0 : Vec Ideal S256x2048 .f32) (x1 : Vec Ideal S2048x512 .bf16) (x2 : Vec Ideal S1x512 .f32)
    (k : Fin 2048) (q : Fin 512) :
    k0_pay10 (F := Ideal) x0 x1 x2 (ix2 k q)
      = ∑ p : Fin 256, x0 (ix2 p k) * k0_pay7 (F := Ideal) x0 x1 x2 (ix2 p q) := by
  unfold k0_pay10 k0_pay6
  refine (Ideal.matmul_constant_zero_apply dot_S256x2048_S256x512_S2048x512_0_0_1_1_n_n none _ _ (ix2 k q)).trans ?_
  exact sum_contr_dotT dot_S256x2048_S256x512_S2048x512_0_0_1_1_n_n rfl rfl rfl rfl rfl rfl
    (fun i j => (x0 i : EReal) * (k0_pay7 (F := Ideal) x0 x1 x2 j : EReal)) k q

/-- The accumulator after a step: what it held plus the step's cross product. -/
theorem pay1_apply (acc cx : Vec Ideal S2048x512 .f32) (i : S2048x512.Idx) :
    k0_pay1 (F := Ideal) acc cx i = acc i + cx i := by
  unfold k0_pay1
  simp only [shapeCast_self]
  rfl

/-- The weighted column sums of the accumulator at column q. -/
theorem pay2_apply (g acc : Vec Ideal S2048x512 .f32) (q : Fin 512) :
    k0_pay2 (F := Ideal) g acc (ix2 (0 : Fin 1) q) = ∑ k : Fin 2048, g (ix2 k q) * acc (ix2 k q) := by
  unfold k0_pay2
  simp only [shapeCast_self]
  refine (shapeCast_a_1a_apply _ shapeCasts_S512_S1x512 (0 : Fin 1) q).trans ?_
  exact Cert.Lib.colSum_apply (mulf g acc) 0x00000000#32 reduces_S2048x512_S512 (.inl rfl) rfl q

/-- The three zero blocks the first step of a column block stores. -/
theorem pay3_apply (i : S1x512.Idx) : k0_pay3 (F := Ideal) i = 0 := by
  unfold k0_pay3
  exact Ideal.ofBits_zero_f32
theorem pay4_apply (i : S1x512.Idx) : k0_pay4 (F := Ideal) i = 0 := by
  unfold k0_pay4
  exact Ideal.ofBits_zero_f32
theorem pay5_apply (i : S2048x512.Idx) : k0_pay5 (F := Ideal) i = 0 := by
  unfold k0_pay5
  simp only [shapeCast_self]
  exact Ideal.ofBits_zero_f32

end Cert.KBody

end
-- ==== Proof.KBodyPieces.lean ====
/-
  THE STORES EACH CASE OF THE BODY LEAVES, as the body's arithmetic applied to what it was handed.

  In every case the body overwrites each buffer it stores into whole, so what a buffer ends holding is the value of the
  last store into it, and a load of a buffer stored earlier in the same step reads that earlier store's value. At a
  first row tile the three carried buffers are first zeroed, so the additions start from the zero blocks; at later
  row tiles they start from what the buffers held on entry. At a last row tile the weighted column sums are formed
  from the accumulator just updated.
-/
import proofs.«149382_j39599598469767_2_alg».proof.Proof.GenP.KernelIdeal.Frame
import Idealize.ShloMosaic.Lib.Pipeline.Value
import Idealize.ShloMosaic.Lib.Tactic

noncomputable section

namespace Cert.KBody

open Idealize.ShloMosaic Idealize.ShloMosaic.TcCoe Idealize.SL.Sem
open Cert.KernelIdeal Cert.KernelIdeal.Gen Cert.KernelIdeal.GenP

variable {F : FTy → Type} [FloatOps F]

/-- The zero offsets of a whole-buffer access. -/
theorem hz : (![0, 0] : Fin 2 → Nat) = fun _ => 0 := funext fun a => by fin_cases a <;> rfl

variable (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x512 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole)

/-! ## A first row tile -/

theorem out_A_4 (hc0 : cond0_0 i) (hc1 : ¬cond0_1 i)
    (x0 : Vec F S256x2048 .f32) (x1 : Vec F S2048x512 .bf16) (x2 : Vec F S1x512 .f32) (x3 : Vec F S2048x512 .f32) :
    out0_A_4 c i arg2 harg2 arg3 harg3 arg4 harg4 arg5 harg5 arg6 harg6 arg7 harg7 arg8 harg8 arg9 harg9 arg10 harg10 hc0 hc1 x0 x1 x2 x3 = k0_pay7 x0 x1 x2 := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_A_5 (hc0 : cond0_0 i) (hc1 : ¬cond0_1 i)
    (x0 : Vec F S256x2048 .f32) (x1 : Vec F S2048x512 .bf16) (x2 : Vec F S1x512 .f32) (x3 : Vec F S2048x512 .f32) :
    out0_A_5 c i arg2 harg2 arg3 harg3 arg4 harg4 arg5 harg5 arg6 harg6 arg7 harg7 arg8 harg8 arg9 harg9 arg10 harg10 hc0 hc1 x0 x1 x2 x3 = k0_pay8 x0 x1 x2 k0_pay3 := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_A_6 (hc0 : cond0_0 i) (hc1 : ¬cond0_1 i)
    (x0 : Vec F S256x2048 .f32) (x1 : Vec F S2048x512 .bf16) (x2 : Vec F S1x512 .f32) (x3 : Vec F S2048x512 .f32) :
    out0_A_6 c i arg2 harg2 arg3 harg3 arg4 harg4 arg5 harg5 arg6 harg6 arg7 harg7 arg8 harg8 arg9 harg9 arg10 harg10 hc0 hc1 x0 x1 x2 x3 = k0_pay9 x0 x1 x2 k0_pay4 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem sout_A (hc0 : cond0_0 i) (hc1 : ¬cond0_1 i)
    (x0 : Vec F S256x2048 .f32) (x1 : Vec F S2048x512 .bf16) (x2 : Vec F S1x512 .f32) (x3 : Vec F S2048x512 .f32) :
    sout0_A_0 c i arg2 harg2 arg3 harg3 arg4 harg4 arg5 harg5 arg6 harg6 arg7 harg7 arg8 harg8 arg9 harg9 arg10 harg10 hc0 hc1 x0 x1 x2 x3 = k0_pay1 k0_pay5 (k0_pay10 x0 x1 x2) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

/-! ## A middle row tile -/

theorem out_B_4 (hc0 : ¬cond0_0 i) (hc1 : ¬cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_B_4 c i arg2 harg2 arg3 harg3 arg4 harg4 arg5 harg5 arg6 harg6 arg7 harg7 arg8 harg8 arg9 harg9 arg10 harg10 hc0 hc1 x0 x1 x2 x3 xo5 xo6 xs0 = k0_pay7 x0 x1 x2 := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xo5 xo6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_B_5 (hc0 : ¬cond0_0 i) (hc1 : ¬cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_B_5 c i arg2 harg2 arg3 harg3 arg4 harg4 arg5 harg5 arg6 harg6 arg7 harg7 arg8 harg8 arg9 harg9 arg10 harg10 hc0 hc1 x0 x1 x2 x3 xo5 xo6 xs0 = k0_pay8 x0 x1 x2 xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 xo5 xo6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_B_6 (hc0 : ¬cond0_0 i) (hc1 : ¬cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_B_6 c i arg2 harg2 arg3 harg3 arg4 harg4 arg5 harg5 arg6 harg6 arg7 harg7 arg8 harg8 arg9 harg9 arg10 harg10 hc0 hc1 x0 x1 x2 x3 xo5 xo6 xs0 = k0_pay9 x0 x1 x2 xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 xo5 xo6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem sout_B (hc0 : ¬cond0_0 i) (hc1 : ¬cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    sout0_B_0 c i arg2 harg2 arg3 harg3 arg4 harg4 arg5 harg5 arg6 harg6 arg7 harg7 arg8 harg8 arg9 harg9 arg10 harg10 hc0 hc1 x0 x1 x2 x3 xo5 xo6 xs0 = k0_pay1 xs0 (k0_pay10 x0 x1 x2) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xo5 xo6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

/-! ## A last row tile -/

theorem out_C_4 (hc0 : ¬cond0_0 i) (hc1 : cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_C_4 c i arg2 harg2 arg3 harg3 arg4 harg4 arg5 harg5 arg6 harg6 arg7 harg7 arg8 harg8 arg9 harg9 arg10 harg10 hc0 hc1 x0 x1 x2 x3 xo5 xo6 xs0 = k0_pay7 x0 x1 x2 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xo5 xo6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_C_5 (hc0 : ¬cond0_0 i) (hc1 : cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_C_5 c i arg2 harg2 arg3 harg3 arg4 harg4 arg5 harg5 arg6 harg6 arg7 harg7 arg8 harg8 arg9 harg9 arg10 harg10 hc0 hc1 x0 x1 x2 x3 xo5 xo6 xs0 = k0_pay8 x0 x1 x2 xo5 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xo5 xo6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_C_6 (hc0 : ¬cond0_0 i) (hc1 : cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_C_6 c i arg2 harg2 arg3 harg3 arg4 harg4 arg5 harg5 arg6 harg6 arg7 harg7 arg8 harg8 arg9 harg9 arg10 harg10 hc0 hc1 x0 x1 x2 x3 xo5 xo6 xs0 = k0_pay9 x0 x1 x2 xo6 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 xo5 xo6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem out_C_7 (hc0 : ¬cond0_0 i) (hc1 : cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    out0_C_7 c i arg2 harg2 arg3 harg3 arg4 harg4 arg5 harg5 arg6 harg6 arg7 harg7 arg8 harg8 arg9 harg9 arg10 harg10 hc0 hc1 x0 x1 x2 x3 xo5 xo6 xs0 = k0_pay2 x3 (k0_pay1 xs0 (k0_pay10 x0 x1 x2)) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 xo5 xo6 xs0)]
  unfold kernelRun0_C
  dsimp only
  sl_unfold_words
  rw [View.canon_unit_zero hz, View.readCov_unit_zero (S := S2048x512) _ hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

theorem sout_C (hc0 : ¬cond0_0 i) (hc1 : cond0_1 i)
    (x0 : Vec F S256x2048 .f32) (x1 : Vec F S2048x512 .bf16) (x2 : Vec F S1x512 .f32) (x3 : Vec F S2048x512 .f32) (xo5 : Vec F S1x512 .f32) (xo6 : Vec F S1x512 .f32) (xs0 : Vec F S2048x512 .f32) :
    sout0_C_0 c i arg2 harg2 arg3 harg3 arg4 harg4 arg5 harg5 arg6 harg6 arg7 harg7 arg8 harg8 arg9 harg9 arg10 harg10 hc0 hc1 x0 x1 x2 x3 xo5 xo6 xs0 = k0_pay1 xs0 (k0_pay10 x0 x1 x2) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xo5 xo6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x2048) hz, View.ld_unit_zero (S := S2048x512) hz, View.ld_unit_zero (S := S1x512) hz, View.ld_unit_zero (S := S256x512) hz]

end Cert.KBody

end
-- ==== Proof.KBodyCases.lean ====
/-
  WHAT EACH GRID STEP LEAVES, as terms of the body's arithmetic.

  At the first row tile of a column block (t % 16 = 0) the step leaves: the output tile; the column sums and the
  column sums of squares of that tile added to a zero row; the cross product added to a zero accumulator. At every
  later row tile it leaves the output tile and the same three quantities added to what the step before left. At the
  last row tile (t % 16 = 15) it also leaves the weighted column sums of the accumulator it has just updated.
-/
import proofs.«149382_j39599598469767_2_alg».proof.Proof.KBodyPieces

noncomputable section

namespace Cert.KBody

open Idealize.ShloMosaic Idealize.ShloMosaic.TcCoe Idealize.SL.Sem
open Cert.KernelIdeal Cert.KernelIdeal.Gen Cert.KernelIdeal.GenP

variable {F : FTy → Type} [FloatOps F]
variable (m : (ℓ : Loc nD τ sig) → Buf (Elt F) ℓ) (c : Dev nD)

/-- A first row tile. -/
theorem outs_A (t : Fin cfg0.N) (h0 : t.val % 16 = 0) (h1 : ¬t.val % 16 = 15) :
    (outsAt0 m c t.val t.isLt).1 = k0_pay7 (iblk m c 0 t) (iblk m c 1 t) (iblk m c 2 t)
    ∧ (outsAt0 m c t.val t.isLt).2.1 = k0_pay8 (iblk m c 0 t) (iblk m c 1 t) (iblk m c 2 t) k0_pay3
    ∧ (outsAt0 m c t.val t.isLt).2.2.1 = k0_pay9 (iblk m c 0 t) (iblk m c 1 t) (iblk m c 2 t) k0_pay4
    ∧ (outsAt0 m c t.val t.isLt).2.2.2.2 = k0_pay1 k0_pay5 (k0_pay10 (iblk m c 0 t) (iblk m c 1 t) (iblk m c 2 t)) := by
  have e : outsAt0 m c t.val t.isLt = (k0_pay7 (iblk m c 0 t) (iblk m c 1 t) (iblk m c 2 t),
      k0_pay8 (iblk m c 0 t) (iblk m c 1 t) (iblk m c 2 t) k0_pay3,
      k0_pay9 (iblk m c 0 t) (iblk m c 1 t) (iblk m c 2 t) k0_pay4,
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t),
      k0_pay1 k0_pay5 (k0_pay10 (iblk m c 0 t) (iblk m c 1 t) (iblk m c 2 t))) := by
    rw [outsAt0_A m c t h0 h1, out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t),
      out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t),
      out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t),
      sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t)]
  rw [e]
  exact ⟨rfl, rfl, rfl, rfl⟩

/-- A middle row tile. -/
theorem outs_B (t : Fin cfg0.N) (h0 : ¬t.val % 16 = 0) (h1 : ¬t.val % 16 = 15) :
    (outsAt0 m c t.val t.isLt).1 = k0_pay7 (iblk m c 0 t) (iblk m c 1 t) (iblk m c 2 t)
    ∧ (outsAt0 m c t.val t.isLt).2.1 = k0_pay8 (iblk m c 0 t) (iblk m c 1 t) (iblk m c 2 t) (outsAt0 m c (t.val - 1) (Nat.lt_of_le_of_lt (Nat.sub_le _ _) t.isLt)).2.1
    ∧ (outsAt0 m c t.val t.isLt).2.2.1 = k0_pay9 (iblk m c 0 t) (iblk m c 1 t) (iblk m c 2 t) (outsAt0 m c (t.val - 1) (Nat.lt_of_le_of_lt (Nat.sub_le _ _) t.isLt)).2.2.1
    ∧ (outsAt0 m c t.val t.isLt).2.2.2.2 = k0_pay1 (outsAt0 m c (t.val - 1) (Nat.lt_of_le_of_lt (Nat.sub_le _ _) t.isLt)).2.2.2.2 (k0_pay10 (iblk m c 0 t) (iblk m c 1 t) (iblk m c 2 t)) := by
  have e : outsAt0 m c t.val t.isLt = (k0_pay7 (iblk m c 0 t) (iblk m c 1 t) (iblk m c 2 t),
      k0_pay8 (iblk m c 0 t) (iblk m c 1 t) (iblk m c 2 t) (outsAt0 m c (t.val - 1) (Nat.lt_of_le_of_lt (Nat.sub_le _ _) t.isLt)).2.1,
      k0_pay9 (iblk m c 0 t) (iblk m c 1 t) (iblk m c 2 t) (outsAt0 m c (t.val - 1) (Nat.lt_of_le_of_lt (Nat.sub_le _ _) t.isLt)).2.2.1,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      k0_pay1 (outsAt0 m c (t.val - 1) (Nat.lt_of_le_of_lt (Nat.sub_le _ _) t.isLt)).2.2.2.2 (k0_pay10 (iblk m c 0 t) (iblk m c 1 t) (iblk m c 2 t))) := by
    rw [outsAt0_B m c t h0 h1, out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2]
  rw [e]
  exact ⟨rfl, rfl, rfl, rfl⟩

/-- A last row tile. -/
theorem outs_C (t : Fin cfg0.N) (h0 : ¬t.val % 16 = 0) (h1 : t.val % 16 = 15) :
    (outsAt0 m c t.val t.isLt).1 = k0_pay7 (iblk m c 0 t) (iblk m c 1 t) (iblk m c 2 t)
    ∧ (outsAt0 m c t.val t.isLt).2.1 = k0_pay8 (iblk m c 0 t) (iblk m c 1 t) (iblk m c 2 t) (outsAt0 m c (t.val - 1) (Nat.lt_of_le_of_lt (Nat.sub_le _ _) t.isLt)).2.1
    ∧ (outsAt0 m c t.val t.isLt).2.2.1 = k0_pay9 (iblk m c 0 t) (iblk m c 1 t) (iblk m c 2 t) (outsAt0 m c (t.val - 1) (Nat.lt_of_le_of_lt (Nat.sub_le _ _) t.isLt)).2.2.1
    ∧ (outsAt0 m c t.val t.isLt).2.2.2.1 = k0_pay2 (iblk m c 3 t) (k0_pay1 (outsAt0 m c (t.val - 1) (Nat.lt_of_le_of_lt (Nat.sub_le _ _) t.isLt)).2.2.2.2 (k0_pay10 (iblk m c 0 t) (iblk m c 1 t) (iblk m c 2 t)))
    ∧ (outsAt0 m c t.val t.isLt).2.2.2.2 = k0_pay1 (outsAt0 m c (t.val - 1) (Nat.lt_of_le_of_lt (Nat.sub_le _ _) t.isLt)).2.2.2.2 (k0_pay10 (iblk m c 0 t) (iblk m c 1 t) (iblk m c 2 t)) := by
  have e : outsAt0 m c t.val t.isLt = (k0_pay7 (iblk m c 0 t) (iblk m c 1 t) (iblk m c 2 t),
      k0_pay8 (iblk m c 0 t) (iblk m c 1 t) (iblk m c 2 t) (outsAt0 m c (t.val - 1) (Nat.lt_of_le_of_lt (Nat.sub_le _ _) t.isLt)).2.1,
      k0_pay9 (iblk m c 0 t) (iblk m c 1 t) (iblk m c 2 t) (outsAt0 m c (t.val - 1) (Nat.lt_of_le_of_lt (Nat.sub_le _ _) t.isLt)).2.2.1,
      k0_pay2 (iblk m c 3 t) (k0_pay1 (outsAt0 m c (t.val - 1) (Nat.lt_of_le_of_lt (Nat.sub_le _ _) t.isLt)).2.2.2.2 (k0_pay10 (iblk m c 0 t) (iblk m c 1 t) (iblk m c 2 t))),
      k0_pay1 (outsAt0 m c (t.val - 1) (Nat.lt_of_le_of_lt (Nat.sub_le _ _) t.isLt)).2.2.2.2 (k0_pay10 (iblk m c 0 t) (iblk m c 1 t) (iblk m c 2 t))) := by
    rw [outsAt0_C m c t h0 h1, out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2,
      sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2]
  rw [e]
  exact ⟨rfl, rfl, rfl, rfl, rfl⟩

end Cert.KBody

end
-- ==== Proof.KBodyBlocks.lean ====
/-
  WHERE A GRID STEP'S BLOCKS SIT IN THE ARRAYS.

  Step t of the 4-by-16 grid works on column block n = t / 16 (512 columns) and row tile e = t % 16 (256 rows). Its
  activation tile is rows 256·e … 256·e + 255 of the activations (all 2048 columns); its weight block and its
  cost-weight block are columns 512·n … 512·n + 511 of those arrays (all 2048 rows); its bias block is the same
  columns of the bias row. Its output tile is rows 256·e …, columns 512·n … of the result, and its three row
  outputs are columns 512·n … of three rows. Each block entry is the array's entry at those coordinates.
-/
import proofs.«149382_j39599598469767_2_alg».proof.Proof.GenP.KernelIdeal.Frame.Runs
import Idealize.ShloMosaic.Lib.Pipeline.Value
import Idealize.ShloMosaic.Lib.ValueIdx

noncomputable section

namespace Cert.KBody

open Idealize.ShloMosaic Idealize.ShloMosaic.TcCoe Idealize.SL.Sem Idealize.ShloMosaic.ValueIdx
open Cert.KernelIdeal Cert.KernelIdeal.Gen Cert.KernelIdeal.GenP

variable {F : FTy → Type} [FloatOps F]
variable (m : (ℓ : Loc nD τ sig) → Buf (Elt F) ℓ) (c : Dev nD)

/-- The block indices of the eight windows at step t, decided over the grid: the row tile is t % 16, the column
    block t / 16. -/
theorem idx_facts : ∀ t : Fin cfg0.N,
    win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = 0 ∧ win0_2.index t (1 : Fin 2) = t.val / 16
    ∧ win0_3.index t (0 : Fin 2) = 0 ∧ win0_3.index t (1 : Fin 2) = t.val / 16
    ∧ win0_4.index t (0 : Fin 2) = t.val % 16 ∧ win0_4.index t (1 : Fin 2) = t.val / 16
    ∧ win0_5.index t (0 : Fin 2) = 0 ∧ win0_5.index t (1 : Fin 2) = t.val / 16
    ∧ win0_6.index t (0 : Fin 2) = 0 ∧ win0_6.index t (1 : Fin 2) = t.val / 16
    ∧ win0_7.index t (0 : Fin 2) = 0 ∧ win0_7.index t (1 : Fin 2) = t.val / 16 :=
  (by decide +kernel : ∀ t : Fin grid0.N, _)

/-- The activation tile at (p, k) is the activations at row 256·(t % 16) + p, column k. -/
theorem blk0_apply (t : Fin cfg0.N) (p : Fin 256) (k : Fin 2048) (e : Fin 4096)
    (he : e.val = 256 * (t.val % 16) + p.val) :
    (iblk m c 0 t : Vec F S256x2048 .f32) (ix2 p k) = (V m c main_arg0 : Vec F S4096x2048 .f32) (ix2 e k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * p.val = e.val; rw [e0, he]; omega
  | ⟨1, _⟩ => show win0_0.index t (1 : Fin 2) * 2048 + 1 * k.val = k.val; rw [e1]; omega

/-- The weight block at (k, q) is the weights at row k, column 512·(t / 16) + q. -/
theorem blk1_apply (t : Fin cfg0.N) (k : Fin 2048) (q : Fin 512) (n : Fin 2048)
    (hn : n.val = 512 * (t.val / 16) + q.val) :
    (iblk m c 1 t : Vec F S2048x512 .bf16) (ix2 k q) = (V m c main_v27 : Vec F S2048x2048 .bf16) (ix2 k n) := by
  obtain ⟨-, -, e0, e1, -⟩ := idx_facts t
  unfold iblk
  rw [View.read_apply]
  show V m c main_v27 _ = V m c main_v27 _
  refine congrArg (V m c main_v27) (funext fun a => Fin.ext ?_)
  match a with
  | ⟨0, _⟩ => show win0_1.index t (0 : Fin 2) * 2048 + 1 * k.val = k.val; rw [e0]; omega
  | ⟨1, _⟩ => show win0_1.index t (1 : Fin 2) * 512 + 1 * q.val = n.val; rw [e1, hn]; omega

/-- The bias block at (0, q) is the bias row at column 512·(t / 16) + q. -/
theorem blk2_apply (t : Fin cfg0.N) (q : Fin 512) (n : Fin 2048) (hn : n.val = 512 * (t.val / 16) + q.val) :
    (iblk m c 2 t : Vec F S1x512 .f32) (ix2 (0 : Fin 1) q) = (V m c main_v30 : Vec F S1x2048 .f32) (ix2 (0 : Fin 1) n) := by
  obtain ⟨-, -, -, -, e0, e1, -⟩ := idx_facts t
  unfold iblk
  rw [View.read_apply]
  show V m c main_v30 _ = V m c main_v30 _
  refine congrArg (V m c main_v30) (funext fun a => Fin.ext ?_)
  match a with
  | ⟨0, _⟩ => show win0_2.index t (0 : Fin 2) * 1 + 1 * 0 = 0; rw [e0]
  | ⟨1, _⟩ => show win0_2.index t (1 : Fin 2) * 512 + 1 * q.val = n.val; rw [e1, hn]; omega

/-- The cost-weight block at (k, q) is the cost weights at row k, column 512·(t / 16) + q. -/
theorem blk3_apply (t : Fin cfg0.N) (k : Fin 2048) (q : Fin 512) (n : Fin 2048)
    (hn : n.val = 512 * (t.val / 16) + q.val) :
    (iblk m c 3 t : Vec F S2048x512 .f32) (ix2 k q) = (V m c main_v40 : Vec F S2048x2048 .f32) (ix2 k n) := by
  obtain ⟨-, -, -, -, -, -, e0, e1, -⟩ := idx_facts t
  unfold iblk
  rw [View.read_apply]
  show V m c main_v40 _ = V m c main_v40 _
  refine congrArg (V m c main_v40) (funext fun a => Fin.ext ?_)
  match a with
  | ⟨0, _⟩ => show win0_3.index t (0 : Fin 2) * 2048 + 1 * k.val = k.val; rw [e0]; omega
  | ⟨1, _⟩ => show win0_3.index t (1 : Fin 2) * 512 + 1 * q.val = n.val; rw [e1, hn]; omega

end Cert.KBody

end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.KBodySums.lean ====
/-
  RUNNING SUMS THAT RESTART, AND A SUM CUT INTO TILES.

  A quantity that is reset to `f n` whenever the step number n is a multiple of J and otherwise grows by `f n` holds,
  at step J·b + j (j < J), the sum of f over the steps J·b … J·b + j of the current block. And a sum over e < T·K is the
  sum over the K tiles of the sums over the T entries of each tile. Both hold in any commutative monoid: only the
  grouping of the terms changes.
-/
import Mathlib.Algebra.BigOperators.Intervals
import Mathlib.Algebra.BigOperators.Fin
import proofs.«149382_j39599598469767_2_alg».proof.Proof.LibTiles

namespace Cert.KBody

open Finset

variable {M : Type*} [AddCommMonoid M]

/-- The running sum of `f`, restarted at every multiple of `J`. -/
def runSum (J : ℕ) (f : ℕ → M) : ℕ → M
  | 0 => f 0
  | n + 1 => if (n + 1) % J = 0 then f (n + 1) else runSum J f n + f (n + 1)

theorem runSum_zero (J : ℕ) (f : ℕ → M) : runSum J f 0 = f 0 := rfl

theorem runSum_succ (J : ℕ) (f : ℕ → M) (n : ℕ) :
    runSum J f (n + 1) = if (n + 1) % J = 0 then f (n + 1) else runSum J f n + f (n + 1) := rfl

/-- At a multiple of `J` the running sum is the term of that step. -/
theorem runSum_reset (J : ℕ) (f : ℕ → M) (n : ℕ) (h : n % J = 0) : runSum J f n = f n := by
  cases n with
  | zero => rfl
  | succ n => rw [runSum_succ, if_pos h]

/-- Elsewhere it is the previous value plus the term of that step. -/
theorem runSum_step (J : ℕ) (f : ℕ → M) (n : ℕ) (h : ¬(n + 1) % J = 0) :
    runSum J f (n + 1) = runSum J f n + f (n + 1) := by
  rw [runSum_succ, if_neg h]

/-- Inside block `b`, after `j` further steps, it is the sum over the block's steps so far. -/
theorem runSum_block (J : ℕ) (f : ℕ → M) (b : ℕ) :
    ∀ j, j < J → runSum J f (J * b + j) = ∑ s ∈ range (j + 1), f (J * b + s)
  | 0, _ => by
    rw [sum_range_one, Nat.add_zero]
    exact runSum_reset J f _ (Nat.mul_mod_right J b)
  | j + 1, hj => by
    have hne : ¬(J * b + j + 1) % J = 0 := by
      rw [Nat.add_assoc, Nat.mul_add_mod, Nat.mod_eq_of_lt hj]; exact Nat.succ_ne_zero j
    rw [← Nat.add_assoc, runSum_step J f _ hne, runSum_block J f b j (Nat.lt_of_succ_lt hj),
      sum_range_succ _ (j + 1), Nat.add_assoc]

/-- A sum over `e < N = T·K` is the sum, tile by tile, of the tiles' sums. -/
theorem sum_fin_tiles (T K N : ℕ) (hN : T * K = N) (g : Fin N → M) :
    ∑ e : Fin N, g e
      = ∑ s ∈ range K, ∑ r : Fin T, (if h : T * s + r.val < N then g ⟨T * s + r.val, h⟩ else 0) := by
  subst hN
  rw [← Cert.Tiles.sum_range_dite (T * K) g,
    ← Cert.Tiles.sum_tiles_fin T (fun d => if h : d < T * K then g ⟨d, h⟩ else 0) K]

end Cert.KBody
-- ==== Proof.KBodyInv.lean ====
/-
  THE RUNNING TOTALS ACROSS A COLUMN BLOCK'S SIXTEEN STEPS.

  Write A0 for the activations, A1 for the weights, A2 for the bias row, A3 for the signed cost weights, as the grid
  finds them, and z(e, n) = Σ_k A0(e, k) · A1(k, n) + A2(n). Step u of the grid handles rows 256·(u % 16) + p and
  columns 512·(u / 16) + q. Its output tile is z at those rows and columns. After step u the three carried
  quantities — the column sums, the column sums of squares, the accumulator of cross products — hold the totals,
  over the steps of the current column block so far, of Σ_p z, Σ_p z², Σ_p A0(·, k) · z over the step's 256 rows:
  a running sum restarted at every multiple of 16. At the last step of a block the fourth output is the sum over k
  of A3(k, ·) times the accumulator.
-/
import proofs.«149382_j39599598469767_2_alg».proof.Proof.KBodyPay
import proofs.«149382_j39599598469767_2_alg».proof.Proof.KBodyCases
import proofs.«149382_j39599598469767_2_alg».proof.Proof.KBodyBlocks
import proofs.«149382_j39599598469767_2_alg».proof.Proof.KBodySums
import proofs.«149382_j39599598469767_2_alg».proof.Proof.Spec

noncomputable section

open scoped BigOperators

namespace Cert.KBody

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

/-- The four arrays the grid's input windows read, as it finds them, by coordinates. -/
def A0 : Fin 4096 → Fin 2048 → Cert.Spec.X := fun e k => (V m c main_arg0 : Vec Ideal S4096x2048 .f32) (ix2 e k)
def A1 : Fin 2048 → Fin 2048 → Cert.Spec.X := fun k n => (V m c main_v27 : Vec Ideal S2048x2048 .bf16) (ix2 k n)
def A2 : Fin 2048 → Cert.Spec.X := fun n => (V m c main_v30 : Vec Ideal S1x2048 .f32) (ix2 (0 : Fin 1) n)
def A3 : Fin 2048 → Fin 2048 → Cert.Spec.X := fun k n => (V m c main_v40 : Vec Ideal S2048x2048 .f32) (ix2 k n)

/-- Row p of step u's tile, and column q of its block, in the arrays. -/
def rowOf (u : ℕ) (p : Fin 256) : Fin 4096 :=
  ⟨256 * (u % 16) + p.val, by have := Nat.mod_lt u (show 0 < 16 by norm_num); have := p.isLt; omega⟩
def colOf (u : ℕ) (q : Fin 512) : Fin 2048 :=
  ⟨512 * (u / 16 % 4) + q.val, by have := Nat.mod_lt (u / 16) (show 0 < 4 by norm_num); have := q.isLt; omega⟩

/-- z at the array coordinates of the step's (p, q). -/
def zAt (u : ℕ) (p : Fin 256) (q : Fin 512) : Cert.Spec.X :=
  Cert.Spec.zK (A0 m c) (A1 m c) (A2 m c) (rowOf u p) (colOf u q)

/-- One step's contributions to the three carried quantities. -/
def S5 (u : ℕ) (q : Fin 512) : Cert.Spec.X := ∑ p : Fin 256, zAt m c u p q
def S6 (u : ℕ) (q : Fin 512) : Cert.Spec.X := ∑ p : Fin 256, zAt m c u p q * zAt m c u p q
def SX (u : ℕ) (k : Fin 2048) (q : Fin 512) : Cert.Spec.X := ∑ p : Fin 256, A0 m c (rowOf u p) k * zAt m c u p q

theorem lt64 (t : Fin cfg0.N) : t.val < 64 := lt_of_lt_of_eq t.isLt (show cfg0.N = 64 from N_0)

/-- The step's output tile is z at the step's rows and columns. -/
theorem ztile_apply (t : Fin cfg0.N) (p : Fin 256) (q : Fin 512) :
    k0_pay7 (F := Ideal) (iblk m c 0 t) (iblk m c 1 t) (iblk m c 2 t) (ix2 p q) = zAt m c t.val p q := by
  have hN := lt64 t
  have hc : (colOf t.val q).val = 512 * (t.val / 16) + q.val := by
    show 512 * (t.val / 16 % 4) + q.val = _; omega
  refine (pay7_apply (iblk m c 0 t) (iblk m c 1 t) (iblk m c 2 t) p q).trans ?_
  unfold zAt Cert.Spec.zK
  exact congrArg₂ (· + ·)
    (Finset.sum_congr rfl fun k _ => congrArg₂ (· * ·) (blk0_apply m c t p k (rowOf t.val p) rfl)
      (blk1_apply m c t k q (colOf t.val q) hc))
    (blk2_apply m c t q (colOf t.val q) hc)

/-- The contents at two spellings of one step number. -/
theorem outs_same (u v : ℕ) (hu : u < cfg0.N) (hv : v < cfg0.N) (e : u = v) : outsAt0 m c u hu = outsAt0 m c v hv := by
  subst e; rfl

/-- The three carried quantities after a first row tile, at an element. -/
theorem carried_A (t : Fin cfg0.N) (h0 : t.val % 16 = 0) :
    (∀ q : Fin 512, (outsAt0 m c t.val t.isLt).2.1 (ix2 (0 : Fin 1) q) = S5 m c t.val q)
    ∧ (∀ q : Fin 512, (outsAt0 m c t.val t.isLt).2.2.1 (ix2 (0 : Fin 1) q) = S6 m c t.val q)
    ∧ (∀ (k : Fin 2048) (q : Fin 512), (outsAt0 m c t.val t.isLt).2.2.2.2 (ix2 k q) = SX m c t.val k q) := by
  obtain ⟨-, e5, e6, es⟩ := outs_A m c t h0 (by omega)
  refine ⟨fun q => ?_, fun q => ?_, fun k q => ?_⟩
  · refine (congrFun e5 _).trans ((pay8_apply (iblk m c 0 t) (iblk m c 1 t) (iblk m c 2 t) _ q).trans ?_)
    rw [pay3_apply, zero_add]
    exact Finset.sum_congr rfl fun p _ => ztile_apply m c t p q
  · refine (congrFun e6 _).trans ((pay9_apply (iblk m c 0 t) (iblk m c 1 t) (iblk m c 2 t) _ q).trans ?_)
    rw [pay4_apply, zero_add]
    exact Finset.sum_congr rfl fun p _ => by rw [ztile_apply m c t p q]
  · refine (congrFun es _).trans ((pay1_apply _ _ _).trans ?_)
    rw [pay5_apply, zero_add]
    refine (pay10_apply (iblk m c 0 t) (iblk m c 1 t) (iblk m c 2 t) k q).trans ?_
    exact Finset.sum_congr rfl fun p _ =>
      congrArg₂ (· * ·) (blk0_apply m c t p k (rowOf t.val p) rfl) (ztile_apply m c t p q)

/-- The three carried quantities after a later row tile, at an element: what the step before left plus this step's
    contribution. -/
theorem carried_BC (t : Fin cfg0.N) (h0 : ¬t.val % 16 = 0) :
    (∀ q : Fin 512, (outsAt0 m c t.val t.isLt).2.1 (ix2 (0 : Fin 1) q)
        = (outsAt0 m c (t.val - 1) (Nat.lt_of_le_of_lt (Nat.sub_le _ _) t.isLt)).2.1 (ix2 (0 : Fin 1) q) + S5 m c t.val q)
    ∧ (∀ q : Fin 512, (outsAt0 m c t.val t.isLt).2.2.1 (ix2 (0 : Fin 1) q)
        = (outsAt0 m c (t.val - 1) (Nat.lt_of_le_of_lt (Nat.sub_le _ _) t.isLt)).2.2.1 (ix2 (0 : Fin 1) q) + S6 m c t.val q)
    ∧ (∀ (k : Fin 2048) (q : Fin 512), (outsAt0 m c t.val t.isLt).2.2.2.2 (ix2 k q)
        = (outsAt0 m c (t.val - 1) (Nat.lt_of_le_of_lt (Nat.sub_le _ _) t.isLt)).2.2.2.2 (ix2 k q) + SX m c t.val k q) := by
  have key : (outsAt0 m c t.val t.isLt).2.1 = k0_pay8 (iblk m c 0 t) (iblk m c 1 t) (iblk m c 2 t) (outsAt0 m c (t.val - 1) (Nat.lt_of_le_of_lt (Nat.sub_le _ _) t.isLt)).2.1
      ∧ (outsAt0 m c t.val t.isLt).2.2.1 = k0_pay9 (iblk m c 0 t) (iblk m c 1 t) (iblk m c 2 t) (outsAt0 m c (t.val - 1) (Nat.lt_of_le_of_lt (Nat.sub_le _ _) t.isLt)).2.2.1
      ∧ (outsAt0 m c t.val t.isLt).2.2.2.2 = k0_pay1 (outsAt0 m c (t.val - 1) (Nat.lt_of_le_of_lt (Nat.sub_le _ _) t.isLt)).2.2.2.2 (k0_pay10 (iblk m c 0 t) (iblk m c 1 t) (iblk m c 2 t)) := by
    by_cases h1 : t.val % 16 = 15
    · obtain ⟨-, e5, e6, -, es⟩ := outs_C m c t h0 h1
      exact ⟨e5, e6, es⟩
    · obtain ⟨-, e5, e6, es⟩ := outs_B m c t h0 h1
      exact ⟨e5, e6, es⟩
  obtain ⟨e5, e6, es⟩ := key
  refine ⟨fun q => ?_, fun q => ?_, fun k q => ?_⟩
  · refine (congrFun e5 _).trans ((pay8_apply (iblk m c 0 t) (iblk m c 1 t) (iblk m c 2 t) _ q).trans ?_)
    exact congrArg (_ + ·) (Finset.sum_congr rfl fun p _ => ztile_apply m c t p q)
  · refine (congrFun e6 _).trans ((pay9_apply (iblk m c 0 t) (iblk m c 1 t) (iblk m c 2 t) _ q).trans ?_)
    exact congrArg (_ + ·) (Finset.sum_congr rfl fun p _ => by rw [ztile_apply m c t p q])
  · refine (congrFun es _).trans ((pay1_apply _ _ _).trans ?_)
    refine congrArg (_ + ·) ((pay10_apply (iblk m c 0 t) (iblk m c 1 t) (iblk m c 2 t) k q).trans ?_)
    exact Finset.sum_congr rfl fun p _ =>
      congrArg₂ (· * ·) (blk0_apply m c t p k (rowOf t.val p) rfl) (ztile_apply m c t p q)

/-- THE RUNNING TOTALS: after step n the three carried quantities are the running sums, restarted at every multiple
    of 16, of the steps' contributions. -/
theorem carried : ∀ (n : ℕ) (h : n < cfg0.N),
    (∀ q : Fin 512, (outsAt0 m c n h).2.1 (ix2 (0 : Fin 1) q) = runSum 16 (fun u => S5 m c u q) n)
    ∧ (∀ q : Fin 512, (outsAt0 m c n h).2.2.1 (ix2 (0 : Fin 1) q) = runSum 16 (fun u => S6 m c u q) n)
    ∧ (∀ (k : Fin 2048) (q : Fin 512), (outsAt0 m c n h).2.2.2.2 (ix2 k q) = runSum 16 (fun u => SX m c u k q) n)
  | 0, h => by
    obtain ⟨a5, a6, aX⟩ := carried_A m c ⟨0, h⟩ rfl
    exact ⟨fun q => (a5 q).trans (runSum_zero 16 (fun u => S5 m c u q)).symm,
      fun q => (a6 q).trans (runSum_zero 16 (fun u => S6 m c u q)).symm,
      fun k q => (aX k q).trans (runSum_zero 16 (fun u => SX m c u k q)).symm⟩
  | n + 1, h => by
    by_cases h0 : (n + 1) % 16 = 0
    · obtain ⟨a5, a6, aX⟩ := carried_A m c ⟨n + 1, h⟩ h0
      exact ⟨fun q => (a5 q).trans (runSum_reset 16 (fun u => S5 m c u q) (n + 1) h0).symm,
        fun q => (a6 q).trans (runSum_reset 16 (fun u => S6 m c u q) (n + 1) h0).symm,
        fun k q => (aX k q).trans (runSum_reset 16 (fun u => SX m c u k q) (n + 1) h0).symm⟩
    · obtain ⟨b5, b6, bs⟩ := carried_BC m c ⟨n + 1, h⟩ h0
      obtain ⟨i5, i6, iX⟩ := carried n (Nat.lt_of_succ_lt h)
      have hp : outsAt0 m c ((⟨n + 1, h⟩ : Fin cfg0.N).val - 1) (Nat.lt_of_le_of_lt (Nat.sub_le _ _) (⟨n + 1, h⟩ : Fin cfg0.N).isLt)
          = outsAt0 m c n (Nat.lt_of_succ_lt h) := outs_same m c _ _ _ _ (Nat.add_sub_cancel n 1)
      refine ⟨fun q => ?_, fun q => ?_, fun k q => ?_⟩
      · rw [runSum_step 16 (fun u => S5 m c u q) n h0, ← i5 q, ← hp]; exact b5 q
      · rw [runSum_step 16 (fun u => S6 m c u q) n h0, ← i6 q, ← hp]; exact b6 q
      · rw [runSum_step 16 (fun u => SX m c u k q) n h0, ← iX k q, ← hp]; exact bs k q

/-- The output tile after any step. -/
theorem tile_at (t : Fin cfg0.N) (p : Fin 256) (q : Fin 512) :
    (outsAt0 m c t.val t.isLt).1 (ix2 p q) = zAt m c t.val p q := by
  have e : (outsAt0 m c t.val t.isLt).1 = k0_pay7 (iblk m c 0 t) (iblk m c 1 t) (iblk m c 2 t) := by
    by_cases h0 : t.val % 16 = 0
    · exact (outs_A m c t h0 (by omega)).1
    · by_cases h1 : t.val % 16 = 15
      · exact (outs_C m c t h0 h1).1
      · exact (outs_B m c t h0 h1).1
  exact (congrFun e _).trans (ztile_apply m c t p q)

/-- The fourth output after a last row tile: the cost weights against the accumulator, column by column. -/
theorem pw_at (t : Fin cfg0.N) (h1 : t.val % 16 = 15) (q : Fin 512) :
    (outsAt0 m c t.val t.isLt).2.2.2.1 (ix2 (0 : Fin 1) q)
      = ∑ k : Fin 2048, A3 m c k (colOf t.val q) * runSum 16 (fun u => SX m c u k q) t.val := by
  have hN := lt64 t
  obtain ⟨-, -, -, e7, es⟩ := outs_C m c t (by omega) h1
  rw [← es] at e7
  have hc : (colOf t.val q).val = 512 * (t.val / 16) + q.val := by
    show 512 * (t.val / 16 % 4) + q.val = _; omega
  refine (congrFun e7 _).trans ((pay2_apply (iblk m c 3 t) _ q).trans ?_)
  exact Finset.sum_congr rfl fun k _ => congrArg₂ (· * ·) (blk3_apply m c t k q (colOf t.val q) hc)
    ((carried m c t.val t.isLt).2.2 k q)

end Cert.KBody

end
-- ==== Proof.KBodyFinal.lean ====
/-
  THE FOUR RESULT ARRAYS OF THE GRID.

  With A0, A1, A2, A3 the arrays the grid's input windows read and z(e, n) = Σ_k A0(e, k) · A1(k, n) + A2(n):
  the first result is z; the three row results are, at column n, Σ_e z(e, n), Σ_e z(e, n)², and
  Σ_k A3(k, n) · Σ_e A0(e, k) · z(e, n), the sums over all 4096 rows e. The tile of z written at step t is z at the
  step's rows and columns, and the steps' tiles cover the result. A row result's block for column block b is written
  back at the block's last step, 16·b + 15, when the running totals have run over the block's sixteen row tiles —
  which together are all 4096 rows.
-/
import proofs.«149382_j39599598469767_2_alg».proof.Proof.KBodyInv

noncomputable section

open scoped BigOperators

namespace Cert.KBody

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (m : (ℓ : Loc nD τ sig) → Buf (Elt Ideal) ℓ) (c : Dev nD)

/-! ## Sixteen row tiles are all the rows -/

/-- A running total whose step 16·b + s adds the sum of `g` over rows 256·s … 256·s + 255 holds, at the last step of
    block b, the sum of `g` over all 4096 rows. -/
theorem block_total (b : ℕ) (g : Fin 4096 → Cert.Spec.X) (f : ℕ → Cert.Spec.X)
    (hf : ∀ s, s < 16 → f (16 * b + s) = ∑ p : Fin 256, (if h : 256 * s + p.val < 4096 then g ⟨256 * s + p.val, h⟩ else 0)) :
    runSum 16 f (16 * b + 15) = ∑ e : Fin 4096, g e := by
  rw [runSum_block 16 f b 15 (by norm_num), sum_fin_tiles 256 16 4096 (by norm_num) g]
  exact Finset.sum_congr rfl fun s hs => hf s (Finset.mem_range.mp hs)

/-- Row p of step 16·b + s is row 256·s + p; its columns are those of block b. -/
theorem rowOf_block (b s : ℕ) (hs : s < 16) (p : Fin 256) (h : 256 * s + p.val < 4096) :
    rowOf (16 * b + s) p = ⟨256 * s + p.val, h⟩ := Fin.ext (by show 256 * ((16 * b + s) % 16) + p.val = 256 * s + p.val; omega)
theorem colOf_block (b s : ℕ) (hs : s < 16) (q : Fin 512) : colOf (16 * b + s) q = colOf (16 * b + 15) q :=
  Fin.ext (by show 512 * ((16 * b + s) / 16 % 4) + q.val = 512 * ((16 * b + 15) / 16 % 4) + q.val; omega)

theorem zAt_block (b s : ℕ) (hs : s < 16) (p : Fin 256) (q : Fin 512) (h : 256 * s + p.val < 4096) :
    zAt m c (16 * b + s) p q = Cert.Spec.zK (A0 m c) (A1 m c) (A2 m c) ⟨256 * s + p.val, h⟩ (colOf (16 * b + 15) q) := by
  unfold zAt
  rw [rowOf_block b s hs p h, colOf_block b s hs q]

theorem lastStep (t : Fin cfg0.N) (h15 : t.val % 16 = 15) : ∃ b, t.val = 16 * b + 15 := ⟨t.val / 16, by omega⟩

/-- The column sums at a last step. -/
theorem col_total (t : Fin cfg0.N) (h15 : t.val % 16 = 15) (q : Fin 512) :
    (outsAt0 m c t.val t.isLt).2.1 (ix2 (0 : Fin 1) q) = Cert.Spec.colK (A0 m c) (A1 m c) (A2 m c) (colOf t.val q) := by
  refine ((carried m c t.val t.isLt).1 q).trans ?_
  obtain ⟨b, hb⟩ := lastStep t h15
  rw [hb]
  unfold Cert.Spec.colK
  refine block_total b (fun e => Cert.Spec.zK (A0 m c) (A1 m c) (A2 m c) e (colOf (16 * b + 15) q)) _ fun s hs => ?_
  unfold S5
  refine Finset.sum_congr rfl fun p _ => ?_
  have hp := p.isLt
  have h : 256 * s + p.val < 4096 := by omega
  rw [dif_pos h, zAt_block m c b s hs p q h]

/-- The column sums of squares at a last step. -/
theorem y2_total (t : Fin cfg0.N) (h15 : t.val % 16 = 15) (q : Fin 512) :
    (outsAt0 m c t.val t.isLt).2.2.1 (ix2 (0 : Fin 1) q) = Cert.Spec.y2K (A0 m c) (A1 m c) (A2 m c) (colOf t.val q) := by
  refine ((carried m c t.val t.isLt).2.1 q).trans ?_
  obtain ⟨b, hb⟩ := lastStep t h15
  rw [hb]
  unfold Cert.Spec.y2K
  refine block_total b (fun e => Cert.Spec.zK (A0 m c) (A1 m c) (A2 m c) e (colOf (16 * b + 15) q)
    * Cert.Spec.zK (A0 m c) (A1 m c) (A2 m c) e (colOf (16 * b + 15) q)) _ fun s hs => ?_
  unfold S6
  refine Finset.sum_congr rfl fun p _ => ?_
  have hp := p.isLt
  have h : 256 * s + p.val < 4096 := by omega
  rw [dif_pos h, zAt_block m c b s hs p q h]

/-- The weighted column sums of the accumulator at a last step. -/
theorem pw_total (t : Fin cfg0.N) (h15 : t.val % 16 = 15) (q : Fin 512) :
    (outsAt0 m c t.val t.isLt).2.2.2.1 (ix2 (0 : Fin 1) q)
      = Cert.Spec.pwK (A0 m c) (A1 m c) (A2 m c) (A3 m c) (colOf t.val q) := by
  refine (pw_at m c t h15 q).trans ?_
  obtain ⟨b, hb⟩ := lastStep t h15
  rw [hb]
  unfold Cert.Spec.pwK
  refine Finset.sum_congr rfl fun k _ => congrArg (A3 m c k (colOf (16 * b + 15) q) * ·) ?_
  refine block_total b (fun e => A0 m c e k * Cert.Spec.zK (A0 m c) (A1 m c) (A2 m c) e (colOf (16 * b + 15) q)) _ fun s hs => ?_
  unfold SX
  refine Finset.sum_congr rfl fun p _ => ?_
  have hp := p.isLt
  have h : 256 * s + p.val < 4096 := by omega
  rw [dif_pos h, zAt_block m c b s hs p q h, rowOf_block b s hs p h]

/-! ## Output window 4 -/

/-- What the array ends holding, by index. -/
def G4 : S4096x2048.Idx → Elt Ideal .f32 := fun i =>
  Cert.Spec.zK (A0 m c) (A1 m c) (A2 m c) ⟨(i 0).val, idx2_lt0 i⟩ ⟨(i 1).val, idx2_lt1 i⟩

theorem mem_blk4 (t : Fin cfg0.N) (i : S4096x2048.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v41_0).slice (win0_4.rect t)).set ↔ _
  rw [View.set_slice_whole, Rect.mem_set_unit]
  exact Iff.rfl

/-- Every entry of the result is in the tile of the step with its row tile and column block. -/
theorem cover4 (i : S4096x2048.Idx) : ∃ t : Fin cfg0.N, (cfg0.win 4).flush t = true ∧ i ∈ ((cfg0.win 4).blk t).view.set := by
  have hi0 : (i 0).val < 4096 := idx2_lt0 i
  have hi1 : (i 1).val < 2048 := idx2_lt1 i
  have hN : cfg0.N = 64 := N_0
  obtain ⟨t, tv⟩ : ∃ t : Fin cfg0.N, t.val = 16 * ((i 1).val / 512) + (i 0).val / 256 :=
    ⟨⟨16 * ((i 1).val / 512) + (i 0).val / 256, by rw [hN]; omega⟩, rfl⟩
  obtain ⟨-, -, -, -, -, -, -, -, e0, e1, -, -, -, -, -, -⟩ := idx_facts t
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; rw [e0, tv]; omega
  | ⟨1, _⟩ => show win0_4.index t (1 : Fin 2) * 512 ≤ (i 1).val ∧ (i 1).val < win0_4.index t (1 : Fin 2) * 512 + 512; rw [e1, tv]; omega

/-- What step t writes back is its tile of z. -/
theorem flushed4_eq (t : Fin cfg0.N) :
    (dats m 0 c).flushed 4 t = ((cfg0.win 4).blk t).view.read (Elt Ideal) (G4 m c) := by
  have hN := lt64 t
  show (cfg0.win 4).cut (grid0.coords t) ((dats m 0 c).after 4 t) = _
  rw [after0_4]
  obtain ⟨-, -, -, -, -, -, -, -, e0, e1, -, -, -, -, -, -⟩ := idx_facts t
  funext j
  obtain ⟨p, q, rfl⟩ : ∃ (p : Fin 256) (q : Fin 512), j = ix2 p q := ⟨j 0, j 1, eq_ix2 j⟩
  show (outsAt0 m c t.val t.isLt).1 (ix2 p q) = G4 m c (((cfg0.win 4).blk t).view.emb (ix2 p q))
  refine (tile_at m c t p q).trans ?_
  unfold G4 zAt
  refine congrArg₂ (Cert.Spec.zK (A0 m c) (A1 m c) (A2 m c)) (Fin.ext ?_) (Fin.ext ?_)
  · show 256 * (t.val % 16) + p.val = win0_4.index t (0 : Fin 2) * 256 + 1 * p.val
    rw [e0]; omega
  · show 512 * (t.val / 16 % 4) + q.val = win0_4.index t (1 : Fin 2) * 512 + 1 * q.val
    rw [e1]; omega

theorem arr4 : (dats m 0 c).arrAt 4 cfg0.N = G4 m c :=
  (dats m 0 c).arrAt_eq_of_cover 4 (G4 m c) (fun t _ => flushed4_eq m c t) cover4

/-! ## Output window 5 -/

/-- What the array ends holding, by index. -/
def G5 : S1x2048.Idx → Elt Ideal .f32 := fun i => Cert.Spec.colK (A0 m c) (A1 m c) (A2 m c) ⟨(i 1).val, idx2_lt1 i⟩

theorem mem_blk5 (t : Fin cfg0.N) (i : S1x2048.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v41_1).slice (win0_5.rect t)).set ↔ _
  rw [View.set_slice_whole, Rect.mem_set_unit]
  exact Iff.rfl

/-- The last step of each column block covers that block's columns. -/
theorem cover5 (i : S1x2048.Idx) : ∃ t : Fin cfg0.N, (cfg0.win 5).flush t = true ∧ i ∈ ((cfg0.win 5).blk t).view.set := by
  have hi0 : (i 0).val < 1 := idx2_lt0 i
  have hi1 : (i 1).val < 2048 := idx2_lt1 i
  have hN : cfg0.N = 64 := N_0
  obtain ⟨t, tv⟩ : ∃ t : Fin cfg0.N, t.val = 16 * ((i 1).val / 512) + 15 := ⟨⟨16 * ((i 1).val / 512) + 15, by rw [hN]; omega⟩, rfl⟩
  obtain ⟨-, -, -, -, -, -, -, -, -, -, e0, e1, -, -, -, -⟩ := idx_facts t
  refine ⟨t, (flush0_5 t).mpr (by omega), ?_⟩
  rw [mem_blk5]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 512 ≤ (i 1).val ∧ (i 1).val < win0_5.index t (1 : Fin 2) * 512 + 512; rw [e1, tv]; omega

/-- What a last step writes back is its block of the totals. -/
theorem flushed5_eq (t : Fin cfg0.N) (hf : (cfg0.win 5).flush t = true) :
    (dats m 0 c).flushed 5 t = ((cfg0.win 5).blk t).view.read (Elt Ideal) (G5 m c) := by
  have h15 : t.val % 16 = 15 := (flush0_5 t).mp hf
  have hN := lt64 t
  show (cfg0.win 5).cut (grid0.coords t) ((dats m 0 c).after 5 t) = _
  rw [after0_5]
  obtain ⟨-, -, -, -, -, -, -, -, -, -, e0, e1, -, -, -, -⟩ := idx_facts t
  funext j
  obtain ⟨u, q, rfl⟩ : ∃ (u : Fin 1) (q : Fin 512), j = ix2 u q := ⟨j 0, j 1, eq_ix2 j⟩
  obtain rfl : u = 0 := Subsingleton.elim _ _
  show (outsAt0 m c t.val t.isLt).2.1 (ix2 (0 : Fin 1) q) = G5 m c (((cfg0.win 5).blk t).view.emb (ix2 (0 : Fin 1) q))
  refine (col_total m c t h15 q).trans ?_
  unfold G5
  refine congrArg (Cert.Spec.colK (A0 m c) (A1 m c) (A2 m c)) (Fin.ext ?_)
  show 512 * (t.val / 16 % 4) + q.val = win0_5.index t (1 : Fin 2) * 512 + 1 * q.val
  rw [e1]; omega

theorem arr5 : (dats m 0 c).arrAt 5 cfg0.N = G5 m c :=
  (dats m 0 c).arrAt_eq_of_cover 5 (G5 m c) (flushed5_eq m c) cover5

/-! ## Output window 6 -/

/-- What the array ends holding, by index. -/
def G6 : S1x2048.Idx → Elt Ideal .f32 := fun i => Cert.Spec.y2K (A0 m c) (A1 m c) (A2 m c) ⟨(i 1).val, idx2_lt1 i⟩

theorem mem_blk6 (t : Fin cfg0.N) (i : S1x2048.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v41_2).slice (win0_6.rect t)).set ↔ _
  rw [View.set_slice_whole, Rect.mem_set_unit]
  exact Iff.rfl

/-- The last step of each column block covers that block's columns. -/
theorem cover6 (i : S1x2048.Idx) : ∃ t : Fin cfg0.N, (cfg0.win 6).flush t = true ∧ i ∈ ((cfg0.win 6).blk t).view.set := by
  have hi0 : (i 0).val < 1 := idx2_lt0 i
  have hi1 : (i 1).val < 2048 := idx2_lt1 i
  have hN : cfg0.N = 64 := N_0
  obtain ⟨t, tv⟩ : ∃ t : Fin cfg0.N, t.val = 16 * ((i 1).val / 512) + 15 := ⟨⟨16 * ((i 1).val / 512) + 15, by rw [hN]; omega⟩, rfl⟩
  obtain ⟨-, -, -, -, -, -, -, -, -, -, -, -, e0, e1, -, -⟩ := idx_facts t
  refine ⟨t, (flush0_6 t).mpr (by omega), ?_⟩
  rw [mem_blk6]
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 512 ≤ (i 1).val ∧ (i 1).val < win0_6.index t (1 : Fin 2) * 512 + 512; rw [e1, tv]; omega

/-- What a last step writes back is its block of the totals. -/
theorem flushed6_eq (t : Fin cfg0.N) (hf : (cfg0.win 6).flush t = true) :
    (dats m 0 c).flushed 6 t = ((cfg0.win 6).blk t).view.read (Elt Ideal) (G6 m c) := by
  have h15 : t.val % 16 = 15 := (flush0_6 t).mp hf
  have hN := lt64 t
  show (cfg0.win 6).cut (grid0.coords t) ((dats m 0 c).after 6 t) = _
  rw [after0_6]
  obtain ⟨-, -, -, -, -, -, -, -, -, -, -, -, e0, e1, -, -⟩ := idx_facts t
  funext j
  obtain ⟨u, q, rfl⟩ : ∃ (u : Fin 1) (q : Fin 512), j = ix2 u q := ⟨j 0, j 1, eq_ix2 j⟩
  obtain rfl : u = 0 := Subsingleton.elim _ _
  show (outsAt0 m c t.val t.isLt).2.2.1 (ix2 (0 : Fin 1) q) = G6 m c (((cfg0.win 6).blk t).view.emb (ix2 (0 : Fin 1) q))
  refine (y2_total m c t h15 q).trans ?_
  unfold G6
  refine congrArg (Cert.Spec.y2K (A0 m c) (A1 m c) (A2 m c)) (Fin.ext ?_)
  show 512 * (t.val / 16 % 4) + q.val = win0_6.index t (1 : Fin 2) * 512 + 1 * q.val
  rw [e1]; omega

theorem arr6 : (dats m 0 c).arrAt 6 cfg0.N = G6 m c :=
  (dats m 0 c).arrAt_eq_of_cover 6 (G6 m c) (flushed6_eq m c) cover6

/-! ## Output window 7 -/

/-- What the array ends holding, by index. -/
def G7 : S1x2048.Idx → Elt Ideal .f32 := fun i => Cert.Spec.pwK (A0 m c) (A1 m c) (A2 m c) (A3 m c) ⟨(i 1).val, idx2_lt1 i⟩

theorem mem_blk7 (t : Fin cfg0.N) (i : S1x2048.Idx) :
    i ∈ ((cfg0.win 7).blk t).view.set ↔ ∀ a : Fin 2, win0_7.index t a * S1x512.size a ≤ (i a).val ∧ (i a).val < win0_7.index t a * S1x512.size a + S1x512.size a := by
  show i ∈ ((View.whole main_v41_3).slice (win0_7.rect t)).set ↔ _
  rw [View.set_slice_whole, Rect.mem_set_unit]
  exact Iff.rfl

/-- The last step of each column block covers that block's columns. -/
theorem cover7 (i : S1x2048.Idx) : ∃ t : Fin cfg0.N, (cfg0.win 7).flush t = true ∧ i ∈ ((cfg0.win 7).blk t).view.set := by
  have hi0 : (i 0).val < 1 := idx2_lt0 i
  have hi1 : (i 1).val < 2048 := idx2_lt1 i
  have hN : cfg0.N = 64 := N_0
  obtain ⟨t, tv⟩ : ∃ t : Fin cfg0.N, t.val = 16 * ((i 1).val / 512) + 15 := ⟨⟨16 * ((i 1).val / 512) + 15, by rw [hN]; omega⟩, rfl⟩
  obtain ⟨-, -, -, -, -, -, -, -, -, -, -, -, -, -, e0, e1⟩ := idx_facts t
  refine ⟨t, (flush0_7 t).mpr (by omega), ?_⟩
  rw [mem_blk7]
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 512 ≤ (i 1).val ∧ (i 1).val < win0_7.index t (1 : Fin 2) * 512 + 512; rw [e1, tv]; omega

/-- What a last step writes back is its block of the totals. -/
theorem flushed7_eq (t : Fin cfg0.N) (hf : (cfg0.win 7).flush t = true) :
    (dats m 0 c).flushed 7 t = ((cfg0.win 7).blk t).view.read (Elt Ideal) (G7 m c) := by
  have h15 : t.val % 16 = 15 := (flush0_7 t).mp hf
  have hN := lt64 t
  show (cfg0.win 7).cut (grid0.coords t) ((dats m 0 c).after 7 t) = _
  rw [after0_7]
  obtain ⟨-, -, -, -, -, -, -, -, -, -, -, -, -, -, e0, e1⟩ := idx_facts t
  funext j
  obtain ⟨u, q, rfl⟩ : ∃ (u : Fin 1) (q : Fin 512), j = ix2 u q := ⟨j 0, j 1, eq_ix2 j⟩
  obtain rfl : u = 0 := Subsingleton.elim _ _
  show (outsAt0 m c t.val t.isLt).2.2.2.1 (ix2 (0 : Fin 1) q) = G7 m c (((cfg0.win 7).blk t).view.emb (ix2 (0 : Fin 1) q))
  refine (pw_total m c t h15 q).trans ?_
  unfold G7
  refine congrArg (Cert.Spec.pwK (A0 m c) (A1 m c) (A2 m c) (A3 m c)) (Fin.ext ?_)
  show 512 * (t.val / 16 % 4) + q.val = win0_7.index t (1 : Fin 2) * 512 + 1 * q.val
  rw [e1]; omega

theorem arr7 : (dats m 0 c).arrAt 7 cfg0.N = G7 m c :=
  (dats m 0 c).arrAt_eq_of_cover 7 (G7 m c) (flushed7_eq m c) cover7

/-! ## The four results, entry by entry -/

/-- The first result is z. -/
theorem final4 (e : Fin 4096) (n : Fin 2048) :
    (dats m 0 c).arrAt 4 cfg0.N (ix2 e n) = Cert.Spec.zK (A0 m c) (A1 m c) (A2 m c) e n :=
  congrFun (arr4 m c) (ix2 e n)

/-- The second is the column sums of z over all rows. -/
theorem final5 (n : Fin 2048) :
    (dats m 0 c).arrAt 5 cfg0.N (ix2 (0 : Fin 1) n) = Cert.Spec.colK (A0 m c) (A1 m c) (A2 m c) n :=
  congrFun (arr5 m c) (ix2 (0 : Fin 1) n)

/-- The third is the column sums of z² over all rows. -/
theorem final6 (n : Fin 2048) :
    (dats m 0 c).arrAt 6 cfg0.N (ix2 (0 : Fin 1) n) = Cert.Spec.y2K (A0 m c) (A1 m c) (A2 m c) n :=
  congrFun (arr6 m c) (ix2 (0 : Fin 1) n)

/-- The fourth is, at column n, Σ_k A3(k, n) · Σ_e A0(e, k) · z(e, n). -/
theorem final7 (n : Fin 2048) :
    (dats m 0 c).arrAt 7 cfg0.N (ix2 (0 : Fin 1) n) = Cert.Spec.pwK (A0 m c) (A1 m c) (A2 m c) (A3 m c) n :=
  congrFun (arr7 m c) (ix2 (0 : Fin 1) n)

end Cert.KBody

end
-- ==== Proof.KHostLayout.lean ====
/-
  Layout steps of the host side, read at one element. Generic in the sizes and in the element type.

  The host program moves matrices [M, N], rows [1, N] and vectors [N] between the shapes its pointwise products
  and its reductions want:
    a row [1, N] repeated down M rows                      (rowSpread_apply);
    a vector [N] laid as a row [1, N] by a broadcast       (vecRow_apply);
    a vector [N] laid as a column [N, 1]                   (vecCol_apply), the column repeated along D columns
                                                            (colSpread_apply);
    a band of rows cut out of a matrix                     (rowBand_apply);
    a row [1, N] flattened to a vector [N]                 (rowFlat_apply).
  Each lemma names the one element of the source that the result holds at a given element.
-/
import Idealize.ShloMosaic.PureOps.Ideal
import Idealize.ShloMosaic.Lib.ValueIdx
import Idealize.ShloMosaic.Lib.Pipeline.Value

noncomputable section

namespace Cert.KHost

open Idealize.ShloMosaic Idealize.ShloMosaic.ValueIdx

variable {α : Type}

/-! ## Host arrays as the specification's curried arrays -/

/-- A matrix read by its two coordinates. -/
abbrev curry2 {M N : Nat} (x : (⟨2, ![M, N]⟩ : Shape).Idx → EReal) : Fin M → Fin N → EReal := fun k n => x (ix2 k n)
/-- A one-row matrix read by its column coordinate. -/
abbrev rowOf {N : Nat} (x : (⟨2, ![1, N]⟩ : Shape).Idx → EReal) : Fin N → EReal := fun n => x (ix2 (0 : Fin 1) n)
/-- A vector read by its coordinate. -/
abbrev vecOf {N : Nat} (x : (⟨1, ![N]⟩ : Shape).Idx → EReal) : Fin N → EReal := fun n => x (ix1 n)

/-! ## Layout steps -/

/-- A row repeated down the rows of a matrix: element (k, n) is the row's element (0, n). -/
theorem rowSpread_apply {M N : Nat} (dims : Fin (⟨2, ![1, N]⟩ : Shape).rank → Fin (⟨2, ![M, N]⟩ : Shape).rank)
    (hd0 : dims 0 = 0) (hd1 : dims 1 = 1)
    (h : (⟨2, ![1, N]⟩ : Shape).BroadcastsInDim ⟨2, ![M, N]⟩ dims) (v : (⟨2, ![1, N]⟩ : Shape).Idx → α)
    (k : Fin M) (n : Fin N) :
    broadcastInDim ⟨2, ![M, N]⟩ dims h v (ix2 k n) = v (ix2 (0 : Fin 1) n) := by
  refine broadcastInDim_apply dims h v (ix2 k n) (ix2 (0 : Fin 1) n) (fun a => ?_)
  match a with
  | ⟨0, _⟩ =>
    show (0 : Nat) = if (1 : Nat) = 1 then 0 else ((ix2 k n) (dims 0)).val
    rw [if_pos rfl]
  | ⟨1, _⟩ =>
    show n.val = if N = 1 then 0 else ((ix2 k n) (dims 1)).val
    rw [hd1]
    split
    · have := n.isLt; show n.val = 0; omega
    · rfl

/-- A vector laid as a row: the row's element (0, n) is the vector's element n. -/
theorem vecRow_apply {N : Nat} (dims : Fin (⟨1, ![N]⟩ : Shape).rank → Fin (⟨2, ![1, N]⟩ : Shape).rank) (hd : dims 0 = 1)
    (h : (⟨1, ![N]⟩ : Shape).BroadcastsInDim ⟨2, ![1, N]⟩ dims) (v : (⟨1, ![N]⟩ : Shape).Idx → α) (z : Fin 1) (n : Fin N) :
    broadcastInDim ⟨2, ![1, N]⟩ dims h v (ix2 z n) = v (ix1 n) := by
  refine broadcastInDim_apply dims h v (ix2 z n) (ix1 n) (fun a => ?_)
  match a with
  | ⟨0, _⟩ =>
    show n.val = if N = 1 then 0 else ((ix2 z n) (dims 0)).val
    rw [hd]
    split
    · have := n.isLt; show n.val = 0; omega
    · rfl

/-- A vector laid as a column: the column's element (k, 0) is the vector's element k. -/
theorem vecCol_apply {M : Nat} (dims : Fin (⟨1, ![M]⟩ : Shape).rank → Fin (⟨2, ![M, 1]⟩ : Shape).rank) (hd : dims 0 = 0)
    (h : (⟨1, ![M]⟩ : Shape).BroadcastsInDim ⟨2, ![M, 1]⟩ dims) (v : (⟨1, ![M]⟩ : Shape).Idx → α) (k : Fin M) (z : Fin 1) :
    broadcastInDim ⟨2, ![M, 1]⟩ dims h v (ix2 k z) = v (ix1 k) := by
  refine broadcastInDim_apply dims h v (ix2 k z) (ix1 k) (fun a => ?_)
  match a with
  | ⟨0, _⟩ =>
    show k.val = if M = 1 then 0 else ((ix2 k z) (dims 0)).val
    rw [hd]
    split
    · have := k.isLt; show k.val = 0; omega
    · rfl

/-- A column repeated along the columns of a matrix: element (k, n) is the column's element (k, 0). -/
theorem colSpread_apply {M D : Nat} (dims : Fin (⟨2, ![M, 1]⟩ : Shape).rank → Fin (⟨2, ![M, D]⟩ : Shape).rank)
    (hd0 : dims 0 = 0) (hd1 : dims 1 = 1)
    (h : (⟨2, ![M, 1]⟩ : Shape).BroadcastsInDim ⟨2, ![M, D]⟩ dims) (v : (⟨2, ![M, 1]⟩ : Shape).Idx → α) (k : Fin M) (n : Fin D) :
    broadcastInDim ⟨2, ![M, D]⟩ dims h v (ix2 k n) = v (ix2 k (0 : Fin 1)) := by
  refine broadcastInDim_apply dims h v (ix2 k n) (ix2 k (0 : Fin 1)) (fun a => ?_)
  match a with
  | ⟨0, _⟩ =>
    show k.val = if M = 1 then 0 else ((ix2 k n) (dims 0)).val
    rw [hd0]
    split
    · have := k.isLt; show k.val = 0; omega
    · rfl
  | ⟨1, _⟩ =>
    show (0 : Nat) = if (1 : Nat) = 1 then 0 else ((ix2 k n) (dims 1)).val
    rw [if_pos rfl]

/-- A band of M' rows starting at row r, cut out of a matrix of M rows: element (k, n) of the band is the
    matrix's element (r + k, n). -/
theorem rowBand_apply {M M' N : Nat} (r : Nat) (off : Fin (⟨2, ![M, N]⟩ : Shape).rank → Nat) (ho0 : off 0 = r) (ho1 : off 1 = 0)
    (hs : (⟨2, ![M, N]⟩ : Shape).Slices off ⟨2, ![M', N]⟩) (A : (⟨2, ![M, N]⟩ : Shape).Idx → α)
    (k : Fin M') (n : Fin N) (k' : Fin M) (hk : k'.val = r + k.val) :
    extractStridedSlice ⟨2, ![M', N]⟩ off A hs (ix2 k n) = A (ix2 k' n) := by
  refine extractStridedSlice_apply off A hs (ix2 k n) (ix2 k' n) (fun a => ?_)
  match a with
  | ⟨0, _⟩ => show k'.val = off 0 + k.val; rw [ho0, hk]
  | ⟨1, _⟩ => show n.val = off 1 + n.val; rw [ho1]; omega

/-- A row flattened to a vector: element n is the row's element (0, n). -/
theorem rowFlat_apply {N : Nat} (hc : (⟨2, ![1, N]⟩ : Shape).ShapeCasts ⟨1, ![N]⟩) (v : (⟨2, ![1, N]⟩ : Shape).Idx → α)
    (n : Fin N) : shapeCast ⟨1, ![N]⟩ v hc (ix1 n) = v (ix2 (0 : Fin 1) n) := by
  refine shapeCast_apply v hc (ix1 n) (ix2 (0 : Fin 1) n) ?_
  rw [Shape.rowMajor_val_two, Shape.rowMajor_val_one]
  show 0 * N + n.val = n.val
  omega

end Cert.KHost

end
-- ==== Proof.KHostPre.lean ====
/-
  The host side before the fused region, entry by entry.

  From the conductance matrix θ [2050, 2048] the host program forms, entry by entry: the clamped entry
  (clamp to [-0.1, 0.1]), the thresholded entry (zero when its magnitude is below 0.01), the column sums of
  the magnitudes, the guarded divisor (the sum where it is positive, one elsewhere), the signed normalised
  weight, the sign (one where the thresholded entry is non-negative, minus one elsewhere), and the cost weight
  |θ| · (1e-4 / column minimum of |θ|). The region then reads the first 2048 rows of the normalised weight, its
  row 2048 as a bias row, and the first 2048 rows of cost weight times sign; the tail after the region reads
  rows of the cost weight and of the sign again.

  Each array is defined here as the composition of the whole-array operations, and read at an entry (k, n) as
  the specification's scalar formula of θ. No entry is assumed finite.
-/
import proofs.«149382_j39599598469767_2_alg».proof.Proof.Gen.KernelIdeal
import proofs.«149382_j39599598469767_2_alg».proof.Proof.Spec
import proofs.«149382_j39599598469767_2_alg».proof.Proof.KHostLayout
import Idealize.ShloMosaic.PureOps.Ideal.Laws

noncomputable section

namespace Cert.KHost

open Cert.KernelIdeal Idealize.ShloMosaic Idealize.ShloMosaic.ValueIdx

/-! ## Scalars spread over a shape -/

/-- A float word spread over the [2050, 2048] shape. -/
def sp2 (b : BitVec 32) : FVec Ideal S2050x2048 .f32 :=
  broadcastInDim S2050x2048 ![] Gen.bcast_S_S2050x2048 (constant (F := Ideal) S_ .f32 b)
/-- A float word spread over the [1, 2048] shape. -/
def sp1 (b : BitVec 32) : FVec Ideal S1x2048 .f32 :=
  broadcastInDim S1x2048 ![] Gen.bcast_S_S1x2048 (constant (F := Ideal) S_ .f32 b)
theorem sp2_apply (b : BitVec 32) (i : S2050x2048.Idx) : sp2 b i = Ideal.ofBits .f32 b := rfl
theorem sp1_apply (b : BitVec 32) (i : S1x2048.Idx) : sp1 b i = Ideal.ofBits .f32 b := rfl

/-! ## The clamped and the thresholded entry -/

/-- θ clamped to [-0.1, 0.1]. -/
def clipV (x1 : FVec Ideal S2050x2048 .f32) : FVec Ideal S2050x2048 .f32 :=
  minimumf (sp2 0x3DCCCCCD#32) (maximumf (sp2 0xBDCCCCCD#32) x1)
theorem clipV_apply (x1 : FVec Ideal S2050x2048 .f32) (i : S2050x2048.Idx) : clipV x1 i = Spec.clipS (x1 i) := rfl

/-- The clamped entry, zeroed where its magnitude is below 0.01. -/
def thV (x1 : FVec Ideal S2050x2048 .f32) : FVec Ideal S2050x2048 .f32 :=
  select (cmpf .olt (Host.absf (clipV x1)) (sp2 0x3C23D70A#32)) (sp2 0x00000000#32) (clipV x1)
theorem thV_apply (x1 : FVec Ideal S2050x2048 .f32) (i : S2050x2048.Idx) : thV x1 i = Spec.thS (x1 i) := rfl

/-! ## Column sums of the magnitudes, the guarded divisor -/

/-- The inserted coordinate of a column reduction of a [2050, 2048] matrix: row k of column n. -/
theorem lift2050 (h : S2050x2048.Reduces [0] S2048) (n : Fin 2048) (k : Fin (S2050x2048.size 0)) :
    h.lift (ix1 n) k = ix2 (n0 := 2050) k n :=
  funext fun a => Fin.ext (by match a with | ⟨0, _⟩ => rfl | ⟨1, _⟩ => rfl)

/-- Column sums of |thresholded θ|. -/
def csV (x1 : FVec Ideal S2050x2048 .f32) : FVec Ideal S2048 .f32 :=
  Host.reduceAdd (Host.absf (thV x1)) (constant (F := Ideal) S_ .f32 0x00000000#32) Gen.reducesTo_S2050x2048_S2048_d0 Gen.h_S_
theorem csV_apply (x1 : FVec Ideal S2050x2048 .f32) (n : Fin 2048) : csV x1 (ix1 n) = Spec.csK (curry2 x1) n := by
  unfold csV
  simp only [Host.reduceAdd, Ideal.hostReduceAdd_def]
  rw [Ideal.hostReduceAdd_single Gen.reducesTo_S2050x2048_S2048_d0 (by decide)]
  show Ideal.ofBits .f32 0x00000000#32 + _ = _
  rw [Ideal.ofBits_zero_f32, zero_add]
  unfold Spec.csK
  refine Finset.sum_congr rfl fun k _ => ?_
  rw [lift2050]
  rfl

/-- The column sums as a row. -/
def csRow (x1 : FVec Ideal S2050x2048 .f32) : FVec Ideal S1x2048 .f32 :=
  broadcastInDim S1x2048 ![1] Gen.bcast_S2048_S1x2048_1 (csV x1)
theorem csRow_apply (x1 : FVec Ideal S2050x2048 .f32) (z : Fin 1) (n : Fin 2048) :
    csRow x1 (ix2 z n) = Spec.csK (curry2 x1) n := by
  unfold csRow
  rw [vecRow_apply _ rfl]
  exact csV_apply x1 n

/-- Where a column's sum is positive (the comparison the program makes twice). -/
def posRow (x1 : FVec Ideal S2050x2048 .f32) : IVec S1x2048 1 := cmpf .ogt (csRow x1) (sp1 0x00000000#32)
theorem posRow_apply (x1 : FVec Ideal S2050x2048 .f32) (z : Fin 1) (n : Fin 2048) :
    posRow x1 (ix2 z n) = Spec.gt (Spec.csK (curry2 x1) n) Spec.z0 := by
  show FloatOps.cmpf .ogt (csRow x1 (ix2 z n)) _ = _
  rw [csRow_apply]
  rfl

/-- The guarded divisor: the column sum where positive, one elsewhere. -/
def safeRow (x1 : FVec Ideal S2050x2048 .f32) : FVec Ideal S1x2048 .f32 :=
  select (posRow x1) (csRow x1) (sp1 0x3F800000#32)
theorem safeRow_apply (x1 : FVec Ideal S2050x2048 .f32) (z : Fin 1) (n : Fin 2048) :
    safeRow x1 (ix2 z n) = Spec.safeK (curry2 x1) n := by
  show Scalar.select (posRow x1 (ix2 z n)) (csRow x1 (ix2 z n)) _ = _
  rw [posRow_apply, csRow_apply]
  rfl

/-! ## The signed normalised weight and the sign -/

/-- The thresholded entry over the guarded divisor where the column sum is positive, zero elsewhere. -/
def wV (x1 : FVec Ideal S2050x2048 .f32) : FVec Ideal S2050x2048 .f32 :=
  select (broadcastInDim S2050x2048 ![0, 1] Gen.bcast_S1x2048_S2050x2048_0_1 (posRow x1))
    (Host.divf (thV x1) (broadcastInDim S2050x2048 ![0, 1] Gen.bcast_S1x2048_S2050x2048_0_1 (safeRow x1)))
    (sp2 0x00000000#32)
theorem wV_apply (x1 : FVec Ideal S2050x2048 .f32) (k : Fin 2050) (n : Fin 2048) :
    wV x1 (ix2 k n) = Spec.wS (curry2 x1) k n := by
  show Scalar.select (broadcastInDim S2050x2048 ![0, 1] Gen.bcast_S1x2048_S2050x2048_0_1 (posRow x1) (ix2 k n))
      (FloatOps.hostDivf (thV x1 (ix2 k n))
        (broadcastInDim S2050x2048 ![0, 1] Gen.bcast_S1x2048_S2050x2048_0_1 (safeRow x1) (ix2 k n))) _ = _
  rw [rowSpread_apply _ rfl rfl, rowSpread_apply _ rfl rfl, posRow_apply, safeRow_apply]
  rfl

/-- One where the thresholded entry is non-negative, minus one elsewhere. -/
def sgV (x1 : FVec Ideal S2050x2048 .f32) : FVec Ideal S2050x2048 .f32 :=
  select (cmpf .oge (thV x1) (sp2 0x00000000#32)) (sp2 0x3F800000#32) (sp2 0xBF800000#32)
theorem sgV_apply (x1 : FVec Ideal S2050x2048 .f32) (k : Fin 2050) (n : Fin 2048) :
    sgV x1 (ix2 k n) = Spec.sg (curry2 x1) k n := rfl

/-! ## The cost weight -/

/-- The float word of +∞ is the top extended real. -/
theorem ofBits_inf : Ideal.ofBits .f32 0x7F800000#32 = (⊤ : EReal) := by simp [Ideal.ofBits, Ideal.ieee]

/-- Column minima of |θ|, taken from +∞. -/
def gminV (x1 : FVec Ideal S2050x2048 .f32) : FVec Ideal S2048 .f32 :=
  Host.reduce FloatOps.minimumf (Host.absf x1) (constant (F := Ideal) S_ .f32 0x7F800000#32) Gen.reducesTo_S2050x2048_S2048_d0 Gen.h_S_
/-- A fold of min from the top element is the infimum. -/
theorem fold_min_top {ι : Type} (s : Finset ι) (f : ι → EReal) : s.fold min ⊤ f = s.inf f := rfl

theorem gminV_apply (x1 : FVec Ideal S2050x2048 .f32) (n : Fin 2048) : gminV x1 (ix1 n) = Spec.gmin (curry2 x1) n := by
  unfold gminV
  refine (Host.reduce_eq_fold_single FloatOps.minimumf (Host.absf x1) _ Gen.reducesTo_S2050x2048_S2048_d0
    (by decide) Gen.h_S_ (ix1 n)).trans ?_
  have e : ∀ (h : S2050x2048.Reduces [0] S2048), (Host.absf x1 ∘ h.lift (ix1 n)) = fun k : Fin 2050 => Spec.ab (curry2 x1 k n) :=
    fun h => funext fun k => by
      show Host.absf x1 (h.lift (ix1 n) k) = _
      rw [lift2050]; rfl
  rw [e]
  show Finset.fold min (Ideal.ofBits .f32 0x7F800000#32) _ _ = _
  rw [ofBits_inf]
  exact fold_min_top _ _

/-- A float word over a vector laid as a row, entry by entry. -/
theorem wordOverRow_apply (w : BitVec 32) (v : FVec Ideal S2048 .f32) (z : Fin 1) (n : Fin 2048) :
    Host.divf (sp1 w) (broadcastInDim S1x2048 ![1] Gen.bcast_S2048_S1x2048_1 v) (ix2 z n)
      = Ideal.div (Ideal.ofBits .f32 w) (v (ix1 n)) := by
  show FloatOps.hostDivf (sp1 w (ix2 z n)) (broadcastInDim S1x2048 ![1] Gen.bcast_S2048_S1x2048_1 v (ix2 z n)) = _
  rw [vecRow_apply _ rfl]
  rfl

/-- 1e-4 over the column minimum, as a row. -/
def gscaleRow (x1 : FVec Ideal S2050x2048 .f32) : FVec Ideal S1x2048 .f32 :=
  Host.divf (sp1 0x38D1B717#32) (broadcastInDim S1x2048 ![1] Gen.bcast_S2048_S1x2048_1 (gminV x1))
theorem gscaleRow_apply (x1 : FVec Ideal S2050x2048 .f32) (z : Fin 1) (n : Fin 2048) :
    gscaleRow x1 (ix2 z n) = Ideal.div Spec.cP (Spec.gmin (curry2 x1) n) := by
  unfold gscaleRow Spec.cP
  rw [wordOverRow_apply, gminV_apply]

/-- The magnitudes of a matrix times a row repeated down its rows, entry by entry. -/
theorem absTimesRow_apply (x : FVec Ideal S2050x2048 .f32) (r : FVec Ideal S1x2048 .f32) (k : Fin 2050) (n : Fin 2048) :
    mulf (Host.absf x) (broadcastInDim S2050x2048 ![0, 1] Gen.bcast_S1x2048_S2050x2048_0_1 r) (ix2 k n)
      = Spec.ab (curry2 x k n) * r (ix2 (0 : Fin 1) n) := by
  show Host.absf x (ix2 k n) * broadcastInDim S2050x2048 ![0, 1] Gen.bcast_S1x2048_S2050x2048_0_1 r (ix2 k n) = _
  rw [rowSpread_apply _ rfl rfl]
  rfl

/-- |θ| times that row. -/
def gV (x1 : FVec Ideal S2050x2048 .f32) : FVec Ideal S2050x2048 .f32 :=
  mulf (Host.absf x1) (broadcastInDim S2050x2048 ![0, 1] Gen.bcast_S1x2048_S2050x2048_0_1 (gscaleRow x1))
theorem gV_apply (x1 : FVec Ideal S2050x2048 .f32) (k : Fin 2050) (n : Fin 2048) :
    gV x1 (ix2 k n) = Spec.gT (curry2 x1) k n := by
  unfold gV Spec.gT
  rw [absTimesRow_apply, gscaleRow_apply]

/-! ## Rows cut out of a [2050, 2048] matrix -/

/-- The first 2048 rows. -/
def top (v : FVec Ideal S2050x2048 .f32) : FVec Ideal S2048x2048 .f32 :=
  extractStridedSlice S2048x2048 ![0, 0] v Gen.slices_S2050x2048_S2048x2048_0_0
theorem top_apply (v : FVec Ideal S2050x2048 .f32) (k : Fin 2048) (n : Fin 2048) : top v (ix2 k n) = v (ix2 (Spec.up k) n) := by
  unfold top
  exact rowBand_apply 0 _ rfl rfl _ v k n (Spec.up k) (by show k.val = 0 + k.val; omega)

/-- Row 2048 as a vector. -/
def row2048 (v : FVec Ideal S2050x2048 .f32) : FVec Ideal S2048 .f32 :=
  shapeCast S2048 (extractStridedSlice S1x2048 ![2048, 0] v Gen.slices_S2050x2048_S1x2048_2048_0) Gen.shapeCasts_S1x2048_S2048
theorem row2048_apply (v : FVec Ideal S2050x2048 .f32) (n : Fin 2048) : row2048 v (ix1 n) = v (ix2 Spec.r2048 n) := by
  unfold row2048
  rw [rowFlat_apply]
  exact rowBand_apply 2048 _ rfl rfl _ v (0 : Fin 1) n Spec.r2048 rfl

/-- Row 2049 as a vector. -/
def row2049 (v : FVec Ideal S2050x2048 .f32) : FVec Ideal S2048 .f32 :=
  shapeCast S2048 (extractStridedSlice S1x2048 ![2049, 0] v Gen.slices_S2050x2048_S1x2048_2049_0) Gen.shapeCasts_S1x2048_S2048
theorem row2049_apply (v : FVec Ideal S2050x2048 .f32) (n : Fin 2048) : row2049 v (ix1 n) = v (ix2 Spec.r2049 n) := by
  unfold row2049
  rw [rowFlat_apply]
  exact rowBand_apply 2049 _ rfl rfl _ v (0 : Fin 1) n Spec.r2049 rfl

/-! ## The three arrays the region reads -/

/-- The weights window: the first 2048 rows of the signed normalised weight (the change of float format is the
    identity on extended reals). -/
def wTrunc (x1 : FVec Ideal S2050x2048 .f32) : FVec Ideal S2048x2048 .bf16 :=
  truncf .bf16 (top (wV x1)) Gen.bitsLt_bf16_f32
theorem wTrunc_apply (x1 : FVec Ideal S2050x2048 .f32) (k : Fin 2048) (n : Fin 2048) :
    wTrunc x1 (ix2 k n) = Spec.wS (curry2 x1) (Spec.up k) n := by
  show top (wV x1) (ix2 k n) = _
  rw [top_apply, wV_apply]

/-- The bias window: row 2048 of the signed normalised weight, as a row. -/
def biasRow (x1 : FVec Ideal S2050x2048 .f32) : FVec Ideal S1x2048 .f32 :=
  broadcastInDim S1x2048 ![1] Gen.bcast_S2048_S1x2048_1 (row2048 (wV x1))
theorem biasRow_apply (x1 : FVec Ideal S2050x2048 .f32) (z : Fin 1) (n : Fin 2048) :
    biasRow x1 (ix2 z n) = Spec.wS (curry2 x1) Spec.r2048 n := by
  unfold biasRow
  rw [vecRow_apply _ rfl, row2048_apply, wV_apply]

/-- The signed cost weights window: the first 2048 rows of cost weight times sign. -/
def gsTop (x1 : FVec Ideal S2050x2048 .f32) : FVec Ideal S2048x2048 .f32 :=
  mulf (top (gV x1)) (id (top (sgV x1)))
theorem gsTop_apply (x1 : FVec Ideal S2050x2048 .f32) (k : Fin 2048) (n : Fin 2048) :
    gsTop x1 (ix2 k n) = Spec.gT (curry2 x1) (Spec.up k) n * Spec.sg (curry2 x1) (Spec.up k) n := by
  show top (gV x1) (ix2 k n) * top (sgV x1) (ix2 k n) = _
  rw [top_apply, top_apply, gV_apply, sgV_apply]

end Cert.KHost

end
-- ==== Proof.KHostPreV.lean ====
/-
  What the region and the tail find in the buffers the host wrote before the region.

  The host operations before the region form one straight line; the contents of a buffer after that line is the
  composition of the operations that lead to it, applied to θ as launched. Each buffer the region's windows read
  (weights, bias row, signed cost weights) and each buffer the tail reads again (rows of the cost weight and of
  the sign) is identified here with the corresponding whole-array definition, and then read entry by entry as the
  specification's scalar formula of θ.
-/
import proofs.«149382_j39599598469767_2_alg».proof.Proof.GenP.KernelIdeal.Frame.Runs
import proofs.«149382_j39599598469767_2_alg».proof.Proof.KHostPre

set_option maxRecDepth 16384

noncomputable section

namespace Cert.KHost

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-- θ as launched on a core. -/
abbrev θof : FVec Ideal S2050x2048 .f32 := m ((c : Thread nD τ).loc main_arg1)

/-! ## The buffers as whole-array compositions -/

set_option maxHeartbeats 1000000 in
/-- The weights window's array: the first 2048 rows of the signed normalised weight. -/
theorem V_main_v27 : (GenP.V m c main_v27 : S2048x2048.Idx → EReal) = wTrunc (θof m c) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxHeartbeats 1000000 in
/-- The bias window's array: row 2048 of the signed normalised weight, as a row. -/
theorem V_main_v30 : (GenP.V m c main_v30 : S1x2048.Idx → EReal) = biasRow (θof m c) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxHeartbeats 1000000 in
/-- The signed cost weights window's array. -/
theorem V_main_v40 : (GenP.V m c main_v40 : S2048x2048.Idx → EReal) = gsTop (θof m c) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxHeartbeats 1000000 in
/-- The first 2048 rows of the cost weight. -/
theorem V_main_v34 : (GenP.V m c main_v34 : S2048x2048.Idx → EReal) = top (gV (θof m c)) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxHeartbeats 1000000 in
/-- Row 2048 of the cost weight. -/
theorem V_main_v36 : (GenP.V m c main_v36 : S2048.Idx → EReal) = row2048 (gV (θof m c)) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxHeartbeats 1000000 in
/-- Row 2049 of the cost weight. -/
theorem V_main_v38 : (GenP.V m c main_v38 : S2048.Idx → EReal) = row2049 (gV (θof m c)) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

set_option maxHeartbeats 1000000 in
/-- Row 2048 of the sign. -/
theorem V_main_v33 : (GenP.V m c main_v33 : S2048.Idx → EReal) = row2048 (sgV (θof m c)) := by
  dsimp only [GenP.V, GenP.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  after_results_simp
  rfl

/-! ## The region's three arrays entry by entry -/

/-- The weights window at (k, n): the signed normalised weight of input row k. -/
theorem V_main_v27_apply (k : Fin 2048) (n : Fin 2048) :
    (GenP.V m c main_v27 : S2048x2048.Idx → EReal) (ix2 k n) = Spec.wS (curry2 (θof m c)) (Spec.up k) n := by
  rw [V_main_v27, wTrunc_apply]

/-- The bias window at (0, n): the signed normalised weight of the constant-one row. -/
theorem V_main_v30_apply (z : Fin 1) (n : Fin 2048) :
    (GenP.V m c main_v30 : S1x2048.Idx → EReal) (ix2 z n) = Spec.wS (curry2 (θof m c)) Spec.r2048 n := by
  rw [V_main_v30, biasRow_apply]

/-- The signed cost weights window at (k, n): cost weight times sign of input row k. -/
theorem V_main_v40_apply (k : Fin 2048) (n : Fin 2048) :
    (GenP.V m c main_v40 : S2048x2048.Idx → EReal) (ix2 k n)
      = Spec.gT (curry2 (θof m c)) (Spec.up k) n * Spec.sg (curry2 (θof m c)) (Spec.up k) n := by
  rw [V_main_v40, gsTop_apply]

end Cert.KHost

end
-- ==== Proof.KHostTail.lean ====
/-
  The host side after the fused region: the scalar cost from the region's three row results.

  The region returns three rows over the 2048 outputs: the column sums of z, of z², and the weighted cross
  term. The tail flattens them, forms sa2 (the column sums of a²), and assembles
      input rows     Σ_{k,n} g·sa2  −  2 Σ_n cross  +  Σ_{k,n} g·y2,
      constant-one   4096 Σ_n g  −  2 Σ_n g·sign·colsum  +  Σ_n g·y2,
      constant-zero  Σ_n g·y2,
  adds the three and divides by 4096. Here every whole-array step is read at an element, a full reduction as the
  double sum over rows and columns, and the scalar result is identified with the specification's formula from
  the cost weights' rows, the sign's row and the three region rows, all arbitrary extended-real arrays.
-/
import proofs.«149382_j39599598469767_2_alg».proof.Proof.Gen.KernelIdeal
import proofs.«149382_j39599598469767_2_alg».proof.Proof.Spec
import proofs.«149382_j39599598469767_2_alg».proof.Proof.KHostLayout
import Idealize.ShloMosaic.PureOps.Ideal.Laws

noncomputable section

namespace Cert.KHost

open Cert.KernelIdeal Idealize.ShloMosaic Idealize.ShloMosaic.ValueIdx

/-! ## Flattening, sums, spreading -/

/-- A float word as a scalar array. -/
def word0 (b : BitVec 32) : FVec Ideal S_ .f32 := constant (F := Ideal) S_ .f32 b
theorem word0_apply (b : BitVec 32) (i : S_.Idx) : word0 b i = Ideal.ofBits .f32 b := rfl

/-- A region row flattened to a vector. -/
def flat (Z : FVec Ideal S1x2048 .f32) : FVec Ideal S2048 .f32 := shapeCast S2048 Z Gen.shapeCasts_S1x2048_S2048
theorem flat_apply (Z : FVec Ideal S1x2048 .f32) (n : Fin 2048) : flat Z (ix1 n) = rowOf Z n :=
  rowFlat_apply Gen.shapeCasts_S1x2048_S2048 Z n

/-- The sum of a vector's entries (taken from the float zero). -/
def sum1 (v : FVec Ideal S2048 .f32) : FVec Ideal S_ .f32 :=
  Host.reduceAdd v (word0 0x00000000#32) Gen.reducesTo_S2048_S_d0 Gen.h_S_
/-- A sum over the index set of a vector shape is the sum over its one coordinate. -/
theorem sum_idx1 {n : Nat} (f : (⟨1, ![n]⟩ : Shape).Idx → EReal) : ∑ i, f i = ∑ k : Fin n, f (ix1 k) :=
  Fintype.sum_equiv ⟨fun i => i 0, fun k => ix1 k, fun i => (eq_ix1 i).symm, fun _ => rfl⟩ f (fun k => f (ix1 k))
    (fun i => congrArg f (eq_ix1 i))

theorem sum1_apply (v : FVec Ideal S2048 .f32) (i : S_.Idx) : sum1 v i = ∑ n : Fin 2048, v (ix1 n) := by
  unfold sum1
  simp only [Host.reduceAdd, Ideal.hostReduceAdd_def]
  rw [Ideal.hostReduceAdd_total Gen.reducesTo_S2048_S_d0 (fun b => b.elim0)]
  show Ideal.ofBits .f32 0x00000000#32 + _ = _
  rw [Ideal.ofBits_zero_f32, zero_add]
  exact sum_idx1 v

/-- The sum of all entries of a [2048, 2048] matrix, as the double sum over rows and columns. -/
def sum2 (v : FVec Ideal S2048x2048 .f32) : FVec Ideal S_ .f32 :=
  Host.reduceAdd v (word0 0x00000000#32) Gen.reducesTo_S2048x2048_S_d0_1 Gen.h_S_
theorem sum2_apply (v : FVec Ideal S2048x2048 .f32) (i : S_.Idx) :
    sum2 v i = ∑ k : Fin 2048, ∑ n : Fin 2048, v (ix2 k n) := by
  unfold sum2
  simp only [Host.reduceAdd, Ideal.hostReduceAdd_def]
  rw [Ideal.hostReduceAdd_total Gen.reducesTo_S2048x2048_S_d0_1 (fun b => b.elim0)]
  show Ideal.ofBits .f32 0x00000000#32 + _ = _
  rw [Ideal.ofBits_zero_f32, zero_add]
  exact sum_idx2 v

/-- The inserted coordinate of a column reduction of the [4096, 2048] activations: sample e of column k. -/
theorem lift4096 (h : S4096x2048.Reduces [0] S2048) (k : Fin 2048) (e : Fin (S4096x2048.size 0)) :
    h.lift (ix1 k) e = ix2 (n0 := 4096) e k :=
  funext fun a => Fin.ext (by match a with | ⟨0, _⟩ => rfl | ⟨1, _⟩ => rfl)

/-- Column sums of a². -/
def sa2V (a : FVec Ideal S4096x2048 .f32) : FVec Ideal S2048 .f32 :=
  Host.reduceAdd (mulf a a) (word0 0x00000000#32) Gen.reducesTo_S4096x2048_S2048_d0 Gen.h_S_
theorem sa2V_apply (a : FVec Ideal S4096x2048 .f32) (k : Fin 2048) : sa2V a (ix1 k) = Spec.sa2 (curry2 a) k := by
  unfold sa2V Spec.sa2
  simp only [Host.reduceAdd, Ideal.hostReduceAdd_def]
  rw [Ideal.hostReduceAdd_single Gen.reducesTo_S4096x2048_S2048_d0 (by decide)]
  show Ideal.ofBits .f32 0x00000000#32 + _ = _
  rw [Ideal.ofBits_zero_f32, zero_add]
  refine Finset.sum_congr rfl fun e _ => ?_
  rw [lift4096]
  rfl

/-- A vector repeated along the columns: entry (k, n) is the vector's entry k. -/
def colOver (v : FVec Ideal S2048 .f32) : FVec Ideal S2048x2048 .f32 :=
  broadcastInDim S2048x2048 ![0, 1] Gen.bcast_S2048x1_S2048x2048_0_1 (broadcastInDim S2048x1 ![0] Gen.bcast_S2048_S2048x1_0 v)
theorem colOver_apply (v : FVec Ideal S2048 .f32) (k n : Fin 2048) : colOver v (ix2 k n) = v (ix1 k) := by
  unfold colOver
  rw [colSpread_apply _ rfl rfl, vecCol_apply _ rfl]

/-- A vector repeated down the rows: entry (k, n) is the vector's entry n. -/
def rowOver (v : FVec Ideal S2048 .f32) : FVec Ideal S2048x2048 .f32 :=
  broadcastInDim S2048x2048 ![0, 1] Gen.bcast_S1x2048_S2048x2048_0_1 (broadcastInDim S1x2048 ![1] Gen.bcast_S2048_S1x2048_1 v)
theorem rowOver_apply (v : FVec Ideal S2048 .f32) (k n : Fin 2048) : rowOver v (ix2 k n) = v (ix1 n) := by
  unfold rowOver
  rw [rowSpread_apply _ rfl rfl, vecRow_apply _ rfl]

/-! ## The three parts and the result -/

section parts
variable (θ : Fin 2050 → Fin 2048 → Spec.X)
variable (a : FVec Ideal S4096x2048 .f32) (G : FVec Ideal S2048x2048 .f32) (g1 s1 g0 : FVec Ideal S2048 .f32)
variable (Z5 Z6 Z7 : FVec Ideal S1x2048 .f32)

/-- The input rows' part. -/
def pMainV : FVec Ideal S_ .f32 :=
  addf (subf (sum2 (mulf G (colOver (sa2V a)))) (mulf (word0 0x40000000#32) (sum1 (flat Z7)))) (sum2 (mulf G (rowOver (flat Z6))))

theorem pMainV_apply (hG : ∀ k n : Fin 2048, G (ix2 k n) = Spec.gT θ (Spec.up k) n) (i : S_.Idx) :
    pMainV a G Z6 Z7 i = Spec.pMain θ (curry2 a) (rowOf Z6) (rowOf Z7) := by
  have e1 : (∑ k : Fin 2048, ∑ n : Fin 2048, mulf G (colOver (sa2V a)) (ix2 k n))
      = ∑ k : Fin 2048, ∑ n : Fin 2048, Spec.gT θ (Spec.up k) n * Spec.sa2 (curry2 a) k :=
    Finset.sum_congr rfl fun k _ => Finset.sum_congr rfl fun n _ => by
      show G (ix2 k n) * colOver (sa2V a) (ix2 k n) = _
      rw [hG, colOver_apply, sa2V_apply]
  have e2 : (∑ k : Fin 2048, ∑ n : Fin 2048, mulf G (rowOver (flat Z6)) (ix2 k n))
      = ∑ k : Fin 2048, ∑ n : Fin 2048, Spec.gT θ (Spec.up k) n * rowOf Z6 n :=
    Finset.sum_congr rfl fun k _ => Finset.sum_congr rfl fun n _ => by
      show G (ix2 k n) * rowOver (flat Z6) (ix2 k n) = _
      rw [hG, rowOver_apply, flat_apply]
  have e3 : (∑ n : Fin 2048, flat Z7 (ix1 n)) = ∑ n : Fin 2048, rowOf Z7 n :=
    Finset.sum_congr rfl fun n _ => flat_apply Z7 n
  show (sum2 (mulf G (colOver (sa2V a))) i - word0 0x40000000#32 i * sum1 (flat Z7) i)
      + sum2 (mulf G (rowOver (flat Z6))) i = _
  rw [sum2_apply, sum2_apply, sum1_apply, word0_apply, e1, e2, e3]
  rfl

/-- The constant-one row's part. -/
def pOnesV : FVec Ideal S_ .f32 :=
  addf (subf (mulf (word0 0x45800000#32) (sum1 g1))
      (mulf (word0 0x40000000#32) (sum1 (mulf (mulf g1 (id s1)) (flat Z5))))) (sum1 (mulf g1 (flat Z6)))

theorem pOnesV_apply (hg : ∀ n : Fin 2048, g1 (ix1 n) = Spec.gT θ Spec.r2048 n)
    (hs : ∀ n : Fin 2048, s1 (ix1 n) = Spec.sg θ Spec.r2048 n) (i : S_.Idx) :
    pOnesV g1 s1 Z5 Z6 i = Spec.pOnes θ (rowOf Z5) (rowOf Z6) := by
  have e1 : (∑ n : Fin 2048, g1 (ix1 n)) = ∑ n : Fin 2048, Spec.gT θ Spec.r2048 n :=
    Finset.sum_congr rfl fun n _ => hg n
  have e2 : (∑ n : Fin 2048, mulf (mulf g1 (id s1)) (flat Z5) (ix1 n))
      = ∑ n : Fin 2048, (Spec.gT θ Spec.r2048 n * Spec.sg θ Spec.r2048 n) * rowOf Z5 n :=
    Finset.sum_congr rfl fun n _ => by
      show (g1 (ix1 n) * s1 (ix1 n)) * flat Z5 (ix1 n) = _
      rw [hg, hs, flat_apply]
  have e3 : (∑ n : Fin 2048, mulf g1 (flat Z6) (ix1 n)) = ∑ n : Fin 2048, Spec.gT θ Spec.r2048 n * rowOf Z6 n :=
    Finset.sum_congr rfl fun n _ => by
      show g1 (ix1 n) * flat Z6 (ix1 n) = _
      rw [hg, flat_apply]
  show (word0 0x45800000#32 i * sum1 g1 i - word0 0x40000000#32 i * sum1 (mulf (mulf g1 (id s1)) (flat Z5)) i)
      + sum1 (mulf g1 (flat Z6)) i = _
  rw [sum1_apply, sum1_apply, sum1_apply, word0_apply, word0_apply, e1, e2, e3]
  rfl

/-- The constant-zero row's part. -/
def pZeroV : FVec Ideal S_ .f32 := sum1 (mulf g0 (flat Z6))

theorem pZeroV_apply (hg : ∀ n : Fin 2048, g0 (ix1 n) = Spec.gT θ Spec.r2049 n) (i : S_.Idx) :
    pZeroV g0 Z6 i = Spec.pZero θ (rowOf Z6) := by
  have e : (∑ n : Fin 2048, mulf g0 (flat Z6) (ix1 n)) = ∑ n : Fin 2048, Spec.gT θ Spec.r2049 n * rowOf Z6 n :=
    Finset.sum_congr rfl fun n _ => by
      show g0 (ix1 n) * flat Z6 (ix1 n) = _
      rw [hg, flat_apply]
  unfold pZeroV
  rw [sum1_apply, e]
  rfl

/-- The tail's scalar result: the three parts added and divided by 4096. -/
def powerV : FVec Ideal S_ .f32 :=
  Host.divf (addf (addf (pMainV a G Z6 Z7) (pOnesV g1 s1 Z5 Z6)) (pZeroV g0 Z6)) (word0 0x45800000#32)

theorem powerV_apply (hG : ∀ k n : Fin 2048, G (ix2 k n) = Spec.gT θ (Spec.up k) n)
    (hg1 : ∀ n : Fin 2048, g1 (ix1 n) = Spec.gT θ Spec.r2048 n)
    (hs1 : ∀ n : Fin 2048, s1 (ix1 n) = Spec.sg θ Spec.r2048 n)
    (hg0 : ∀ n : Fin 2048, g0 (ix1 n) = Spec.gT θ Spec.r2049 n) (i : S_.Idx) :
    powerV a G g1 s1 g0 Z5 Z6 Z7 i = Spec.powerK θ (curry2 a) (rowOf Z5) (rowOf Z6) (rowOf Z7) := by
  show FloatOps.hostDivf ((pMainV a G Z6 Z7 i + pOnesV g1 s1 Z5 Z6 i) + pZeroV g0 Z6 i) (word0 0x45800000#32 i) = _
  rw [pMainV_apply θ a G Z6 Z7 hG, pOnesV_apply θ g1 s1 Z5 Z6 hg1 hs1, pZeroV_apply θ g0 Z6 hg0, word0_apply]
  rfl

end parts

end Cert.KHost

end
-- ==== Proof.KHostTailV.lean ====
/-
  The scalar result after the tail, from the region's final arrays.

  After the region the buffers hold the region's arrays in the windows and, everywhere else, what the host
  operations before the region left. The tail is one straight line of operations over those contents; its last
  buffer is the composition of the tail's whole-array steps applied to the activations, to rows of the cost
  weight and of the sign written before the region, and to the three row results of the region. Read at its one
  element it is the specification's scalar formula, for ANY contents of the region's arrays.
-/
import proofs.«149382_j39599598469767_2_alg».proof.Proof.GenP.KernelIdeal.Frame.Runs
import proofs.«149382_j39599598469767_2_alg».proof.Proof.KHostPreV
import proofs.«149382_j39599598469767_2_alg».proof.Proof.KHostTail

set_option maxRecDepth 16384

noncomputable section

namespace Cert.KHost

open Cert.KernelIdeal Cert.KernelIdeal.Gen Idealize.ShloMosaic Idealize.ShloMosaic.TcCoe Idealize.SL.Sem
  Idealize.ShloMosaic.StableHlo Idealize.ShloMosaic.ValueIdx
open Idealize.ShloMosaic.Pipeline (Dat)

variable (m : (ℓ : Loc nD τ sig) → Buf (Elt Ideal) ℓ) (c : Dev nD)

/-- The activations as launched on a core. -/
abbrev aof : FVec Ideal S4096x2048 .f32 := m ((c : Thread nD τ).loc main_arg0)

set_option maxHeartbeats 1000000 in
/-- The tail's last buffer over any buffer contents: the tail's composition applied to the buffers it reads. -/
theorem tail_after (W : Valuation τ sig (Elt Ideal)) :
    (StableHlo.after (hostOps1 (F := Ideal)) W (Proc.devRef .tc main_v74) : S_.Idx → EReal)
      = powerV (W (Proc.devRef .tc main_arg0)) (W (Proc.devRef .tc main_v34)) (W (Proc.devRef .tc main_v36))
          (W (Proc.devRef .tc main_v33)) (W (Proc.devRef .tc main_v38)) (W (Proc.devRef .tc main_v41_1))
          (W (Proc.devRef .tc main_v41_2)) (W (Proc.devRef .tc main_v41_3)) := by
  simp only [Gen.hostOps1]
  after_results_simp
  rfl

/-- The tail's scalar result when the region's windows hold arbitrary arrays A and every other buffer what the host
    operations before the region left: the specification's formula of θ, of window 0's array (the activations' window)
    and of the row arrays of windows 5, 6, 7. -/
theorem tail_withArrays (A : (w : Fin 8) → Buf (Elt Ideal) ((spec0 w).arr.view.loc (c.tc : Thread nD τ))) :
    (StableHlo.after (hostOps1 (F := Ideal)) (Pipeline.withArrays spec0 c (GenP.V0 m c) A) (Proc.devRef .tc main_v74) : S_.Idx → EReal) ix0
      = Spec.powerK (curry2 (θof m c)) (curry2 (A 0)) (rowOf (A 5)) (rowOf (A 6)) (rowOf (A 7)) := by
  have h0 : Pipeline.withArrays spec0 c (GenP.V0 m c) A (Proc.devRef .tc main_arg0) = A 0 :=
    Pipeline.withArrays_arr spec0 Gen.launch0.win.arr_inj c (GenP.V0 m c) A 0
  have h34 : Pipeline.withArrays spec0 c (GenP.V0 m c) A (Proc.devRef .tc main_v34) = top (gV (θof m c)) :=
    (Pipeline.withArrays_of_ne spec0 c (GenP.V0 m c) A main_v34 (by decide)).trans (V_main_v34 m c)
  have h36 : Pipeline.withArrays spec0 c (GenP.V0 m c) A (Proc.devRef .tc main_v36) = row2048 (gV (θof m c)) :=
    (Pipeline.withArrays_of_ne spec0 c (GenP.V0 m c) A main_v36 (by decide)).trans (V_main_v36 m c)
  have h33 : Pipeline.withArrays spec0 c (GenP.V0 m c) A (Proc.devRef .tc main_v33) = row2048 (sgV (θof m c)) :=
    (Pipeline.withArrays_of_ne spec0 c (GenP.V0 m c) A main_v33 (by decide)).trans (V_main_v33 m c)
  have h38 : Pipeline.withArrays spec0 c (GenP.V0 m c) A (Proc.devRef .tc main_v38) = row2049 (gV (θof m c)) :=
    (Pipeline.withArrays_of_ne spec0 c (GenP.V0 m c) A main_v38 (by decide)).trans (V_main_v38 m c)
  have h5 : Pipeline.withArrays spec0 c (GenP.V0 m c) A (Proc.devRef .tc main_v41_1) = A 5 :=
    Pipeline.withArrays_arr spec0 Gen.launch0.win.arr_inj c (GenP.V0 m c) A 5
  have h6 : Pipeline.withArrays spec0 c (GenP.V0 m c) A (Proc.devRef .tc main_v41_2) = A 6 :=
    Pipeline.withArrays_arr spec0 Gen.launch0.win.arr_inj c (GenP.V0 m c) A 6
  have h7 : Pipeline.withArrays spec0 c (GenP.V0 m c) A (Proc.devRef .tc main_v41_3) = A 7 :=
    Pipeline.withArrays_arr spec0 Gen.launch0.win.arr_inj c (GenP.V0 m c) A 7
  rw [tail_after, h0, h34, h36, h33, h38, h5, h6, h7]
  exact powerV_apply (curry2 (θof m c)) (A 0) (top (gV (θof m c))) (row2048 (gV (θof m c))) (row2048 (sgV (θof m c)))
    (row2049 (gV (θof m c))) (A 5) (A 6) (A 7)
    (fun k n => by rw [top_apply, gV_apply]) (fun n => by rw [row2048_apply, gV_apply])
    (fun n => by rw [row2048_apply, sgV_apply]) (fun n => by rw [row2049_apply, gV_apply]) ix0

/-- The program's scalar result, as its run states it (the tail after the region over the region's final
    arrays), is the specification's formula of θ, the activations, and the region's three final row arrays — for any
    proof data whose activations window starts at the launched activations. -/
theorem afterTail_main_v74 (dats : (p : Fin 1) → (c : Dev nD) → Dat τ (Elt Ideal) Unit ℕ (UR sig nD τ) ℕ (cfgs p) c)
    (hA0 : (dats 0 c).A 0 = GenP.V m c (Pipeline.arrRef spec0 0)) :
    (Pipeline.afterTail₀ cfgs dats 0 (GenP.V0 m) [hostOps1] c main_v74 : S_.Idx → EReal) ix0
      = Spec.powerK (curry2 (θof m c)) (curry2 (aof m c)) (rowOf ((dats 0 c).arrAt 5 cfg0.N))
          (rowOf ((dats 0 c).arrAt 6 cfg0.N)) (rowOf ((dats 0 c).arrAt 7 cfg0.N)) := by
  have ha : (dats 0 c).arrAt 0 cfg0.N = aof m c :=
    ((dats 0 c).arrAt_in 0 rfl _).trans (hA0.trans (GenP.V_main_arg0 m c))
  unfold Pipeline.afterTail₀
  simp only [List.flatten_cons, List.flatten_nil, List.append_nil]
  refine (tail_withArrays m c (fun w => (dats 0 c).arrAt w cfg0.N)).trans ?_
  show Spec.powerK (curry2 (θof m c)) (curry2 ((dats 0 c).arrAt 0 cfg0.N)) _ _ _ = _
  rw [ha]

end Cert.KHost

end
-- ==== Proof.KernelValue.lean ====
/-
  The kernel program's two results as formulas of its two inputs.

  The region reads the activations as launched and, from θ, the weights (rows 0..2047 of the signed normalised
  weight), the bias row (row 2048) and the signed cost weights; substituting these in the region's four final
  arrays gives the first result z and, through the host's combination of the three row results, the scalar cost.
-/
import proofs.«149382_j39599598469767_2_alg».proof.Proof.KBodyFinal
import proofs.«149382_j39599598469767_2_alg».proof.Proof.KHostTailV

noncomputable section

namespace Cert.KValue

open Idealize.ShloMosaic Idealize.ShloMosaic.ValueIdx Idealize.SL.Sem Cert.KernelIdeal Cert.KHost

variable (m : (ℓ : Loc nD τ sig) → Buf (Elt Ideal) ℓ) (c : Dev nD)

/-- What the region's four input windows read. -/
theorem A0_eq : KBody.A0 m c = curry2 (aof m c) := by
  funext e k
  unfold KBody.A0
  rw [GenP.V_main_arg0]

theorem A1_eq : KBody.A1 m c = Spec.wMain (curry2 (θof m c)) :=
  funext fun k => funext fun n => V_main_v27_apply m c k n

theorem A2_eq : KBody.A2 m c = Spec.bias (curry2 (θof m c)) :=
  funext fun n => V_main_v30_apply m c 0 n

theorem A3_eq : KBody.A3 m c = Spec.gsMain (curry2 (θof m c)) :=
  funext fun k => funext fun n => V_main_v40_apply m c k n

/-- The first result, entry by entry. -/
theorem z_final (e : Fin 4096) (n : Fin 2048) :
    (GenP.dats m 0 c).arrAt 4 cfg0.N (ix2 e n) = Spec.zKer (curry2 (aof m c)) (curry2 (θof m c)) e n := by
  rw [KBody.final4, A0_eq, A1_eq, A2_eq]
  rfl

/-- The second result. -/
theorem power_final :
    (Pipeline.afterTail₀ cfgs (GenP.dats m) 0 (GenP.V0 m) [Gen.hostOps1] c main_v74 : S_.Idx → EReal) ix0
      = Spec.powerKer (curry2 (aof m c)) (curry2 (θof m c)) := by
  rw [afterTail_main_v74 m c (GenP.dats m) (GenP.A_eq m c 0)]
  have h5 : rowOf ((GenP.dats m 0 c).arrAt 5 cfg0.N)
      = Spec.colK (curry2 (aof m c)) (Spec.wMain (curry2 (θof m c))) (Spec.bias (curry2 (θof m c))) :=
    funext fun n => by rw [← A0_eq, ← A1_eq, ← A2_eq]; exact KBody.final5 m c n
  have h6 : rowOf ((GenP.dats m 0 c).arrAt 6 cfg0.N)
      = Spec.y2K (curry2 (aof m c)) (Spec.wMain (curry2 (θof m c))) (Spec.bias (curry2 (θof m c))) :=
    funext fun n => by rw [← A0_eq, ← A1_eq, ← A2_eq]; exact KBody.final6 m c n
  have h7 : rowOf ((GenP.dats m 0 c).arrAt 7 cfg0.N)
      = Spec.pwK (curry2 (aof m c)) (Spec.wMain (curry2 (θof m c))) (Spec.bias (curry2 (θof m c)))
          (Spec.gsMain (curry2 (θof m c))) :=
    funext fun n => by rw [← A0_eq, ← A1_eq, ← A2_eq, ← A3_eq]; exact KBody.final7 m c n
  rw [h5, h6, h7]
  rfl

end Cert.KValue

end
-- ==== Proof.RefWeights.lean ====
/-
  The reference's functions of the conductances alone, read at an entry.

  From θ the reference forms, entry by entry, the clamped and thresholded conductance, its sign masks, its
  magnitude normalised by the column's sum of magnitudes (zero for a column whose sum is not positive), and
  the cost weight |θ| · (1e-4 / min over the column of |θ|). Each stage is read at (k, n), or at column n
  for the per-column stages.
-/
import proofs.«149382_j39599598469767_2_alg».proof.Proof.Gen.ReferenceIdeal.Read
import proofs.«149382_j39599598469767_2_alg».proof.Proof.Spec

noncomputable section

namespace Cert.RefRead

open Cert.ReferenceIdeal Cert.ReferenceIdeal.Gen Cert.ReferenceIdeal.Read Idealize.ShloMosaic Idealize.ShloMosaic.ValueIdx

/-- A rank-2 array as a function of its two coordinates. -/
abbrev arr2 {m n : Nat} (x : (⟨2, ![m, n]⟩ : Shape).Idx → Spec.X) : Fin m → Fin n → Spec.X := fun i j => x (ix2 i j)

variable (x1 : (⟨S2050x2048, .f32⟩ : BufTy).Contents (Elt Ideal))

/-! ## Entry by entry -/

/-- The clamp. -/
theorem v0_apply (k : Fin 2050) (n : Fin 2048) :
    val_main_v0 (F := Ideal) x1 (ix2 k n) = Spec.clipS (arr2 x1 k n) := by
  rw [val_main_v0_apply, val_main_call0_v4_apply, val_main_call0_v2_apply, val_main_call0_v1_apply]
  rfl

/-- The clamp followed by the threshold. -/
theorem v4_apply (k : Fin 2050) (n : Fin 2048) :
    val_main_v4 (F := Ideal) x1 (ix2 k n) = Spec.thS (arr2 x1 k n) := by
  rw [val_main_v4_apply, val_main_v3_apply, val_main_v1_apply, val_main_v2_apply, val_main_call1_v1_apply, v0_apply]
  rfl

/-- The raw entry subtracted and added back. -/
theorem v6_apply (k : Fin 2050) (n : Fin 2048) :
    val_main_v6 (F := Ideal) x1 (ix2 k n) = Spec.thR (arr2 x1 k n) := by
  rw [val_main_v6_apply, val_main_v5_apply, v4_apply]
  rfl

/-- The mask of non-negative entries, as a number. -/
theorem v9_apply (k : Fin 2050) (n : Fin 2048) :
    val_main_v9 (F := Ideal) x1 (ix2 k n) = Spec.posR (arr2 x1 k n) := by
  rw [val_main_v9_apply, val_main_v8_apply, val_main_v7_apply, v6_apply]
  rfl

/-- Its complement (first spelling). -/
theorem v11_apply (k : Fin 2050) (n : Fin 2048) :
    val_main_v11 (F := Ideal) x1 (ix2 k n) = Spec.negR (arr2 x1 k n) := by
  rw [val_main_v11_apply, val_main_v10_apply, v9_apply]
  rfl

/-- Its complement (second spelling). -/
theorem v43_apply (k : Fin 2050) (n : Fin 2048) :
    val_main_v43 (F := Ideal) x1 (ix2 k n) = Spec.negR (arr2 x1 k n) := by
  rw [val_main_v43_apply, val_main_v42_apply, v9_apply]
  rfl

/-- The magnitude. -/
theorem v12_apply (k : Fin 2050) (n : Fin 2048) :
    val_main_v12 (F := Ideal) x1 (ix2 k n) = Spec.ab (Spec.thR (arr2 x1 k n)) := by
  rw [val_main_v12_apply, v6_apply]
  rfl

/-! ## Column sums of the magnitudes and the guarded divisor -/

theorem idx13_eq (n : Fin 2048) (k : Fin 2050) : idx_main_v13 (ix1 n) k = ix2 k n :=
  funext fun a => Fin.ext (by match a with | ⟨0, _⟩ => rfl | ⟨1, _⟩ => rfl)

/-- The column sum of the magnitudes. -/
theorem v13_apply (n : Fin 2048) :
    val_main_v13 (F := Ideal) x1 (ix1 n) = Spec.csR (arr2 x1) n := by
  rw [val_main_v13_apply]
  have hz : val_main_cst_5 (F := Ideal) (Shape.Idx.first h_S_) = 0 := Ideal.ofBits_zero_f32
  rw [hz, zero_add]
  unfold Spec.csR
  exact Finset.sum_congr rfl fun k _ => by rw [idx13_eq, v12_apply]

theorem idx14_eq (z : Fin 1) (n : Fin 2048) : idx_main_v14 (ix2 z n) = ix1 n :=
  funext fun a => Fin.ext (by match a with | ⟨0, _⟩ => rfl)

theorem v14_apply (z : Fin 1) (n : Fin 2048) :
    val_main_v14 (F := Ideal) x1 (ix2 z n) = Spec.csR (arr2 x1) n := by
  rw [val_main_v14_apply, idx14_eq, v13_apply]

/-- "The column sum is positive" (first spelling). -/
theorem v16_apply (z : Fin 1) (n : Fin 2048) :
    val_main_v16 (F := Ideal) x1 (ix2 z n) = Spec.gt (Spec.csR (arr2 x1) n) Spec.z0 := by
  rw [val_main_v16_apply, val_main_v15_apply, v14_apply]
  rfl

/-- "The column sum is positive" (second spelling). -/
theorem v18_apply (z : Fin 1) (n : Fin 2048) :
    val_main_v18 (F := Ideal) x1 (ix2 z n) = Spec.gt (Spec.csR (arr2 x1) n) Spec.z0 := by
  rw [val_main_v18_apply, val_main_v17_apply, v14_apply]
  rfl

/-- The guarded divisor: the column sum where positive, else one. -/
theorem v19_apply (z : Fin 1) (n : Fin 2048) :
    val_main_v19 (F := Ideal) x1 (ix2 z n) = Spec.safeR (arr2 x1) n := by
  rw [val_main_v19_apply, v18_apply, v14_apply, val_main_call2_v1_apply]
  rfl

theorem idx20_eq (k : Fin 2050) (n : Fin 2048) : idx_main_v20 (ix2 k n) = ix2 (⟨0, Nat.one_pos⟩ : Fin 1) n :=
  funext fun a => Fin.ext (by match a with | ⟨0, _⟩ => rfl | ⟨1, _⟩ => rfl)

theorem v20_apply (k : Fin 2050) (n : Fin 2048) :
    val_main_v20 (F := Ideal) x1 (ix2 k n) = Spec.safeR (arr2 x1) n := by
  rw [val_main_v20_apply, idx20_eq, v19_apply]

theorem v21_apply (k : Fin 2050) (n : Fin 2048) :
    val_main_v21 (F := Ideal) x1 (ix2 k n)
      = Ideal.div (Spec.ab (Spec.thR (arr2 x1 k n))) (Spec.safeR (arr2 x1) n) := by
  rw [val_main_v21_apply, v12_apply, v20_apply]
  rfl

theorem idxc3_eq (k : Fin 2050) (n : Fin 2048) : idx_main_call3_v1 (ix2 k n) = ix2 (⟨0, Nat.one_pos⟩ : Fin 1) n :=
  funext fun a => Fin.ext (by match a with | ⟨0, _⟩ => rfl | ⟨1, _⟩ => rfl)

theorem call3_v1_apply (k : Fin 2050) (n : Fin 2048) :
    val_main_call3_v1 (F := Ideal) x1 (ix2 k n) = Spec.gt (Spec.csR (arr2 x1) n) Spec.z0 := by
  rw [val_main_call3_v1_apply, idxc3_eq, v16_apply]

/-- The normalised magnitude. -/
theorem v22_apply (k : Fin 2050) (n : Fin 2048) :
    val_main_v22 (F := Ideal) x1 (ix2 k n) = Spec.WR (arr2 x1) k n := by
  rw [val_main_v22_apply, call3_v1_apply, v21_apply, val_main_call3_v2_apply]
  rfl

/-- The normalised magnitude masked to the non-negative entries … -/
theorem v30_apply (k : Fin 2050) (n : Fin 2048) :
    val_main_v30 (F := Ideal) x1 (ix2 k n) = Spec.WR (arr2 x1) k n * Spec.posR (arr2 x1 k n) := by
  rw [val_main_v30_apply, v22_apply, v9_apply]
  rfl

/-- … and to the negative ones. -/
theorem v32_apply (k : Fin 2050) (n : Fin 2048) :
    val_main_v32 (F := Ideal) x1 (ix2 k n) = Spec.WR (arr2 x1) k n * Spec.negR (arr2 x1 k n) := by
  rw [val_main_v32_apply, v22_apply, v11_apply]
  rfl

/-! ## The cost weight -/

/-- Row k put back into column n of the reduced index. -/
theorem lift_col (h : S2050x2048.Reduces [0] S2048) (n : Fin 2048) (k : Fin (S2050x2048.size 0)) :
    h.lift (ix1 n) k = ix2 (⟨k.val, k.isLt⟩ : Fin 2050) n := by
  funext c; apply Fin.ext; fin_cases c <;> rfl

/-- The column minimum of |θ|, taken from +∞, is the infimum over the column. -/
theorem v36_apply (n : Fin 2048) :
    val_main_v36 (F := Ideal) x1 (ix1 n) = Spec.gmin (arr2 x1) n := by
  have h : S2050x2048.Reduces [0] S2048 := by decide
  unfold val_main_v36
  rw [Host.reduce_eq_fold_single FloatOps.minimumf _ _ reducesTo_S2050x2048_S2048_d0 h h_S_]
  have hf : (val_main_v35 (F := Ideal) x1 ∘ h.lift (ix1 n)) = fun k : Fin 2050 => Spec.ab (arr2 x1 k n) :=
    funext fun k => congrArg (val_main_v35 (F := Ideal) x1) (lift_col h n k)
  have htop : val_main_cst_13 (F := Ideal) (Shape.Idx.first h_S_) = (⊤ : EReal) := by
    show Ideal.ofBits .f32 0x7F800000#32 = ⊤
    simp [Ideal.ofBits, Ideal.ieee]
  rw [htop]
  exact congrArg (fun f => Finset.fold min (⊤ : EReal) f (Finset.univ : Finset (Fin 2050))) hf

theorem idx37_eq (z : Fin 1) (n : Fin 2048) : idx_main_v37 (ix2 z n) = ix1 n :=
  funext fun a => Fin.ext (by match a with | ⟨0, _⟩ => rfl)

theorem v39_apply (z : Fin 1) (n : Fin 2048) :
    val_main_v39 (F := Ideal) x1 (ix2 z n) = Ideal.div Spec.cP (Spec.gmin (arr2 x1) n) := by
  rw [val_main_v39_apply, val_main_v38_apply, val_main_v37_apply, idx37_eq, v36_apply]
  rfl

theorem idx40_eq (k : Fin 2050) (n : Fin 2048) : idx_main_v40 (ix2 k n) = ix2 (⟨0, Nat.one_pos⟩ : Fin 1) n :=
  funext fun a => Fin.ext (by match a with | ⟨0, _⟩ => rfl | ⟨1, _⟩ => rfl)

/-- The cost weight. -/
theorem v41_apply (k : Fin 2050) (n : Fin 2048) :
    val_main_v41 (F := Ideal) x1 (ix2 k n) = Spec.gT (arr2 x1) k n := by
  rw [val_main_v41_apply, val_main_v40_apply, idx40_eq, v39_apply]
  rfl

end Cert.RefRead

end
-- ==== Proof.LibScatterSet.lean ====
/-
  A SCATTER THAT OVERWRITES, READ AT AN ELEMENT.

  A scatter whose body returns the update runs over the update elements in row-major order; each element that lands
  inside the operand overwrites the operand's element at its landing index, and one that lands outside is dropped. The
  result is a left fold of that step over the list of update elements.

  Read at one element i of the operand the fold is simple. If no update element lands at i, the result holds there
  what the operand held. If some update element n₀ lands at i and every update element that lands at i is n₀, the
  result holds there the update's value at n₀: later steps that land elsewhere leave i alone, and the steps before
  n₀ do not matter. Both statements are first proved for the fold over any list, with the landing index any
  partial function of the list's elements, and then read for the scatter.
-/
import Idealize.ShloMosaic.PureOps.ShapeOps

noncomputable section

namespace Cert.Lib

open Idealize.ShloMosaic

section Fold

variable {ι σ α : Type} [DecidableEq σ]

/-- One step of a scatter: the element n, when it lands at some index i, replaces the array's element at i by the
    body's value on the old element and the update's; when it lands nowhere the array is unchanged. -/
def scatterStep (g : ι → Option σ) (f : α → α → α) (v : ι → α) (r : σ → α) (n : ι) : σ → α :=
  match g n with
  | some i => fun i' => if i' = i then f (r i) (v n) else r i'
  | none => r

/-- A step that does not land at i leaves the element at i alone. -/
theorem scatterStep_of_ne (g : ι → Option σ) (f : α → α → α) (v : ι → α) (r : σ → α) (n : ι) (i : σ)
    (h : g n ≠ some i) : scatterStep g f v r n i = r i := by
  unfold scatterStep
  cases hk : g n with
  | none => rfl
  | some k =>
    show (if i = k then f (r k) (v n) else r i) = r i
    rw [if_neg]
    intro e
    exact h (by rw [hk, e])

/-- A step that lands at i puts there the body's value on the old element and the update's. -/
theorem scatterStep_of_eq (g : ι → Option σ) (f : α → α → α) (v : ι → α) (r : σ → α) (n : ι) (i : σ)
    (h : g n = some i) : scatterStep g f v r n i = f (r i) (v n) := by
  unfold scatterStep
  rw [h]
  show (if i = i then f (r i) (v n) else r i) = f (r i) (v n)
  rw [if_pos rfl]

/-- If no element of the list lands at i, the fold leaves the element at i alone. -/
theorem foldl_scatterStep_of_forall_ne (g : ι → Option σ) (f : α → α → α) (v : ι → α) (i : σ) :
    ∀ (l : List ι) (r : σ → α), (∀ n ∈ l, g n ≠ some i) → l.foldl (scatterStep g f v) r i = r i
  | [], _, _ => rfl
  | a :: l, r, h => by
    rw [List.foldl_cons, foldl_scatterStep_of_forall_ne g f v i l _ (fun n hn => h n (List.mem_cons_of_mem _ hn)),
      scatterStep_of_ne g f v r a i (h a List.mem_cons_self)]

/-- With the body that returns the update: if n₀ is in the list and lands at i, and every element of the list that
    lands at i is n₀, the fold's element at i is the update's value at n₀. -/
theorem foldl_scatterSet_of_unique (g : ι → Option σ) (v : ι → α) (i : σ) (n₀ : ι) (hg : g n₀ = some i) :
    ∀ (l : List ι) (r : σ → α), n₀ ∈ l → (∀ n ∈ l, g n = some i → n = n₀) →
      l.foldl (scatterStep g (fun _ b => b) v) r i = v n₀
  | [], _, h, _ => absurd h List.not_mem_nil
  | a :: l, r, hmem, huniq => by
    rw [List.foldl_cons]
    by_cases hl : n₀ ∈ l
    · exact foldl_scatterSet_of_unique g v i n₀ hg l _ hl (fun n hn => huniq n (List.mem_cons_of_mem _ hn))
    · have ha : a = n₀ := by
        rcases List.mem_cons.mp hmem with h | h
        · exact h.symm
        · exact absurd h hl
      rw [foldl_scatterStep_of_forall_ne g _ v i l _ (fun n hn e => hl (huniq n (List.mem_cons_of_mem _ hn) e ▸ hn)),
        ha, scatterStep_of_eq g _ v r n₀ i hg]

end Fold

section Scatter

variable {α : Type} {s si u : Shape} {w : Nat}

/-- A scatter is the fold of its step over the update elements in row-major order. -/
theorem scatter_eq_foldl (d : ScatterDims s si u) (f : α → α → α) (x : s.Idx → α) (idx : IVec si w) (upd : u.Idx → α) :
    Host.scatter d f x idx upd
      = (List.finRange u.numel).foldl (scatterStep (fun n => d.resultIdx? (u.rowMajor.symm n) idx) f
          (fun n => upd (u.rowMajor.symm n))) x := by
  unfold Host.scatter
  congr 1
  funext r n
  unfold scatterStep
  beta_reduce
  generalize d.resultIdx? (u.rowMajor.symm n) idx = o
  cases o with
  | none => rfl
  | some i => rfl

/-- AN OVERWRITING SCATTER AT AN ELEMENT NO UPDATE REACHES: the operand's element. -/
theorem scatter_apply_of_forall_ne (d : ScatterDims s si u) (f : α → α → α) (x : s.Idx → α) (idx : IVec si w)
    (upd : u.Idx → α) (i : s.Idx) (h : ∀ j, d.resultIdx? j idx ≠ some i) : Host.scatter d f x idx upd i = x i := by
  rw [scatter_eq_foldl]
  exact foldl_scatterStep_of_forall_ne _ f _ i _ x (fun n _ => h _)

/-- AN OVERWRITING SCATTER AT AN ELEMENT EXACTLY ONE UPDATE REACHES: when update element j₀ lands at i and every
    update element that lands at i is j₀, the result's element at i is the update's at j₀. -/
theorem scatter_set_apply (d : ScatterDims s si u) (x : s.Idx → α) (idx : IVec si w) (upd : u.Idx → α) (j₀ : u.Idx)
    (i : s.Idx) (h₀ : d.resultIdx? j₀ idx = some i) (huniq : ∀ j, d.resultIdx? j idx = some i → j = j₀) :
    Host.scatter d (fun _ b => b) x idx upd i = upd j₀ := by
  rw [scatter_eq_foldl]
  have key := foldl_scatterSet_of_unique (fun n => d.resultIdx? (u.rowMajor.symm n) idx) (fun n => upd (u.rowMajor.symm n)) i
    (u.rowMajor j₀) (by rw [Equiv.symm_apply_apply]; exact h₀) (List.finRange u.numel) x (List.mem_finRange _)
    (fun n _ e => by rw [← huniq _ e, Equiv.apply_symm_apply])
  rw [key, Equiv.symm_apply_apply]

end Scatter

end Cert.Lib

end
-- ==== Proof.LibThreeCols.lean ====
/-
  THREE MATRICES SIDE BY SIDE, AND A ROW BLOCK OF A MATRIX, READ AT AN ENTRY.

  Three matrices with the same R rows and A, B and C columns, concatenated along the columns into one R-by-T matrix:
  column k < A is the first one's column k, column A + k (k < B) the second one's column k, column A + B + k (k < C)
  the third one's column k. And rows off, …, off + a' − 1 of an n-by-b matrix cut out as an a'-by-b block: entry (q, k)
  is the matrix's entry (off + q, k). Generic in every size.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- Column kk = k < A of the three laid side by side is the first matrix's column k. -/
theorem concatenate_cols3_first {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin A) (kk : Fin T) (hk : kk.val = k.val) :
    concatenate ⟨2, ![R, T]⟩ 1 [⟨⟨2, ![R, A]⟩, a⟩, ⟨⟨2, ![R, B]⟩, b⟩, ⟨⟨2, ![R, C]⟩, c⟩] h (ix2 r kk) = a (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    0 (by show (0 : Nat) < 3; omega) ⟨2, ![R, A]⟩ a rfl rfl 0 rfl (ix2 r k)
    (fun d => match d with
      | ⟨0, _⟩ => fun _ => rfl
      | ⟨1, _⟩ => fun hd => absurd rfl hd)
    (show 0 + k.val = kk.val by omega)

/-- Column kk = A + k, k < B, is the second matrix's column k. -/
theorem concatenate_cols3_second {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin B) (kk : Fin T) (hk : kk.val = A + k.val) :
    concatenate ⟨2, ![R, T]⟩ 1 [⟨⟨2, ![R, A]⟩, a⟩, ⟨⟨2, ![R, B]⟩, b⟩, ⟨⟨2, ![R, C]⟩, c⟩] h (ix2 r kk) = b (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    1 (by show (1 : Nat) < 3; omega) ⟨2, ![R, B]⟩ b rfl rfl A rfl (ix2 r k)
    (fun d => match d with
      | ⟨0, _⟩ => fun _ => rfl
      | ⟨1, _⟩ => fun hd => absurd rfl hd)
    (show A + k.val = kk.val by omega)

/-- Column kk = A + B + k, k < C, is the third matrix's column k. -/
theorem concatenate_cols3_third {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin C) (kk : Fin T) (hk : kk.val = A + B + k.val) :
    concatenate ⟨2, ![R, T]⟩ 1 [⟨⟨2, ![R, A]⟩, a⟩, ⟨⟨2, ![R, B]⟩, b⟩, ⟨⟨2, ![R, C]⟩, c⟩] h (ix2 r kk) = c (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    2 (by show (2 : Nat) < 3; omega) ⟨2, ![R, C]⟩ c rfl rfl (A + B) rfl (ix2 r k)
    (fun d => match d with
      | ⟨0, _⟩ => fun _ => rfl
      | ⟨1, _⟩ => fun hd => absurd rfl hd)
    (show A + B + k.val = kk.val by omega)

/-- Rows off … of an n-by-b matrix cut out as an a'-by-b block at column offset 0: at (q, k), the matrix at
    (off + q, k). -/
theorem rows_block_apply {n b a' : Nat} (off : Nat) (X : (⟨2, ![n, b]⟩ : Shape).Idx → α)
    (hs : (⟨2, ![n, b]⟩ : Shape).Slices ![off, 0] ⟨2, ![a', b]⟩) (q : Fin a') (k : Fin b) (pp : Fin n)
    (hp : pp.val = off + q.val) :
    extractStridedSlice ⟨2, ![a', b]⟩ ![off, 0] X hs (ix2 q k) = X (ix2 pp k) :=
  extractStridedSlice_apply ![off, 0] X hs (ix2 q k) (ix2 pp k) (fun d => match d with
    | ⟨0, _⟩ => hp
    | ⟨1, _⟩ => (Nat.zero_add _).symm)

end Cert.Lib

end
-- ==== Proof.RefX.lean ====
/-
  The reference's extended input and its negation, read at an entry.

  The extended input lays the activations, a column of ones and a column of zeros side by side: entry (e, k) is
  a e k for k < 2048, one at k = 2048 and zero at k = 2049. Its negation has column 2049 overwritten by zero:
  a scatter whose single index is 2049 writes, for every row e, a zero at (e, 2049) and touches nothing else.
-/
import proofs.«149382_j39599598469767_2_alg».proof.Proof.Gen.ReferenceIdeal.Read
import proofs.«149382_j39599598469767_2_alg».proof.Proof.RefWeights
import proofs.«149382_j39599598469767_2_alg».proof.Proof.LibScatterSet
import proofs.«149382_j39599598469767_2_alg».proof.Proof.LibThreeCols

noncomputable section

namespace Cert.RefRead

open Cert.ReferenceIdeal Cert.ReferenceIdeal.Gen Cert.ReferenceIdeal.Read Idealize.ShloMosaic Idealize.ShloMosaic.ValueIdx

variable (x0 : (⟨S4096x2048, .f32⟩ : BufTy).Contents (Elt Ideal))

/-- Column k < 2048 of the extended input is column k of the activations. -/
theorem v25_main (e : Fin 4096) (k : Fin 2048) (kk : Fin 2050) (hk : kk.val = k.val) :
    val_main_v25 (F := Ideal) x0 (ix2 e kk) = x0 (ix2 e k) := by
  unfold val_main_v25
  exact Cert.Lib.concatenate_cols3_first (R := 4096) (A := 2048) (B := 1) (C := 1) (T := 2050) x0 _ _ _ e k kk hk

/-- Column 2048 of the extended input is one. -/
theorem v25_one (e : Fin 4096) (kk : Fin 2050) (hk : kk.val = 2048) :
    val_main_v25 (F := Ideal) x0 (ix2 e kk) = Spec.one := by
  unfold val_main_v25
  refine (Cert.Lib.concatenate_cols3_second (R := 4096) (A := 2048) (B := 1) (C := 1) (T := 2050) x0 _ _ _ e (0 : Fin 1) kk (by rw [hk]; rfl)).trans ?_
  rw [val_main_v23_apply]
  rfl

/-- Column 2049 of the extended input is zero. -/
theorem v25_zero (e : Fin 4096) (kk : Fin 2050) (hk : kk.val = 2049) :
    val_main_v25 (F := Ideal) x0 (ix2 e kk) = Spec.z0 := by
  unfold val_main_v25
  refine (Cert.Lib.concatenate_cols3_third (R := 4096) (A := 2048) (B := 1) (C := 1) (T := 2050) x0 _ _ _ e (0 : Fin 1) kk (by rw [hk]; rfl)).trans ?_
  rw [val_main_v24_apply]
  rfl

/-- The extended input at an entry. -/
theorem v25_apply (e : Fin 4096) (k : Fin 2050) :
    val_main_v25 (F := Ideal) x0 (ix2 e k) = Spec.xe (arr2 x0) e k := by
  unfold Spec.xe
  by_cases h : k.val < 2048
  · rw [dif_pos h]; exact v25_main x0 e ⟨k.val, h⟩ k rfl
  · rw [dif_neg h]
    by_cases h2 : k.val = 2048
    · rw [if_pos h2]; exact v25_one x0 e k h2
    · rw [if_neg h2]; exact v25_zero x0 e k (by have := k.isLt; omega)

/-! ## The scatter that zeroes column 2049 -/

/-- On the row axis no start index is read: the window starts at row 0. -/
theorem start_row (j : S4096.Idx) (idx : IVec S1 32) :
    ScatterDims.start scatter_S4096x2050_S1_S4096_0_1_1_0 j idx (0 : Fin 2) = 0 := by
  unfold ScatterDims.start
  rw [dif_neg (by decide)]

/-- On the column axis the start is the index array's one entry, 2049. -/
theorem start_col (j : S4096.Idx) (idx : IVec S1 32) (hidx : ∀ i, idx i = 2049#32) :
    ScatterDims.start scatter_S4096x2050_S1_S4096_0_1_1_0 j idx (1 : Fin 2) = 2049 := by
  unfold ScatterDims.start
  rw [dif_pos (by decide), hidx]
  decide

/-- Update element e sits at row e of its window … -/
theorem window_row (e : Fin 4096) :
    ScatterDims.window scatter_S4096x2050_S1_S4096_0_1_1_0 (ix1 e) (0 : Fin 2) = e.val := by
  unfold ScatterDims.window
  rw [dif_pos (by decide)]
  rfl

/-- … and the column axis is inserted: coordinate 0. -/
theorem window_col (j : S4096.Idx) :
    ScatterDims.window scatter_S4096x2050_S1_S4096_0_1_1_0 j (1 : Fin 2) = 0 := by
  unfold ScatterDims.window
  rw [dif_neg (by decide)]

/-- Update element e lands at (e, 2049). -/
theorem lands (e : Fin 4096) (idx : IVec S1 32) (hidx : ∀ i, idx i = 2049#32) :
    ScatterDims.resultIdx? scatter_S4096x2050_S1_S4096_0_1_1_0 (ix1 e) idx
      = some (ix2 e (⟨2049, by norm_num⟩ : Fin 2050)) := by
  unfold ScatterDims.resultIdx?
  have h0 : ∀ a : Fin 2, a.val = 0 → ScatterDims.start scatter_S4096x2050_S1_S4096_0_1_1_0 (ix1 e) idx a
      + (ScatterDims.window scatter_S4096x2050_S1_S4096_0_1_1_0 (ix1 e) a : Int) = (e.val : Int) := by
    intro a ha
    obtain rfl : a = 0 := Fin.ext ha
    rw [start_row, window_row]; omega
  have h1 : ∀ a : Fin 2, a.val = 1 → ScatterDims.start scatter_S4096x2050_S1_S4096_0_1_1_0 (ix1 e) idx a
      + (ScatterDims.window scatter_S4096x2050_S1_S4096_0_1_1_0 (ix1 e) a : Int) = 2049 := by
    intro a ha
    obtain rfl : a = 1 := Fin.ext ha
    rw [start_col _ _ hidx, window_col]; rfl
  have he := e.isLt
  rw [dif_pos (fun a => by
    match a with
    | ⟨0, _⟩ => rw [h0 _ rfl]; exact ⟨by omega, by show (e.val : Int) < 4096; omega⟩
    | ⟨1, _⟩ => rw [h1 _ rfl]; exact ⟨by omega, by show (2049 : Int) < 2050; omega⟩)]
  refine congrArg some (funext fun a => ?_)
  match a with
  | ⟨0, hlt⟩ =>
    have t : (ScatterDims.start scatter_S4096x2050_S1_S4096_0_1_1_0 (ix1 e) idx ⟨0, hlt⟩
      + (ScatterDims.window scatter_S4096x2050_S1_S4096_0_1_1_0 (ix1 e) ⟨0, hlt⟩ : Int)).toNat = e.val := by
      rw [h0 ⟨0, hlt⟩ rfl]; omega
    exact Fin.ext t
  | ⟨1, hlt⟩ =>
    have t : (ScatterDims.start scatter_S4096x2050_S1_S4096_0_1_1_0 (ix1 e) idx ⟨1, hlt⟩
      + (ScatterDims.window scatter_S4096x2050_S1_S4096_0_1_1_0 (ix1 e) ⟨1, hlt⟩ : Int)).toNat = 2049 := by
      rw [h1 ⟨1, hlt⟩ rfl]; rfl
    exact Fin.ext t

/-- The index array's one entry is 2049. -/
theorem v27_const (i : S1.Idx) : val_main_v27 (F := Ideal) i = 2049#32 := by
  rw [val_main_v27_apply]; rfl

/-- Column 2049 of the negated input is overwritten by zero. -/
theorem v29_last (e : Fin 4096) (kk : Fin 2050) (hk : kk.val = 2049) :
    val_main_v29 (F := Ideal) x0 (ix2 e kk) = Spec.z0 := by
  obtain rfl : kk = ⟨2049, by norm_num⟩ := Fin.ext hk
  unfold val_main_v29
  refine (Cert.Lib.scatter_set_apply scatter_S4096x2050_S1_S4096_0_1_1_0 _ _ _ (ix1 e) _
    (lands e _ v27_const) (fun j hj => ?_)).trans ?_
  · obtain ⟨e', rfl⟩ : ∃ e' : Fin 4096, j = ix1 e' := ⟨j 0, eq_ix1 j⟩
    rw [lands e' _ v27_const] at hj
    have h0 : e' = e := congrFun (Option.some.inj hj) (0 : Fin 2)
    rw [h0]
  · rw [val_main_v28_apply]; rfl

/-- Every other column of the negated input is the negated extended input. -/
theorem v29_other (e : Fin 4096) (kk : Fin 2050) (hk : kk.val ≠ 2049) :
    val_main_v29 (F := Ideal) x0 (ix2 e kk) = -(val_main_v25 (F := Ideal) x0 (ix2 e kk)) := by
  unfold val_main_v29
  refine (Cert.Lib.scatter_apply_of_forall_ne scatter_S4096x2050_S1_S4096_0_1_1_0 _ _ _ _ (ix2 e kk)
    (fun j hj => ?_)).trans ?_
  · obtain ⟨e', rfl⟩ : ∃ e' : Fin 4096, j = ix1 e' := ⟨j 0, eq_ix1 j⟩
    rw [lands e' _ v27_const] at hj
    have h1 : (⟨2049, by norm_num⟩ : Fin 2050) = kk := congrFun (Option.some.inj hj) (1 : Fin 2)
    exact hk (congrArg Fin.val h1).symm
  · rfl

/-- The negated input at an entry. -/
theorem v29_apply (e : Fin 4096) (k : Fin 2050) :
    val_main_v29 (F := Ideal) x0 (ix2 e k) = Spec.xn (arr2 x0) e k := by
  unfold Spec.xn
  by_cases h : k.val = 2049
  · rw [if_pos h]; exact v29_last x0 e k h
  · rw [if_neg h, ← v25_apply]; exact v29_other x0 e k h

end Cert.RefRead

end
-- ==== Proof.RefZ.lean ====
/-
  The reference's first result at an entry.

  z e n is the extended input's row e against the normalised magnitudes masked to the non-negative conductances,
  plus the negated input's row e against those masked to the negative ones: two sums over the 2050 rows of θ.
-/
import proofs.«149382_j39599598469767_2_alg».proof.Proof.RefWeights
import proofs.«149382_j39599598469767_2_alg».proof.Proof.RefX

noncomputable section

namespace Cert.RefRead

open Cert.ReferenceIdeal Cert.ReferenceIdeal.Gen Cert.ReferenceIdeal.Read Idealize.ShloMosaic Idealize.ShloMosaic.ValueIdx

variable (x0 : (⟨S4096x2048, .f32⟩ : BufTy).Contents (Elt Ideal)) (x1 : (⟨S2050x2048, .f32⟩ : BufTy).Contents (Elt Ideal))

theorem lidx31_eq (e : Fin 4096) (n : Fin 2048) (k : Fin 2050) : lidx_main_v31 (ix2 e n) k = ix2 e k :=
  funext fun a => Fin.ext (by match a with | ⟨0, _⟩ => rfl | ⟨1, _⟩ => rfl)

theorem ridx31_eq (e : Fin 4096) (n : Fin 2048) (k : Fin 2050) : ridx_main_v31 (ix2 e n) k = ix2 k n :=
  funext fun a => Fin.ext (by match a with | ⟨0, _⟩ => rfl | ⟨1, _⟩ => rfl)

theorem lidx33_eq (e : Fin 4096) (n : Fin 2048) (k : Fin 2050) : lidx_main_v33 (ix2 e n) k = ix2 e k :=
  funext fun a => Fin.ext (by match a with | ⟨0, _⟩ => rfl | ⟨1, _⟩ => rfl)

theorem ridx33_eq (e : Fin 4096) (n : Fin 2048) (k : Fin 2050) : ridx_main_v33 (ix2 e n) k = ix2 k n :=
  funext fun a => Fin.ext (by match a with | ⟨0, _⟩ => rfl | ⟨1, _⟩ => rfl)

/-- The product against the non-negative part. -/
theorem v31_apply (e : Fin 4096) (n : Fin 2048) :
    val_main_v31 (F := Ideal) x0 x1 (ix2 e n)
      = ∑ k : Fin 2050, Spec.xe (arr2 x0) e k * (Spec.WR (arr2 x1) k n * Spec.posR (arr2 x1 k n)) := by
  rw [val_main_v31_apply]
  exact Finset.sum_congr rfl fun k _ => by rw [lidx31_eq, ridx31_eq, v25_apply, v30_apply]

/-- The product of the negated input against the negative part. -/
theorem v33_apply (e : Fin 4096) (n : Fin 2048) :
    val_main_v33 (F := Ideal) x0 x1 (ix2 e n)
      = ∑ k : Fin 2050, Spec.xn (arr2 x0) e k * (Spec.WR (arr2 x1) k n * Spec.negR (arr2 x1 k n)) := by
  rw [val_main_v33_apply]
  exact Finset.sum_congr rfl fun k _ => by rw [lidx33_eq, ridx33_eq, v29_apply, v32_apply]

/-- The reference's first result. -/
theorem v34_apply (e : Fin 4096) (n : Fin 2048) :
    val_main_v34 (F := Ideal) x0 x1 (ix2 e n) = Spec.zR (arr2 x0) (arr2 x1) e n := by
  rw [val_main_v34_apply, v31_apply, v33_apply]
  rfl

end Cert.RefRead

end
-- ==== Proof.RefPower.lean ====
/-
  The reference's second result.

  The cost is (1/4096) Σ_{k,n} g k n · (S2 k n − 2 C k n + Y2 n), where S2 is the column sum of squares of the
  input that row k's sign selects (the extended input or its negation), C the matching correlation of that
  input's column k with column n of the first result, and Y2 the column sum of squares of the first result.
  Each stage is read at an entry; the final sum over all entries of the 2050-by-2048 array is the double sum
  over rows and columns.
-/
import proofs.«149382_j39599598469767_2_alg».proof.Proof.RefZ

noncomputable section

namespace Cert.RefRead

open Cert.ReferenceIdeal Cert.ReferenceIdeal.Gen Cert.ReferenceIdeal.Read Idealize.ShloMosaic Idealize.ShloMosaic.ValueIdx

variable (x0 : (⟨S4096x2048, .f32⟩ : BufTy).Contents (Elt Ideal)) (x1 : (⟨S2050x2048, .f32⟩ : BufTy).Contents (Elt Ideal))

/-! ## Column sums of squares of the two inputs -/

theorem idx45_eq (k : Fin 2050) (e : Fin 4096) : idx_main_v45 (ix1 k) e = ix2 e k :=
  funext fun a => Fin.ext (by match a with | ⟨0, _⟩ => rfl | ⟨1, _⟩ => rfl)

theorem idx47_eq (k : Fin 2050) (e : Fin 4096) : idx_main_v47 (ix1 k) e = ix2 e k :=
  funext fun a => Fin.ext (by match a with | ⟨0, _⟩ => rfl | ⟨1, _⟩ => rfl)

theorem v45_apply (k : Fin 2050) : val_main_v45 (F := Ideal) x0 (ix1 k) = Spec.sx2 (arr2 x0) k := by
  rw [val_main_v45_apply]
  have hz : val_main_cst_16 (F := Ideal) (Shape.Idx.first h_S_) = 0 := Ideal.ofBits_zero_f32
  rw [hz, zero_add]
  unfold Spec.sx2
  exact Finset.sum_congr rfl fun e _ => by rw [idx45_eq, val_main_v44_apply, v25_apply]; rfl

theorem v47_apply (k : Fin 2050) : val_main_v47 (F := Ideal) x0 (ix1 k) = Spec.sn2 (arr2 x0) k := by
  rw [val_main_v47_apply]
  have hz : val_main_cst_17 (F := Ideal) (Shape.Idx.first h_S_) = 0 := Ideal.ofBits_zero_f32
  rw [hz, zero_add]
  unfold Spec.sn2
  exact Finset.sum_congr rfl fun e _ => by rw [idx47_eq, val_main_v46_apply, v29_apply]; rfl

theorem idx48_eq (k : Fin 2050) (z : Fin 1) : idx_main_v48 (ix2 k z) = ix1 k :=
  funext fun a => Fin.ext (by match a with | ⟨0, _⟩ => rfl)

theorem idx49_eq (k : Fin 2050) (n : Fin 2048) : idx_main_v49 (ix2 k n) = ix2 k (⟨0, Nat.one_pos⟩ : Fin 1) :=
  funext fun a => Fin.ext (by match a with | ⟨0, _⟩ => rfl | ⟨1, _⟩ => rfl)

theorem idx51_eq (k : Fin 2050) (z : Fin 1) : idx_main_v51 (ix2 k z) = ix1 k :=
  funext fun a => Fin.ext (by match a with | ⟨0, _⟩ => rfl)

theorem idx52_eq (k : Fin 2050) (n : Fin 2048) : idx_main_v52 (ix2 k n) = ix2 k (⟨0, Nat.one_pos⟩ : Fin 1) :=
  funext fun a => Fin.ext (by match a with | ⟨0, _⟩ => rfl | ⟨1, _⟩ => rfl)

theorem v49_apply (k : Fin 2050) (n : Fin 2048) : val_main_v49 (F := Ideal) x0 (ix2 k n) = Spec.sx2 (arr2 x0) k := by
  rw [val_main_v49_apply, idx49_eq, val_main_v48_apply, idx48_eq, v45_apply]

theorem v52_apply (k : Fin 2050) (n : Fin 2048) : val_main_v52 (F := Ideal) x0 (ix2 k n) = Spec.sn2 (arr2 x0) k := by
  rw [val_main_v52_apply, idx52_eq, val_main_v51_apply, idx51_eq, v47_apply]

/-- The sum of squares the sign selects. -/
theorem v54_apply (k : Fin 2050) (n : Fin 2048) :
    val_main_v54 (F := Ideal) x0 x1 (ix2 k n) = Spec.S2 (arr2 x0) (arr2 x1) k n := by
  rw [val_main_v54_apply, val_main_v50_apply, val_main_v53_apply, v9_apply, v43_apply, v49_apply, v52_apply]
  rfl

/-! ## Correlations with the first result -/

theorem idx55_eq (k : Fin 2050) (e : Fin 4096) : idx_main_v55 (ix2 k e) = ix2 e k :=
  funext fun a => Fin.ext (by match a with | ⟨0, _⟩ => rfl | ⟨1, _⟩ => rfl)

theorem idx57_eq (k : Fin 2050) (e : Fin 4096) : idx_main_v57 (ix2 k e) = ix2 e k :=
  funext fun a => Fin.ext (by match a with | ⟨0, _⟩ => rfl | ⟨1, _⟩ => rfl)

theorem lidx56_eq (k : Fin 2050) (n : Fin 2048) (e : Fin 4096) : lidx_main_v56 (ix2 k n) e = ix2 k e :=
  funext fun a => Fin.ext (by match a with | ⟨0, _⟩ => rfl | ⟨1, _⟩ => rfl)

theorem ridx56_eq (k : Fin 2050) (n : Fin 2048) (e : Fin 4096) : ridx_main_v56 (ix2 k n) e = ix2 e n :=
  funext fun a => Fin.ext (by match a with | ⟨0, _⟩ => rfl | ⟨1, _⟩ => rfl)

theorem lidx58_eq (k : Fin 2050) (n : Fin 2048) (e : Fin 4096) : lidx_main_v58 (ix2 k n) e = ix2 k e :=
  funext fun a => Fin.ext (by match a with | ⟨0, _⟩ => rfl | ⟨1, _⟩ => rfl)

theorem ridx58_eq (k : Fin 2050) (n : Fin 2048) (e : Fin 4096) : ridx_main_v58 (ix2 k n) e = ix2 e n :=
  funext fun a => Fin.ext (by match a with | ⟨0, _⟩ => rfl | ⟨1, _⟩ => rfl)

theorem v56_apply (k : Fin 2050) (n : Fin 2048) :
    val_main_v56 (F := Ideal) x0 x1 (ix2 k n) = Spec.Cx (arr2 x0) (arr2 x1) k n := by
  rw [val_main_v56_apply]
  unfold Spec.Cx
  exact Finset.sum_congr rfl fun e _ => by
    rw [lidx56_eq, ridx56_eq, val_main_v55_apply, idx55_eq, v25_apply, v34_apply]

theorem v58_apply (k : Fin 2050) (n : Fin 2048) :
    val_main_v58 (F := Ideal) x0 x1 (ix2 k n) = Spec.Cn (arr2 x0) (arr2 x1) k n := by
  rw [val_main_v58_apply]
  unfold Spec.Cn
  exact Finset.sum_congr rfl fun e _ => by
    rw [lidx58_eq, ridx58_eq, val_main_v57_apply, idx57_eq, v29_apply, v34_apply]

/-- The correlation the sign selects. -/
theorem v61_apply (k : Fin 2050) (n : Fin 2048) :
    val_main_v61 (F := Ideal) x0 x1 (ix2 k n) = Spec.CC (arr2 x0) (arr2 x1) k n := by
  rw [val_main_v61_apply, val_main_v59_apply, val_main_v60_apply, v9_apply, v43_apply, v56_apply, v58_apply]
  rfl

/-! ## Column sums of squares of the first result -/

theorem idx63_eq (n : Fin 2048) (e : Fin 4096) : idx_main_v63 (ix1 n) e = ix2 e n :=
  funext fun a => Fin.ext (by match a with | ⟨0, _⟩ => rfl | ⟨1, _⟩ => rfl)

theorem v63_apply (n : Fin 2048) : val_main_v63 (F := Ideal) x0 x1 (ix1 n) = Spec.Y2 (arr2 x0) (arr2 x1) n := by
  rw [val_main_v63_apply]
  have hz : val_main_cst_18 (F := Ideal) (Shape.Idx.first h_S_) = 0 := Ideal.ofBits_zero_f32
  rw [hz, zero_add]
  unfold Spec.Y2
  exact Finset.sum_congr rfl fun e _ => by rw [idx63_eq, val_main_v62_apply, v34_apply]; rfl

theorem idx67_eq (z : Fin 1) (n : Fin 2048) : idx_main_v67 (ix2 z n) = ix1 n :=
  funext fun a => Fin.ext (by match a with | ⟨0, _⟩ => rfl)

theorem idx68_eq (k : Fin 2050) (n : Fin 2048) : idx_main_v68 (ix2 k n) = ix2 (⟨0, Nat.one_pos⟩ : Fin 1) n :=
  funext fun a => Fin.ext (by match a with | ⟨0, _⟩ => rfl | ⟨1, _⟩ => rfl)

theorem v68_apply (k : Fin 2050) (n : Fin 2048) :
    val_main_v68 (F := Ideal) x0 x1 (ix2 k n) = Spec.Y2 (arr2 x0) (arr2 x1) n := by
  rw [val_main_v68_apply, idx68_eq, val_main_v67_apply, idx67_eq, v63_apply]

/-! ## The weighted entry and the total -/

theorem v69_apply (k : Fin 2050) (n : Fin 2048) :
    val_main_v69 (F := Ideal) x0 x1 (ix2 k n) = Spec.inner (arr2 x0) (arr2 x1) k n := by
  rw [val_main_v69_apply, val_main_v66_apply, val_main_v65_apply, val_main_v64_apply, v54_apply, v61_apply, v68_apply]
  rfl

theorem v70_apply (k : Fin 2050) (n : Fin 2048) :
    val_main_v70 (F := Ideal) x0 x1 (ix2 k n) = Spec.gT (arr2 x1) k n * Spec.inner (arr2 x0) (arr2 x1) k n := by
  rw [val_main_v70_apply, v41_apply, v69_apply]
  rfl

/-- The reference's second result. -/
theorem v72_apply : val_main_v72 (F := Ideal) x0 x1 ix0 = Spec.powerR (arr2 x0) (arr2 x1) := by
  rw [val_main_v72_apply, val_main_v71_apply]
  have hz : val_main_cst_20 (F := Ideal) (Shape.Idx.first h_S_) = 0 := Ideal.ofBits_zero_f32
  rw [hz, zero_add, sum_idx2]
  unfold Spec.powerR
  have hs : (∑ k : Fin 2050, ∑ n : Fin 2048, val_main_v70 (F := Ideal) x0 x1 (ix2 k n))
      = ∑ k : Fin 2050, ∑ n : Fin 2048, Spec.gT (arr2 x1) k n * Spec.inner (arr2 x0) (arr2 x1) k n :=
    Finset.sum_congr rfl fun k _ => Finset.sum_congr rfl fun n _ => v70_apply x0 x1 k n
  rw [hs]
  rfl

end Cert.RefRead

end
-- ==== Proof.lean ====
/-
  The certificate: the kernel program and the reference program compute the same two results on inputs that are
  real numbers with no zero entry of θ.

  The three programs run (the frames). The idealization rewrote nothing, so there is nothing to preserve. For the
  value claim: the kernel program's first result is the region's first output array, z = A·w + bias tile by tile,
  and its second result is the host's combination of the region's three row results with the cost weights; the
  reference's results are its run read back operation by operation. Both are the formulas of Proof/Spec.lean of
  the two input arrays, and on real inputs with θ nowhere zero those formulas agree (Proof/Agree.lean).
-/
import proofs.«149382_j39599598469767_2_alg».proof.Defs
import proofs.«149382_j39599598469767_2_alg».proof.Proof.Gen.Kernel
import proofs.«149382_j39599598469767_2_alg».proof.Proof.Gen.Kernel.Skeleton
import proofs.«149382_j39599598469767_2_alg».proof.Proof.Gen.Kernel.Launch
import proofs.«149382_j39599598469767_2_alg».proof.Proof.Gen.Kernel.Points
import proofs.«149382_j39599598469767_2_alg».proof.Proof.GenP.Kernel.Frame
import proofs.«149382_j39599598469767_2_alg».proof.Proof.Gen.KernelIdeal
import proofs.«149382_j39599598469767_2_alg».proof.Proof.Gen.KernelIdeal.Skeleton
import proofs.«149382_j39599598469767_2_alg».proof.Proof.Gen.KernelIdeal.Launch
import proofs.«149382_j39599598469767_2_alg».proof.Proof.Gen.KernelIdeal.Points
import proofs.«149382_j39599598469767_2_alg».proof.Proof.GenP.KernelIdeal.Frame
import proofs.«149382_j39599598469767_2_alg».proof.Proof.Gen.ReferenceIdeal
import proofs.«149382_j39599598469767_2_alg».proof.Proof.Gen.Pre_finite_inputs
import proofs.«149382_j39599598469767_2_alg».proof.Proof.Gen.ReferenceIdeal.Run
import proofs.«149382_j39599598469767_2_alg».proof.Proof.Gen.ReferenceIdeal.Read
import proofs.«149382_j39599598469767_2_alg».proof.Proof.Agree
import proofs.«149382_j39599598469767_2_alg».proof.Proof.Finite
import proofs.«149382_j39599598469767_2_alg».proof.Proof.KernelValue
import proofs.«149382_j39599598469767_2_alg».proof.Proof.RefZ
import proofs.«149382_j39599598469767_2_alg».proof.Proof.RefPower
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference is a host program: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Idealize.ShloMosaic.ValueIdx in
/-- The kernel program's run with its two results named: the region's first output array is the first result, the
    host lines after the region leave the second; both as formulas of the launched inputs. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41_0)
          = (fun i => Spec.zKer (KHost.curry2 (KHost.aof m c)) (KHost.curry2 (KHost.θof m c)) (i 0) (i 1))
      ∧ r.2.mem ((c.tc : Thread nD τ).loc main_v74)
          = (fun _ => Spec.powerKer (KHost.curry2 (KHost.aof m c)) (KHost.curry2 (KHost.θof m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_, ?_⟩) (GenP.run_main (F := Ideal) m ρ)
  · refine ((h c).1 4).trans ?_
    funext i
    rw [eq_ix2 i]
    exact KValue.z_final m c (i 0) (i 1)
  · refine ((h c).2 main_v74 (Pipeline.mem_restRefs_of main_v74 (by decide) (by decide))).trans ?_
    funext i
    rw [eq_ix0 i]
    exact KValue.power_final m c
  · exact ((h c).1 0).trans (((GenP.dats m 0 c).arrAt_in 0 rfl _).trans ((GenP.A_eq m c 0).trans (GenP.V_main_arg0 m c)))
  · exact ((h c).2 main_arg1 (Pipeline.mem_restRefs_of main_arg1 (by decide) (by decide))).trans
      (GenP.W_main_arg1 m (GenP.dats m) c)

open Idealize.ShloMosaic.ValueIdx in
/-- Both programs run; the precondition makes every input entry a real and every entry of θ nonzero, and on such
    inputs the reference's two formulas are the kernel program's. -/
theorem algebraic : Cert.algebraic_KernelIdeal_ReferenceIdeal := by
  intro m ρ m' ρ' hpre hagree
  refine ⟨_, _, kernel_run m ρ, ?_⟩
  refine (θ_run Cert.ReferenceIdeal.defs _ _).mono (fun _ h c => ?_) (Cert.ReferenceIdeal.Value.run (F := Ideal) m' ρ')
  obtain ⟨ha, ht⟩ := Cert.Finite.pre_elim (KHost.aof m c) (KHost.θof m c) (hpre c)
  obtain ⟨hz, hp⟩ := Cert.Bridge.spec_agree (KHost.curry2 (KHost.aof m c)) (KHost.curry2 (KHost.θof m c))
    (fun e k => ha (ix2 e k)) (fun k n => ht (ix2 k n))
  refine ⟨(h c).1.trans ?_, (h c).2.1.trans ?_, (h c).2.2.1, (h c).2.2.2⟩
  · rw [Cert.ReferenceIdeal.Read.val_main_v34_eq, (hagree c).1, (hagree c).2]
    funext i
    obtain ⟨e, n, rfl⟩ : ∃ (e : Fin 4096) (n : Fin 2048), i = ix2 e n := ⟨i 0, i 1, eq_ix2 i⟩
    rw [Cert.RefRead.v34_apply]
    exact (hz e n).symm
  · rw [Cert.ReferenceIdeal.Read.val_main_v72_eq, (hagree c).1, (hagree c).2]
    funext i
    rw [eq_ix0 i, Cert.RefRead.v72_apply]
    exact hp.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
